-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_v21) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2000x2000 : Shape := ⟨2, ![2000, 2000]⟩
abbrev S10000x2000 : Shape := ⟨2, ![10000, 2000]⟩
abbrev S128x64 : Shape := ⟨2, ![128, 64]⟩
abbrev S64 : Shape := ⟨1, ![64]⟩
abbrev S2000x64 : Shape := ⟨2, ![2000, 64]⟩
abbrev S64x2000 : Shape := ⟨2, ![64, 2000]⟩
abbrev S2000 : Shape := ⟨1, ![2000]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S2000x2000 : S_.BroadcastsInDim S2000x2000 (![] : Fin 0 → Fin S2000x2000.rank)
  reducesTo_S2000x2000_S_d0_1 : S2000x2000.ReducesTo [0, 1] S_
  bcast_S_S10000x2000 : S_.BroadcastsInDim S10000x2000 (![] : Fin 0 → Fin S10000x2000.rank)
  reducesTo_S10000x2000_S_d0_1 : S10000x2000.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S2000x64 : S_.BroadcastsInDim S2000x64 (![] : Fin 0 → Fin S2000x64.rank)
  reducesTo_S2000x64_S_d0_1 : S2000x64.ReducesTo [0, 1] S_
  bcast_S_S64x2000 : S_.BroadcastsInDim S64x2000 (![] : Fin 0 → Fin S64x2000.rank)
  reducesTo_S64x2000_S_d0_1 : S64x2000.ReducesTo [0, 1] S_
  bcast_S_S2000 : S_.BroadcastsInDim S2000 (![] : Fin 0 → Fin S2000.rank)
  reducesTo_S2000_S_d0 : S2000.ReducesTo [0] S_

variable [Facts]

def fn_part2 {F : FTy → Type} [FloatOps F] (main_arg7 : FVec F S64 .f32) (main_arg8 : FVec F S64x2000 .f32) (main_arg9 : FVec F S2000 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x2000 .f32 := Host.absf main_arg8
  let main_cst_14 : FVec F S_ .f32 := constant S_ .f32 0x7F800000#32
  let main_v40 : FVec F S64x2000 .f32 := broadcastInDim S64x2000 ![] bcast_S_S64x2000 main_cst_14
  let main_v41 : IVec S64x2000 1 := cmpf .olt main_v39 main_v40
  let main_c_15 : IVec S_ 1 := constantI S_ 1 1#1
  let main_v42 : IVec S_ 1 := (fun x v => Host.reduce IntOp.andi x v reducesTo_S64x2000_S_d0_1 h_S_) main_v41 main_c_15
  let main_v43 : IVec S_ 1 := andi main_v38 main_v42
  let main_v44 : FVec F S2000 .f32 := Host.absf main_arg9
  let main_cst_16 : FVec F S_ .f32 := constant S_ .f32 0x7F800000#32
  let main_v45 : FVec F S2000 .f32 := broadcastInDim S2000 ![] bcast_S_S2000 main_cst_16
  let main_v46 : IVec S2000 1 := cmpf .olt main_v44 main_v45
  let main_c_17 : IVec S_ 1 := constantI S_ 1 1#1
  let main_v47 : IVec S_ 1 := (fun x v => Host.reduce IntOp.andi x v reducesTo_S2000_S_d0 h_S_) main_v46 main_c_17
  let main_v48 : IVec S_ 1 := andi main_v43 main_v47
  main_v48

def fn_part1 {F : FTy → Type} [FloatOps F] (main_arg4 : FVec F S128x64 .f32) (main_arg5 : FVec F S64 .f32) (main_arg6 : FVec F S2000x64 .f32) (main_arg7 : FVec F S64 .f32) (main_arg8 : FVec F S64x2000 .f32) (main_arg9 : FVec F S2000 .f32) (main_v13 : IVec S_ 1) (main_v16 : IVec S10000x2000 1) : IVec S_ 1 :=
  let main_c_5 : IVec S_ 1 := constantI S_ 1 1#1
  let main_v17 : IVec S_ 1 := (fun x v => Host.reduce IntOp.andi x v reducesTo_S10000x2000_S_d0_1 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S2000x64 .f32 := Host.absf main_arg6
  let main_cst_10 : FVec F S_ .f32 := constant S_ .f32 0x7F800000#32
  let main_v30 : FVec F S2000x64 .f32 := broadcastInDim S2000x64 ![] bcast_S_S2000x64 main_cst_10
  let main_v31 : IVec S2000x64 1 := cmpf .olt main_v29 main_v30
  let main_c_11 : IVec S_ 1 := constantI S_ 1 1#1
  let main_v32 : IVec S_ 1 := (fun x v => Host.reduce IntOp.andi x v reducesTo_S2000x64_S_d0_1 h_S_) main_v31 main_c_11
  let main_v33 : IVec S_ 1 := andi main_v28 main_v32
  fn_part2 (F := F) main_arg7 main_arg8 main_arg9 main_v33

def fn {F : FTy → Type} [FloatOps F] (main_arg0 : FVec F S10000x128 .f32) (main_arg1 : FVec F S2000x2000 .f32) (main_arg2 : FVec F S10000x2000 .f32) (main_arg3 : FVec F S10000x2000 .f32) (main_arg4 : FVec F S128x64 .f32) (main_arg5 : FVec F S64 .f32) (main_arg6 : FVec F S2000x64 .f32) (main_arg7 : FVec F S64 .f32) (main_arg8 : FVec F S64x2000 .f32) (main_arg9 : FVec F S2000 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S2000x2000 .f32 := Host.absf main_arg1
  let main_cst_0 : FVec F S_ .f32 := constant S_ .f32 0x7F800000#32
  let main_v5 : FVec F S2000x2000 .f32 := broadcastInDim S2000x2000 ![] bcast_S_S2000x2000 main_cst_0
  let main_v6 : IVec S2000x2000 1 := cmpf .olt main_v4 main_v5
  let main_c_1 : IVec S_ 1 := constantI S_ 1 1#1
  let main_v7 : IVec S_ 1 := (fun x v => Host.reduce IntOp.andi x v reducesTo_S2000x2000_S_d0_1 h_S_) main_v6 main_c_1
  let main_v8 : IVec S_ 1 := andi main_v3 main_v7
  let main_v9 : FVec F S10000x2000 .f32 := Host.absf main_arg2
  let main_cst_2 : FVec F S_ .f32 := constant S_ .f32 0x7F800000#32
  let main_v10 : FVec F S10000x2000 .f32 := broadcastInDim S10000x2000 ![] bcast_S_S10000x2000 main_cst_2
  let main_v11 : IVec S10000x2000 1 := cmpf .olt main_v9 main_v10
  let main_c_3 : IVec S_ 1 := constantI S_ 1 1#1
  let main_v12 : IVec S_ 1 := (fun x v => Host.reduce IntOp.andi x v reducesTo_S10000x2000_S_d0_1 h_S_) main_v11 main_c_3
  let main_v13 : IVec S_ 1 := andi main_v8 main_v12
  let main_v14 : FVec F S10000x2000 .f32 := Host.absf main_arg3
  let main_cst_4 : FVec F S_ .f32 := constant S_ .f32 0x7F800000#32
  let main_v15 : FVec F S10000x2000 .f32 := broadcastInDim S10000x2000 ![] bcast_S_S10000x2000 main_cst_4
  let main_v16 : IVec S10000x2000 1 := cmpf .olt main_v14 main_v15
  fn_part1 (F := F) main_arg4 main_arg5 main_arg6 main_arg7 main_arg8 main_arg9 main_v13 main_v16
-- ==== Kernel.lean ====
abbrev S10000x128 : Shape := ⟨2, ![10000, 128]⟩
abbrev S2000x2000 : Shape := ⟨2, ![2000, 2000]⟩
abbrev S10000x2000 : Shape := ⟨2, ![10000, 2000]⟩
abbrev S128x64 : Shape := ⟨2, ![128, 64]⟩
abbrev S64 : Shape := ⟨1, ![64]⟩
abbrev S2000x64 : Shape := ⟨2, ![2000, 64]⟩
abbrev S64x2000 : Shape := ⟨2, ![64, 2000]⟩
abbrev S2000 : Shape := ⟨1, ![2000]⟩
abbrev S1x64 : Shape := ⟨2, ![1, 64]⟩
abbrev S1x2000 : Shape := ⟨2, ![1, 2000]⟩
abbrev S10000x64 : Shape := ⟨2, ![10000, 64]⟩
abbrev S400x2000 : Shape := ⟨2, ![400, 2000]⟩
abbrev S400x64 : Shape := ⟨2, ![400, 64]⟩
abbrev S400x128 : Shape := ⟨2, ![400, 128]⟩

abbrev nBuf : Space → Nat
  | .hbm => 23
  | .vmem => 21
  | .smem => 0
  | _ => 0

abbrev bufTy : (tb : Table) → Fin (tcTables nBuf tb) → BufTy
  | .hbm, ⟨0, _⟩ => ⟨S10000x128, .f32⟩
  | .hbm, ⟨1, _⟩ => ⟨S2000x2000, .f32⟩
  | .hbm, ⟨2, _⟩ => ⟨S10000x2000, .f32⟩
  | .hbm, ⟨3, _⟩ => ⟨S10000x2000, .f32⟩
  | .hbm, ⟨4, _⟩ => ⟨S128x64, .f32⟩
  | .hbm, ⟨5, _⟩ => ⟨S64, .f32⟩
  | .hbm, ⟨6, _⟩ => ⟨S2000x64, .f32⟩
  | .hbm, ⟨7, _⟩ => ⟨S64, .f32⟩
  | .hbm, ⟨8, _⟩ => ⟨S64x2000, .f32⟩
  | .hbm, ⟨9, _⟩ => ⟨S2000, .f32⟩
  | .hbm, ⟨10, _⟩ => ⟨S2000x64, .f32⟩
  | .hbm, ⟨11, _⟩ => ⟨S64, .f32⟩
  | .hbm, ⟨12, _⟩ => ⟨S1x64, .f32⟩
  | .hbm, ⟨13, _⟩ => ⟨S1x2000, .f32⟩
  | .hbm, ⟨14, _⟩ => ⟨S10000x2000, .f32⟩
  | .hbm, ⟨15, _⟩ => ⟨S10000x64, .f32⟩
  | .hbm, ⟨16, _⟩ => ⟨S64x2000, .f32⟩
  | .hbm, ⟨17, _⟩ => ⟨S2000x64, .f32⟩
  | .hbm, ⟨18, _⟩ => ⟨S2000x64, .f32⟩
  | .hbm, ⟨19, _⟩ => ⟨S64, .f32⟩
  | .hbm, ⟨20, _⟩ => ⟨S1x64, .f32⟩
  | .hbm, ⟨21, _⟩ => ⟨S2000x64, .f32⟩
  | .hbm, ⟨22, _⟩ => ⟨S2000x64, .f32⟩
  | .local _ .vmem, ⟨0, _⟩ => ⟨S400x2000, .f32⟩
  | .local _ .vmem, ⟨1, _⟩ => ⟨S400x2000, .f32⟩
  | .local _ .vmem, ⟨2, _⟩ => ⟨S2000x64, .f32⟩
  | .local _ .vmem, ⟨3, _⟩ => ⟨S400x64, .f32⟩
  | .local _ .vmem, ⟨4, _⟩ => ⟨S400x64, .f32⟩
  | .local _ .vmem, ⟨5, _⟩ => ⟨S400x128, .f32⟩
  | .local _ .vmem, ⟨6, _⟩ => ⟨S400x128, .f32⟩
  | .local _ .vmem, ⟨7, _⟩ => ⟨S400x2000, .f32⟩
  | .local _ .vmem, ⟨8, _⟩ => ⟨S400x2000, .f32⟩
  | .local _ .vmem, ⟨9, _⟩ => ⟨S400x2000, .f32⟩
  | .local _ .vmem, ⟨10, _⟩ => ⟨S400x2000, .f32⟩
  | .local _ .vmem, ⟨11, _⟩ => ⟨S128x64, .f32⟩
  | .local _ .vmem, ⟨12, _⟩ => ⟨S2000x64, .f32⟩
  | .local _ .vmem, ⟨13, _⟩ => ⟨S64x2000, .f32⟩
  | .local _ .vmem, ⟨14, _⟩ => ⟨S1x64, .f32⟩
  | .local _ .vmem, ⟨15, _⟩ => ⟨S1x2000, .f32⟩
  | .local _ .vmem, ⟨16, _⟩ => ⟨S400x2000, .f32⟩
  | .local _ .vmem, ⟨17, _⟩ => ⟨S400x2000, .f32⟩
  | .local _ .vmem, ⟨18, _⟩ => ⟨S400x64, .f32⟩
  | .local _ .vmem, ⟨19, _⟩ => ⟨S400x64, .f32⟩
  | .local _ .vmem, ⟨20, _⟩ => ⟨S64x2000, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_v0_0 : Ref sig .tc := ⟨.hbm, 14, rfl⟩
abbrev main_v0_1 : Ref sig .tc := ⟨.hbm, 15, rfl⟩
abbrev main_call0_v4_2 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_v0_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg8_1 : Ref sig .tc := ⟨.vmem, 17, rfl⟩
abbrev cc1_stg9_0 : Ref sig .tc := ⟨.vmem, 18, rfl⟩
abbrev cc1_stg9_1 : Ref sig .tc := ⟨.vmem, 19, rfl⟩
abbrev cc1_stg10_0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem8_1 : DmaSem sig := 17
abbrev cc1_sem9_0 : DmaSem sig := 18
abbrev cc1_sem9_1 : DmaSem sig := 19
abbrev cc1_sem10_0 : DmaSem sig := 20

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x2000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2000x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def k1_cond1 (i : grid1.Coords) : BitVec 1 :=
  let arg0 : BitVec 32 := BitVec.ofNat 32 (i 0).val
  let c0_i32 : BitVec 32 := 0#32
  let v32 : BitVec 1 := Scalar.cmpi .eq arg0 c0_i32
  let v33 : BitVec 32 := Scalar.extui v32
  let c0_i32_23 : BitVec 32 := 0#32
  let v34 : BitVec 1 := Scalar.cmpi .ne v33 c0_i32_23
  v34

def k1_cond2 (i : grid1.Coords) : BitVec 1 :=
  let arg0 : BitVec 32 := BitVec.ofNat 32 (i 0).val
  let c0_i32_24 : BitVec 32 := 0#32
  let v35 : BitVec 1 := Scalar.cmpi .sgt arg0 c0_i32_24
  let v36 : BitVec 32 := Scalar.extui v35
  let c0_i32_25 : BitVec 32 := 0#32
  let v37 : BitVec 1 := Scalar.cmpi .ne v36 c0_i32_25
  v37

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S400x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S400x2000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S400x2000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2000x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x2000 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x2000 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S400x2000 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S400x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 1 → Memref sig .tc .vmem S64x2000 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

class Facts₀ : Prop where
  shapeCasts_S64_S1x64 : S64.ShapeCasts S1x64
  shapeCasts_S2000_S1x2000 : S2000.ShapeCasts S1x2000
  transposes_S64x2000_S2000x64_1_0 : S64x2000.Transposes [1, 0] S2000x64
  bcast_S64_S1x64_1 : S64.BroadcastsInDim S1x64 (![1] : Fin 1 → Fin S1x64.rank)
  bcast_S1x64_S2000x64_0_1 : S1x64.BroadcastsInDim S2000x64 (![0, 1] : Fin 2 → Fin S2000x64.rank)
  inb_S400x2000_S400x2000_0_0 : ∀ a, (![0, 0] : Fin 2 → Nat) a + S400x2000.size a ≤ S400x2000.size a
  h_S400x2000 : 0 < S400x2000.numel
  bitsLt_bf16_f32 : FTy.bits .bf16 < FTy.bits .f32
  inb_S2000x64_S2000x64_0_0 : ∀ a, (![0, 0] : Fin 2 → Nat) a + S2000x64.size a ≤ S2000x64.size a
  h_S2000x64 : 0 < S2000x64.numel
  inb_S400x64_S400x64_0_0 : ∀ a, (![0, 0] : Fin 2 → Nat) a + S400x64.size a ≤ S400x64.size a
  h_S400x64 : 0 < S400x64.numel
  inb_S400x128_S400x128_0_0 : ∀ a, (![0, 0] : Fin 2 → Nat) a + S400x128.size a ≤ S400x128.size a
  h_S400x128 : 0 < S400x128.numel
  inb_S128x64_S128x64_0_0 : ∀ a, (![0, 0] : Fin 2 → Nat) a + S128x64.size a ≤ S128x64.size a
  h_S128x64 : 0 < S128x64.numel
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  inb_S64x2000_S64x2000_0_0 : ∀ a, (![0, 0] : Fin 2 → Nat) a + S64x2000.size a ≤ S64x2000.size a
  h_S64x2000 : 0 < S64x2000.numel
  inb_S1x2000_S1x2000_0_0 : ∀ a, (![0, 0] : Fin 2 → Nat) a + S1x2000.size a ≤ S1x2000.size a
  h_S1x2000 : 0 < S1x2000.numel
  shapeCasts_S1x2000_S1x2000 : S1x2000.ShapeCasts S1x2000
  broadcasts_S1x2000_S400x2000 : S1x2000.Broadcasts S400x2000
  shapeCasts_S64x2000_S64x2000 : S64x2000.ShapeCasts S64x2000
  dot_S400x2000_S2000x64_S400x64_1_0_0_1_n_n_wf : DotDims.WF S400x2000 S2000x64 S400x64 [1] [0] [0] [1] [] []
  dot_S400x128_S128x64_S400x64_1_0_0_1_n_n_wf : DotDims.WF S400x128 S128x64 S400x64 [1] [0] [0] [1] [] []
  dot_S400x64_S64x2000_S400x2000_1_0_0_1_n_n_wf : DotDims.WF S400x64 S64x2000 S400x2000 [1] [0] [0] [1] [] []
  dot_S400x64_S400x2000_S64x2000_0_0_1_1_n_n_wf : DotDims.WF S400x64 S400x2000 S64x2000 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x2000.size a ≤ S2000x2000.size a
  hwx0_0 : ∀ i : grid0.Coords, EltTy.bits .f32 = 32 ∨ (Rect.block (s := S2000x2000) S400x2000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S2000x64.size a
  hwx0_1 : ∀ i : grid0.Coords, EltTy.bits .f32 = 32 ∨ (Rect.block (s := S2000x64) S2000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x64.size a ≤ S2000x64.size a
  hwx0_2 : ∀ i : grid0.Coords, EltTy.bits .f32 = 32 ∨ (Rect.block (s := S2000x64) S400x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x128.size a ≤ S10000x128.size a
  hwx1_0 : ∀ i : grid1.Coords, EltTy.bits .f32 = 32 ∨ (Rect.block (s := S10000x128) S400x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S400x2000.size a ≤ S10000x2000.size a
  hwx1_1 : ∀ i : grid1.Coords, EltTy.bits .f32 = 32 ∨ (Rect.block (s := S10000x2000) S400x2000.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x2000.size a ≤ S10000x2000.size a
  hwx1_2 : ∀ i : grid1.Coords, EltTy.bits .f32 = 32 ∨ (Rect.block (s := S10000x2000) S400x2000.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S2000x64.size a ≤ S2000x64.size a
  hwx1_4 : ∀ i : grid1.Coords, EltTy.bits .f32 = 32 ∨ (Rect.block (s := S2000x64) S2000x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x2000.size a ≤ S64x2000.size a
  hwx1_5 : ∀ i : grid1.Coords, EltTy.bits .f32 = 32 ∨ (Rect.block (s := S64x2000) S64x2000.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x2000.size a ≤ S1x2000.size a
  hwx1_7 : ∀ i : grid1.Coords, EltTy.bits .f32 = 32 ∨ (Rect.block (s := S1x2000) S1x2000.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S400x2000.size a ≤ S10000x2000.size a
  hwx1_8 : ∀ i : grid1.Coords, EltTy.bits .f32 = 32 ∨ (Rect.block (s := S10000x2000) S400x2000.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S400x64.size a ≤ S10000x64.size a
  hwx1_9 : ∀ i : grid1.Coords, EltTy.bits .f32 = 32 ∨ (Rect.block (s := S10000x64) S400x64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S64x2000.size a ≤ S64x2000.size a
  hwx1_10 : ∀ i : grid1.Coords, EltTy.bits .f32 = 32 ∨ (Rect.block (s := S64x2000) S64x2000.size (cc1_transform_10 i) (hinb1_10 i)).WholeWords (EltTy.packing .f32)

variable [Facts₀]

def dot_S400x2000_S2000x64_S400x64_1_0_0_1_n_n : DotDims S400x2000 S2000x64 S400x64 where
  lhsContracting := [1]
  rhsContracting := [0]
  lhsNonContracting := [0]
  rhsNonContracting := [1]
  lhsBatch := []
  rhsBatch := []
  wf := dot_S400x2000_S2000x64_S400x64_1_0_0_1_n_n_wf
def dot_S400x128_S128x64_S400x64_1_0_0_1_n_n : DotDims S400x128 S128x64 S400x64 where
  lhsContracting := [1]
  rhsContracting := [0]
  lhsNonContracting := [0]
  rhsNonContracting := [1]
  lhsBatch := []
  rhsBatch := []
  wf := dot_S400x128_S128x64_S400x64_1_0_0_1_n_n_wf
def dot_S400x64_S64x2000_S400x2000_1_0_0_1_n_n : DotDims S400x64 S64x2000 S400x2000 where
  lhsContracting := [1]
  rhsContracting := [0]
  lhsNonContracting := [0]
  rhsNonContracting := [1]
  lhsBatch := []
  rhsBatch := []
  wf := dot_S400x64_S64x2000_S400x2000_1_0_0_1_n_n_wf
def dot_S400x64_S400x2000_S64x2000_0_0_1_1_n_n : DotDims S400x64 S400x2000 S64x2000 where
  lhsContracting := [0]
  rhsContracting := [0]
  lhsNonContracting := [1]
  rhsNonContracting := [1]
  lhsBatch := []
  rhsBatch := []
  wf := dot_S400x64_S400x2000_S64x2000_0_0_1_1_n_n_wf

abbrev win0_0 : Pipeline.Window sig grid0 :=
  Pipeline.Window.ofSpec (Memref.whole main_arg1) S400x2000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S2000x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S400x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S400x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S400x2000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S400x2000.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v0) S2000x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S64x2000.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_call0_v2) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_call0_v3) S1x2000.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v0_0) S400x2000.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v0_1) S400x64.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_call0_v4_2) S64x2000.size cc1_transform_10 reads1_10 true true 1 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev idle1 : Fin 11 → grid1.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k1_cond1 i == 1#1) && !(k1_cond2 i == 1#1) | ⟨_ + 11, h⟩ => absurd h (Nat.not_lt.2 (Nat.le_add_left _ _))

class Facts : Prop extends Facts₀ where

variable [Facts]
-- ==== ReferenceIdeal.lean ====
abbrev S10000x128 : Shape := ⟨2, ![10000, 128]⟩
abbrev S2000x2000 : Shape := ⟨2, ![2000, 2000]⟩
abbrev S10000x2000 : Shape := ⟨2, ![10000, 2000]⟩
abbrev S128x64 : Shape := ⟨2, ![128, 64]⟩
abbrev S64 : Shape := ⟨1, ![64]⟩
abbrev S2000x64 : Shape := ⟨2, ![2000, 64]⟩
abbrev S64x2000 : Shape := ⟨2, ![64, 2000]⟩
abbrev S2000 : Shape := ⟨1, ![2000]⟩
abbrev S10000x64 : Shape := ⟨2, ![10000, 64]⟩
abbrev S1x64 : Shape := ⟨2, ![1, 64]⟩
abbrev S2000x10000 : Shape := ⟨2, ![2000, 10000]⟩
abbrev S_ : Shape := ⟨0, ![]⟩
abbrev S1x2000 : Shape := ⟨2, ![1, 2000]⟩

abbrev nBuf : Space → Nat
  | .hbm => 42
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2000x2000, .f32⟩
  | .hbm, ⟨2, _⟩ => ⟨S10000x2000, .f32⟩
  | .hbm, ⟨3, _⟩ => ⟨S10000x2000, .f32⟩
  | .hbm, ⟨4, _⟩ => ⟨S128x64, .f32⟩
  | .hbm, ⟨5, _⟩ => ⟨S64, .f32⟩
  | .hbm, ⟨6, _⟩ => ⟨S2000x64, .f32⟩
  | .hbm, ⟨7, _⟩ => ⟨S64, .f32⟩
  | .hbm, ⟨8, _⟩ => ⟨S64x2000, .f32⟩
  | .hbm, ⟨9, _⟩ => ⟨S2000, .f32⟩
  | .hbm, ⟨10, _⟩ => ⟨S10000x2000, .f32⟩
  | .hbm, ⟨11, _⟩ => ⟨S10000x64, .f32⟩
  | .hbm, ⟨12, _⟩ => ⟨S1x64, .f32⟩
  | .hbm, ⟨13, _⟩ => ⟨S10000x64, .f32⟩
  | .hbm, ⟨14, _⟩ => ⟨S10000x64, .f32⟩
  | .hbm, ⟨15, _⟩ => ⟨S2000x64, .f32⟩
  | .hbm, ⟨16, _⟩ => ⟨S1x64, .f32⟩
  | .hbm, ⟨17, _⟩ => ⟨S2000x64, .f32⟩
  | .hbm, ⟨18, _⟩ => ⟨S2000x64, .f32⟩
  | .hbm, ⟨19, _⟩ => ⟨S2000x64, .f32⟩
  | .hbm, ⟨20, _⟩ => ⟨S10000x64, .f32⟩
  | .hbm, ⟨21, _⟩ => ⟨S1x64, .f32⟩
  | .hbm, ⟨22, _⟩ => ⟨S10000x64, .f32⟩
  | .hbm, ⟨23, _⟩ => ⟨S10000x64, .f32⟩
  | .hbm, ⟨24, _⟩ => ⟨S10000x64, .f32⟩
  | .hbm, ⟨25, _⟩ => ⟨S2000x10000, .f32⟩
  | .hbm, ⟨26, _⟩ => ⟨S10000x64, .f32⟩
  | .hbm, ⟨27, _⟩ => ⟨S2000x64, .f32⟩
  | .hbm, ⟨28, _⟩ => ⟨S1x64, .f32⟩
  | .hbm, ⟨29, _⟩ => ⟨S2000x64, .f32⟩
  | .hbm, ⟨30, _⟩ => ⟨S2000x64, .f32⟩
  | .hbm, ⟨31, _⟩ => ⟨S2000x64, .f32⟩
  | .hbm, ⟨32, _⟩ => ⟨S_, .f32⟩
  | .hbm, ⟨33, _⟩ => ⟨S10000x64, .f32⟩
  | .hbm, ⟨34, _⟩ => ⟨S10000x64, .f32⟩
  | .hbm, ⟨35, _⟩ => ⟨S_, .f32⟩
  | .hbm, ⟨36, _⟩ => ⟨S2000x64, .f32⟩
  | .hbm, ⟨37, _⟩ => ⟨S2000x64, .f32⟩
  | .hbm, ⟨38, _⟩ => ⟨S10000x2000, .f32⟩
  | .hbm, ⟨39, _⟩ => ⟨S1x2000, .f32⟩
  | .hbm, ⟨40, _⟩ => ⟨S10000x2000, .f32⟩
  | .hbm, ⟨41, _⟩ => ⟨S10000x2000, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call0_cst : Ref sig .tc := ⟨.hbm, 32, rfl⟩
abbrev main_call0_v0 : Ref sig .tc := ⟨.hbm, 33, rfl⟩
abbrev main_v22 : Ref sig .tc := ⟨.hbm, 34, rfl⟩
abbrev main_call1_cst : Ref sig .tc := ⟨.hbm, 35, rfl⟩
abbrev main_call1_v0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S1x64_S2000x64_0_1 : S1x64.BroadcastsInDim S2000x64 (![0, 1] : Fin 2 → Fin S2000x64.rank)
  transposes_S10000x2000_S2000x10000_1_0 : S10000x2000.Transposes [1, 0] S2000x10000
  bcast_S_S10000x64 : S_.BroadcastsInDim S10000x64 (![] : Fin 0 → Fin S10000x64.rank)
  bcast_S_S2000x64 : S_.BroadcastsInDim S2000x64 (![] : Fin 0 → Fin S2000x64.rank)
  bcast_S2000_S1x2000_1 : S2000.BroadcastsInDim S1x2000 (![1] : Fin 1 → Fin S1x2000.rank)
  bcast_S1x2000_S10000x2000_0_1 : S1x2000.BroadcastsInDim S10000x2000 (![0, 1] : Fin 2 → Fin S10000x2000.rank)
  dot_S10000x128_S128x64_S10000x64_1_0_0_1_n_n_wf : DotDims.WF S10000x128 S128x64 S10000x64 [1] [0] [0] [1] [] []
  dot_S2000x2000_S2000x64_S2000x64_1_0_0_1_n_n_wf : DotDims.WF S2000x2000 S2000x64 S2000x64 [1] [0] [0] [1] [] []
  dot_S10000x2000_S2000x64_S10000x64_1_0_0_1_n_n_wf : DotDims.WF S10000x2000 S2000x64 S10000x64 [1] [0] [0] [1] [] []
  dot_S2000x10000_S10000x64_S2000x64_1_0_0_1_n_n_wf : DotDims.WF S2000x10000 S10000x64 S2000x64 [1] [0] [0] [1] [] []
  dot_S10000x64_S64x2000_S10000x2000_1_0_0_1_n_n_wf : DotDims.WF S10000x64 S64x2000 S10000x2000 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S2000x2000_S2000x64_S2000x64_1_0_0_1_n_n : DotDims S2000x2000 S2000x64 S2000x64 where
  lhsContracting := [1]
  rhsContracting := [0]
  lhsNonContracting := [0]
  rhsNonContracting := [1]
  lhsBatch := []
  rhsBatch := []
  wf := dot_S2000x2000_S2000x64_S2000x64_1_0_0_1_n_n_wf
def dot_S10000x2000_S2000x64_S10000x64_1_0_0_1_n_n : DotDims S10000x2000 S2000x64 S10000x64 where
  lhsContracting := [1]
  rhsContracting := [0]
  lhsNonContracting := [0]
  rhsNonContracting := [1]
  lhsBatch := []
  rhsBatch := []
  wf := dot_S10000x2000_S2000x64_S10000x64_1_0_0_1_n_n_wf
def dot_S2000x10000_S10000x64_S2000x64_1_0_0_1_n_n : DotDims S2000x10000 S10000x64 S2000x64 where
  lhsContracting := [1]
  rhsContracting := [0]
  lhsNonContracting := [0]
  rhsNonContracting := [1]
  lhsBatch := []
  rhsBatch := []
  wf := dot_S2000x10000_S10000x64_S2000x64_1_0_0_1_n_n_wf
def dot_S10000x64_S64x2000_S10000x2000_1_0_0_1_n_n : DotDims S10000x64 S64x2000 S10000x2000 where
  lhsContracting := [1]
  rhsContracting := [0]
  lhsNonContracting := [0]
  rhsNonContracting := [1]
  lhsBatch := []
  rhsBatch := []
  wf := dot_S10000x64_S64x2000_S10000x2000_1_0_0_1_n_n_wf

class Facts : Prop extends Facts₀ where

variable [Facts]
-- ==== Proof.K.Region0.lean ====
/-
  The first kernel region, `s3 = x3 · W3` computed 400 rows at a time over a grid of five points, as the pipeline
  runs it: at point `t` the body finds rows `400 t … 400 t + 399` of `x3` in its first staging buffer and all of `W3`
  in its second, and leaves in its third the one value it stores, which the pipeline writes back to rows
  `400 t … 400 t + 399` of the result. Stated for any float instance and any contents `V` of the core's buffers at
  the region's entry: the body's triple, the proof data of the pipeline, and its body obligation.
-/
import proofs.«139756_g50276887167361_cont_8to1_c_1049_28_alg».proof.Proof.Gen.Kernel.Launch
import proofs.«139756_g50276887167361_cont_8to1_c_1049_28_alg».proof.Proof.Gen.Kernel.Skeleton
import proofs.«139756_g50276887167361_cont_8to1_c_1049_28_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows of `x3` are in their staging buffer at every point, for any proof data over `V` whose body leaves them there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- `W3`, fetched once, is in its staging buffer at every point: its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses and what it leaves -/

abbrev rX3 : Rect S400x2000 := Rect.unit (s := S400x2000) ![0, 0] S400x2000.size inb_S400x2000_S400x2000_0_0
abbrev rW3 : Rect S2000x64 := Rect.unit (s := S2000x64) ![0, 0] S2000x64.size inb_S2000x64_S2000x64_0_0
abbrev rT3 : Rect S400x64 := Rect.unit (s := S400x64) ![0, 0] S400x64.size inb_S400x64_S400x64_0_0

/-- The result's staging buffer after the body: its one store, of the product of the two loaded blocks. -/
def out0_2 (x0 : Vec F S400x2000 .f32) (x1 : Vec F S2000x64 .f32) : Vec F S400x64 .f32 :=
  View.canon [⟨rT3, k0_pay1 (View.ld x0 rX3) (View.ld x1 rW3)⟩]

/-- The one store covers the buffer. -/
theorem cover0_2 (p0 : Vec F S400x64 .f32) (y : S400x64.Idx) :
    ∃ pc ∈ ([⟨rT3, p0⟩] : List (View.Piece (Elt F) S400x64 .f32)), y ∈ pc.1.set :=
  View.cover_of_tiled [⟨rT3, p0⟩] S400x64.size (by rfl) y

/-! ## The body's triple -/

set_option maxHeartbeats 1000000 in
/-- On whole staging memrefs, the inputs' at contents `x0`, `x1` and the result's at anything, the body runs to the
    continuation with the inputs' as they were and the result's at `out0_2 x0 x1`. -/
theorem sound_kernel0 (c : Dev nD) (E : Set ℕ) (i : grid0.Coords) (arg1 : Memref sig .tc .vmem S400x2000 .f32) (harg1 : arg1.IsWhole) (arg2 : Memref sig .tc .vmem S2000x64 .f32) (harg2 : arg2.IsWhole) (arg3 : Memref sig .tc .vmem S400x64 .f32) (harg3 : arg3.IsWhole)
    (x0 : Vec F S400x2000 .f32) (x1 : Vec F S2000x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__t3_body i arg1 harg1 arg2 harg2 arg3 harg3) K := by
  simp only [cc0__t3_body_eq_skeleton]; unfold cc0__t3_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the first pipeline on core `c`: the arrays as the region finds them; after the body at point `t`
    each input's buffer at its block and the result's at `out0_2` of the two blocks; the scoped rest and the generator
    register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1Defs.lean ====
/-
  The second kernel region over its grid of 25 points, 400 rows of the first node type per point: what the two
  runs of its body and its proof data are stated over. At point `t` the body finds rows `400 t … 400 t + 399` of `x0`,
  `adj` and `mask`, and all of `W0`, `s3 = x3 · W3`, `Wp`, the bias row `b0 + b3` and the row `bp`; it stores the rows'
  hidden features, their reconstruction, and — into a buffer that stays resident over the whole grid — the rows'
  contribution `s0ᵀ · e` to the second node type's aggregate: stored at the first point, added to what the buffer holds
  at every later one. Exactly one of the two guarded stores runs at each point, so the resident window is never idle.
-/
import proofs.«139756_g50276887167361_cont_8to1_c_1049_28_alg».proof.Proof.Gen.Kernel.Launch
import proofs.«139756_g50276887167361_cont_8to1_c_1049_28_alg».proof.Proof.Gen.Kernel.Skeleton
import proofs.«139756_g50276887167361_cont_8to1_c_1049_28_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rows of `x0` of the point are in their staging buffer at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The rows of `adj` of the point are in their staging buffer at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The rows of `mask` of the point are in their staging buffer at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- `W0`, fetched once, stays in its staging buffer: its block index never moves. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- `s3`, fetched once, stays in its staging buffer. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- `Wp`, fetched once, stays in its staging buffer. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The summed bias row `b0 + b3`, fetched once, stays in its staging buffer. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- The bias row `bp`, fetched once, stays in its staging buffer. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev rRows : Rect S400x2000 := Rect.unit (s := S400x2000) ![0, 0] S400x2000.size inb_S400x2000_S400x2000_0_0
abbrev rX0 : Rect S400x128 := Rect.unit (s := S400x128) ![0, 0] S400x128.size inb_S400x128_S400x128_0_0
abbrev rW0 : Rect S128x64 := Rect.unit (s := S128x64) ![0, 0] S128x64.size inb_S128x64_S128x64_0_0
abbrev rS3 : Rect S2000x64 := Rect.unit (s := S2000x64) ![0, 0] S2000x64.size inb_S2000x64_S2000x64_0_0
abbrev rWp : Rect S64x2000 := Rect.unit (s := S64x2000) ![0, 0] S64x2000.size inb_S64x2000_S64x2000_0_0
abbrev rB : Rect S1x64 := Rect.unit (s := S1x64) ![0, 0] S1x64.size inb_S1x64_S1x64_0_0
abbrev rBp : Rect S1x2000 := Rect.unit (s := S1x2000) ![0, 0] S1x2000.size inb_S1x2000_S1x2000_0_0
abbrev rH0 : Rect S400x64 := Rect.unit (s := S400x64) ![0, 0] S400x64.size inb_S400x64_S400x64_0_0

/-! ## What the body leaves in each output window's buffer

The inputs' contents are named by window: `x0` the rows of `x0`, `x1` of `adj`, `x2` of `mask`, `x3` `W0`, `x4` `s3`,
`x5` `Wp`, `x6` the summed bias row, `x7` the row `bp`. -/

/-- The rows' hidden features: the one store into the second output's buffer. -/
def out1_9 (x0 : Vec F S400x128 .f32) (x1 x2 : Vec F S400x2000 .f32) (x3 : Vec F S128x64 .f32) (x4 : Vec F S2000x64 .f32) (x6 : Vec F S1x64 .f32) : Vec F S400x64 .f32 :=
  View.canon [⟨rH0, k1_pay4 (View.ld x2 rRows) (View.ld x1 rRows) (View.ld x0 rX0) (View.ld x3 rW0) (View.ld x4 rS3) (View.ld x6 rB)⟩]

/-- The rows' reconstruction: the one store into the first output's buffer. -/
def out1_8 (x0 : Vec F S400x128 .f32) (x1 x2 : Vec F S400x2000 .f32) (x3 : Vec F S128x64 .f32) (x4 : Vec F S2000x64 .f32) (x5 : Vec F S64x2000 .f32) (x6 : Vec F S1x64 .f32) (x7 : Vec F S1x2000 .f32) : Vec F S400x2000 .f32 :=
  View.canon [⟨rRows, k1_pay5 (View.ld x2 rRows) (View.ld x1 rRows) (View.ld x0 rX0) (View.ld x3 rW0) (View.ld x4 rS3) (View.ld x6 rB) (View.ld x5 rWp) (View.ld x7 rBp)⟩]

/-- The rows' contribution `s0ᵀ · e` to the second node type's aggregate. -/
def contrib1 (x0 : Vec F S400x128 .f32) (x1 x2 : Vec F S400x2000 .f32) (x3 : Vec F S128x64 .f32) : FVec F S64x2000 .f32 :=
  k1_pay6 (View.ld x2 rRows) (View.ld x1 rRows) (View.ld x0 rX0) (View.ld x3 rW0)

/-- The resident buffer after the first point: the contribution, stored. -/
def out1_10A (x0 : Vec F S400x128 .f32) (x1 x2 : Vec F S400x2000 .f32) (x3 : Vec F S128x64 .f32) : Vec F S64x2000 .f32 :=
  View.canon [⟨rWp, contrib1 x0 x1 x2 x3⟩]

/-- The resident buffer after a later point: what it held, `xo`, plus the contribution. -/
def out1_10B (x0 : Vec F S400x128 .f32) (x1 x2 : Vec F S400x2000 .f32) (x3 : Vec F S128x64 .f32) (xo : Vec F S64x2000 .f32) : Vec F S64x2000 .f32 :=
  View.canon [⟨rWp, k1_pay1 (contrib1 x0 x1 x2 x3) (View.ld xo rWp)⟩]

/-- Each output's one store covers its buffer. -/
theorem cover1_8 (p0 : Vec F S400x2000 .f32) (y : S400x2000.Idx) :
    ∃ pc ∈ ([⟨rRows, p0⟩] : List (View.Piece (Elt F) S400x2000 .f32)), y ∈ pc.1.set :=
  View.cover_of_tiled [⟨rRows, p0⟩] S400x2000.size (by rfl) y
theorem cover1_9 (p0 : Vec F S400x64 .f32) (y : S400x64.Idx) :
    ∃ pc ∈ ([⟨rH0, p0⟩] : List (View.Piece (Elt F) S400x64 .f32)), y ∈ pc.1.set :=
  View.cover_of_tiled [⟨rH0, p0⟩] S400x64.size (by rfl) y
theorem cover1_10 (p0 : Vec F S64x2000 .f32) (y : S64x2000.Idx) :
    ∃ pc ∈ ([⟨rWp, p0⟩] : List (View.Piece (Elt F) S64x2000 .f32)), y ∈ pc.1.set :=
  View.cover_of_tiled [⟨rWp, p0⟩] S64x2000.size (by rfl) y

/-! ## The two guards, over the grid -/

/-- The first guard (the point is the first) holds at point 0 only. -/
theorem hcond1 : ∀ t : Fin cfg1.N, k1_cond1 (grid1.coords t) = 1#1 ↔ t.val = 0 :=
  (by decide +kernel : ∀ t : Fin grid1.N, k1_cond1 (grid1.coords t) = 1#1 ↔ t.val = 0)
/-- The second guard (the point is a later one) holds at every other point. -/
theorem hcond2 : ∀ t : Fin cfg1.N, k1_cond2 (grid1.coords t) = 1#1 ↔ t.val ≠ 0 :=
  (by decide +kernel : ∀ t : Fin grid1.N, k1_cond2 (grid1.coords t) = 1#1 ↔ t.val ≠ 0)

/-- One of the guards holds at every grid coordinate: the resident window is idle nowhere. -/
theorem live1_10 : ∀ i : grid1.Coords, cfg1.idle 10 i = false :=
  (by decide +kernel : ∀ i : grid1.Coords, idle1 10 i = false)

end Cert.Kernel.Hand

end
-- ==== Proof.K.Run1A.lean ====
/-
  The second region's body at the FIRST grid point: the first guard holds and the second fails, so the rows' contribution is stored into the resident buffer over whatever it held.
-/
import proofs.«139756_g50276887167361_cont_8to1_c_1049_28_alg».proof.Proof.Gen.Kernel.Launch
import proofs.«139756_g50276887167361_cont_8to1_c_1049_28_alg».proof.Proof.Gen.Kernel.Skeleton
import proofs.«139756_g50276887167361_cont_8to1_c_1049_28_alg».proof.Proof.Gen.Kernel.Points
import proofs.«139756_g50276887167361_cont_8to1_c_1049_28_alg».proof.Proof.K.Region1Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- On whole staging memrefs, the eight inputs' at their contents, the body runs to the continuation with the inputs'
    as they were, the reconstruction's buffer at `out1_8`, the hidden features' at `out1_9` and the resident buffer at
    `out1_10A` of them. -/
theorem sound_kernel1_A (c : Dev nD) (E : Set ℕ) (i : grid1.Coords) (arg1 : Memref sig .tc .vmem S400x128 .f32) (harg1 : arg1.IsWhole) (arg2 : Memref sig .tc .vmem S400x2000 .f32) (harg2 : arg2.IsWhole) (arg3 : Memref sig .tc .vmem S400x2000 .f32) (harg3 : arg3.IsWhole) (arg4 : Memref sig .tc .vmem S128x64 .f32) (harg4 : arg4.IsWhole) (arg5 : Memref sig .tc .vmem S2000x64 .f32) (harg5 : arg5.IsWhole) (arg6 : Memref sig .tc .vmem S64x2000 .f32) (harg6 : arg6.IsWhole) (arg7 : Memref sig .tc .vmem S1x64 .f32) (harg7 : arg7.IsWhole) (arg8 : Memref sig .tc .vmem S1x2000 .f32) (harg8 : arg8.IsWhole) (arg9 : Memref sig .tc .vmem S400x2000 .f32) (harg9 : arg9.IsWhole) (arg10 : Memref sig .tc .vmem S400x64 .f32) (harg10 : arg10.IsWhole) (arg11 : Memref sig .tc .vmem S64x2000 .f32) (harg11 : arg11.IsWhole)
    (hc1 : k1_cond1 i = 1#1) (hc2 : ¬k1_cond2 i = 1#1)
    (x0 : Vec F S400x128 .f32) (x1 x2 : Vec F S400x2000 .f32) (x3 : Vec F S128x64 .f32) (x4 : Vec F S2000x64 .f32) (x5 : Vec F S64x2000 .f32) (x6 : Vec F S1x64 .f32) (x7 : Vec F S1x2000 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (out1_8 x0 x1 x2 x3 x4 x5 x6 x7) ∗ owns (c : Thread nD τ) arg10 fullShare (out1_9 x0 x1 x2 x3 x4 x6)
            ∗ owns (c : Thread nD τ) arg11 fullShare (out1_10A x0 x1 x2 x3)) -∗ K ⟨⟩))
      ⊢ wp frame (wpE (defs₀ (F := F)) Variants.none c none) E (cc1__main_body i arg1 harg1 arg2 harg2 arg3 harg3 arg4 harg4 arg5 harg5 arg6 harg6 arg7 harg7 arg8 harg8 arg9 harg9 arg10 harg10 arg11 harg11) K := by
  simp only [cc1__main_body_eq_skeleton]; unfold cc1__main_body_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover1_8 _)
  isplitl [H9]
  · iexists _; isplitr
    swap; · iexact H9
    ipureintro
    exact View.read_writes_eq_canon _ _ _ (cover1_9 _)
  iexists _; isplitr
  swap; · iexact H10
  ipureintro
  exact View.read_writes_eq_canon _ _ _ (cover1_10 _)

end Cert.Kernel.Hand

end
-- ==== Proof.K.Run1B.lean ====
/-
  The second region's body at a LATER grid point: the first guard fails and the second holds, so the rows' contribution is added to what the resident buffer holds, `xo`, and the sum stored back.
-/
import proofs.«139756_g50276887167361_cont_8to1_c_1049_28_alg».proof.Proof.Gen.Kernel.Launch
import proofs.«139756_g50276887167361_cont_8to1_c_1049_28_alg».proof.Proof.Gen.Kernel.Skeleton
import proofs.«139756_g50276887167361_cont_8to1_c_1049_28_alg».proof.Proof.Gen.Kernel.Points
import proofs.«139756_g50276887167361_cont_8to1_c_1049_28_alg».proof.Proof.K.Region1Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- On whole staging memrefs, the eight inputs' at their contents, the body runs to the continuation with the inputs'
    as they were, the reconstruction's buffer at `out1_8`, the hidden features' at `out1_9` and the resident buffer at
    `out1_10B` of them. -/
theorem sound_kernel1_B (c : Dev nD) (E : Set ℕ) (i : grid1.Coords) (arg1 : Memref sig .tc .vmem S400x128 .f32) (harg1 : arg1.IsWhole) (arg2 : Memref sig .tc .vmem S400x2000 .f32) (harg2 : arg2.IsWhole) (arg3 : Memref sig .tc .vmem S400x2000 .f32) (harg3 : arg3.IsWhole) (arg4 : Memref sig .tc .vmem S128x64 .f32) (harg4 : arg4.IsWhole) (arg5 : Memref sig .tc .vmem S2000x64 .f32) (harg5 : arg5.IsWhole) (arg6 : Memref sig .tc .vmem S64x2000 .f32) (harg6 : arg6.IsWhole) (arg7 : Memref sig .tc .vmem S1x64 .f32) (harg7 : arg7.IsWhole) (arg8 : Memref sig .tc .vmem S1x2000 .f32) (harg8 : arg8.IsWhole) (arg9 : Memref sig .tc .vmem S400x2000 .f32) (harg9 : arg9.IsWhole) (arg10 : Memref sig .tc .vmem S400x64 .f32) (harg10 : arg10.IsWhole) (arg11 : Memref sig .tc .vmem S64x2000 .f32) (harg11 : arg11.IsWhole)
    (hc1 : ¬k1_cond1 i = 1#1) (hc2 : k1_cond2 i = 1#1)
    (x0 : Vec F S400x128 .f32) (x1 x2 : Vec F S400x2000 .f32) (x3 : Vec F S128x64 .f32) (x4 : Vec F S2000x64 .f32) (x5 : Vec F S64x2000 .f32) (x6 : Vec F S1x64 .f32) (x7 : Vec F S1x2000 .f32) (xo : Vec F S64x2000 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ (∃ d, owns (c : Thread nD τ) arg10 fullShare d) ∗ owns (c : Thread nD τ) arg11 fullShare xo
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (out1_8 x0 x1 x2 x3 x4 x5 x6 x7) ∗ owns (c : Thread nD τ) arg10 fullShare (out1_9 x0 x1 x2 x3 x4 x6)
            ∗ owns (c : Thread nD τ) arg11 fullShare (out1_10B x0 x1 x2 x3 xo)) -∗ K ⟨⟩))
      ⊢ wp frame (wpE (defs₀ (F := F)) Variants.none c none) E (cc1__main_body i arg1 harg1 arg2 harg2 arg3 harg3 arg4 harg4 arg5 harg5 arg6 harg6 arg7 harg7 arg8 harg8 arg9 harg9 arg10 harg10 arg11 harg11) K := by
  simp only [cc1__main_body_eq_skeleton]; unfold cc1__main_body_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, Hk⟩
  subst hf0 hf1 hf2 hf3 hf4 hf5 hf6 hf7 hf10
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover1_8 _)
  isplitl [H9]
  · iexists _; isplitr
    swap; · iexact H9
    ipureintro
    exact View.read_writes_eq_canon _ _ _ (cover1_9 _)
  iexists _; isplitr
  swap; · iexact H10
  ipureintro
  exact View.read_writes_eq_canon _ _ _ (cover1_10 _)

end Cert.Kernel.Hand

end
-- ==== Proof.K.Region1.lean ====
/-
  The second kernel region's proof data and body obligation. The resident buffer's contents after point `n` are the
  running sum of the contributions of points `0 … n` (`acc1`, by recursion on the point: stored at point 0, added to at
  every later one); the other two outputs hold the point's own rows. A later point finds in the resident buffer what
  the point before left, because the window is written back at the last point only and is idle nowhere.
-/
import proofs.«139756_g50276887167361_cont_8to1_c_1049_28_alg».proof.Proof.Gen.Kernel.Launch
import proofs.«139756_g50276887167361_cont_8to1_c_1049_28_alg».proof.Proof.Gen.Kernel.Skeleton
import proofs.«139756_g50276887167361_cont_8to1_c_1049_28_alg».proof.Proof.Gen.Kernel.Points
import proofs.«139756_g50276887167361_cont_8to1_c_1049_28_alg».proof.Proof.K.Run1A
import proofs.«139756_g50276887167361_cont_8to1_c_1049_28_alg».proof.Proof.K.Run1B
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The running sum in the resident buffer -/

/-- What the resident buffer holds after the body at point `n`: the first point's contribution, stored; then each later
    point's contribution added to what the point before left. -/
def acc1 (c : Dev nD) : (n : ℕ) → n < cfg1.N → Vec F S64x2000 .f32
  | 0, hn => out1_10A (iblk1 V c 0 ⟨0, hn⟩) (iblk1 V c 1 ⟨0, hn⟩) (iblk1 V c 2 ⟨0, hn⟩) (iblk1 V c 3 ⟨0, hn⟩)
  | n + 1, hn => out1_10B (iblk1 V c 0 ⟨n + 1, hn⟩) (iblk1 V c 1 ⟨n + 1, hn⟩) (iblk1 V c 2 ⟨n + 1, hn⟩) (iblk1 V c 3 ⟨n + 1, hn⟩) (acc1 c n (Nat.lt_of_succ_lt hn))

theorem acc1_first (c : Dev nD) (t : Fin cfg1.N) (h0 : t.val = 0) :
    acc1 V c t.val t.isLt = out1_10A (iblk1 V c 0 t) (iblk1 V c 1 t) (iblk1 V c 2 t) (iblk1 V c 3 t) := by
  obtain ⟨n, hn⟩ := t
  cases n with
  | zero => exact rfl
  | succ n => exact absurd h0 (Nat.succ_ne_zero n)

theorem acc1_later (c : Dev nD) (t : Fin cfg1.N) (h0 : t.val ≠ 0) :
    acc1 V c t.val t.isLt = out1_10B (iblk1 V c 0 t) (iblk1 V c 1 t) (iblk1 V c 2 t) (iblk1 V c 3 t) (acc1 V c (t.val - 1) (Nat.lt_of_le_of_lt (Nat.sub_le _ _) t.isLt)) := by
  obtain ⟨n, hn⟩ := t
  cases n with
  | zero => exact absurd rfl h0
  | succ n => exact rfl

/-! ## The pipeline's proof data -/

/-- The proof data of the second pipeline on core `c`: the arrays as the region finds them; after the body at point `t`
    each input's buffer at its block, the two row outputs at the point's rows, the resident buffer at the running sum;
    the scoped rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
    | ⟨9, _⟩ => out1_9 (iblk1 V c 0 t) (iblk1 V c 1 t) (iblk1 V c 2 t) (iblk1 V c 3 t) (iblk1 V c 4 t) (iblk1 V c 6 t)
    | ⟨10, _⟩ => acc1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) (iblk1 V c 7 t) := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 6 t) := by dsimp only [dat1]
theorem after1_10 (c : Dev nD) (t : Fin cfg1.N) : (dat1 V c).after 10 t = acc1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-- At a later point the resident buffer holds what the body left at the point before: the window is an output, written
    back at the last point only, live everywhere and uncut. -/
theorem before1_10_later (c : Dev nD) (t : Fin cfg1.N) (h0 : t.val ≠ 0) (d) :
    (dat1 V c).before 10 t d = acc1 V c (t.val - 1) (Nat.lt_of_le_of_lt (Nat.sub_le _ _) t.isLt) := by
  have hN : t.val < 25 := lt_of_lt_of_eq t.isLt (show cfg1.N = 25 from N_1)
  rw [Dat.before_out_kept _ 10 rfl t h0 (Bool.eq_false_iff.mpr fun h => by have := (flush1_10 _).mp h; dsimp only at this; omega)
    live1_10 (fun _ _ => rfl)]
  dsimp only [dat1]

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

set_option maxHeartbeats 2000000 in
/-- The body at any point: the inputs' memrefs hold their blocks; the point is the first or a later one, and at a later
    one the resident buffer holds the running sum so far; so the matching run applies; the invariant and what the core
    owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  by_cases h0 : t.val = 0
  · rw [acc1_first V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (sound_kernel1_A c Set.univ (grid1.coords t) _ _ _ _ _ _ _ _ _ _ _ _ _ _ _ _ _ _ _ _ _ _ ((hcond1 t).mpr h0) (fun h => (hcond2 t).mp h h0)
      (iblk1 V c 0 t) (iblk1 V c 1 t) (iblk1 V c 2 t) (iblk1 V c 3 t) (iblk1 V c 4 t) (iblk1 V c 5 t) (iblk1 V c 6 t) (iblk1 V c 7 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    iintro ⟨H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [acc1_later V c t h0]
    simp only [before1_10_later V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (sound_kernel1_B c Set.univ (grid1.coords t) _ _ _ _ _ _ _ _ _ _ _ _ _ _ _ _ _ _ _ _ _ _ (fun h => h0 ((hcond1 t).mp h)) ((hcond2 t).mpr h0)
      (iblk1 V c 0 t) (iblk1 V c 1 t) (iblk1 V c 2 t) (iblk1 V c 3 t) (iblk1 V c 4 t) (iblk1 V c 5 t) (iblk1 V c 6 t) (iblk1 V c 7 t) (acc1 V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexact H10
    iintro ⟨H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

end Cert.Kernel.Hand

end
-- ==== Proof.K.Oblig1.lean ====
/-
  The second region's body obligation in the library's form: the library states, per window, what the body leaves by
  cases on whether the window is idle at the point; no window of this kernel is idle anywhere, so every clause is the
  live one and the obligation is the body's triple at the point.
-/
import proofs.«139756_g50276887167361_cont_8to1_c_1049_28_alg».proof.Proof.Gen.Kernel.Launch
import proofs.«139756_g50276887167361_cont_8to1_c_1049_28_alg».proof.Proof.Gen.Kernel.Skeleton
import proofs.«139756_g50276887167361_cont_8to1_c_1049_28_alg».proof.Proof.Gen.Kernel.Points
import proofs.«139756_g50276887167361_cont_8to1_c_1049_28_alg».proof.Proof.K.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The library's body obligation, at every point: every window's clause is its live one. -/
theorem body_obligation1 (c : Dev nD) : BodyObligation (dat1 (F := F) V c) (defs₀ (F := F)) Variants.none () Set.univ := fun t => by
  rw [bigSep_W1, bigSep_W1]
  have hl : idle1 10 (grid1.coords t) = false := live1_10 _
  have hl' : cfg1.idle 10 (cfg1.grid.coords t) = false := live1_10 _
  simp only [hl, hl']
  exact sound_body1 V c t

end Cert.Kernel.Hand

end
-- ==== Proof.K.Run.lean ====
/-
  The whole program's run: region 0 (`s3 = x3 · W3`), three host operations (the summed bias row and the two row
  reshapes), region 1 (hidden features, reconstruction, and the transposed aggregate accumulated over the grid), six
  host operations (transpose the aggregate, add `s3`, add the summed bias). The core's buffer contents at each boundary
  are a fold from the launch memory: a host stretch applies its operations; a region leaves its arrays at what its
  write-backs fold to and every other buffer as entered. Every weakly fair execution ends with every unscoped buffer
  at the last of these contents.
-/
import proofs.«139756_g50276887167361_cont_8to1_c_1049_28_alg».proof.Proof.Gen.Kernel.Launch
import proofs.«139756_g50276887167361_cont_8to1_c_1049_28_alg».proof.Proof.Gen.Kernel.Skeleton
import proofs.«139756_g50276887167361_cont_8to1_c_1049_28_alg».proof.Proof.Gen.Kernel.Points
import proofs.«139756_g50276887167361_cont_8to1_c_1049_28_alg».proof.Proof.Gen.Kernel.Regions
import proofs.«139756_g50276887167361_cont_8to1_c_1049_28_alg».proof.Proof.K.Region0
import proofs.«139756_g50276887167361_cont_8to1_c_1049_28_alg».proof.Proof.K.Region1
import proofs.«139756_g50276887167361_cont_8to1_c_1049_28_alg».proof.Proof.K.Oblig1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch: region 0's entry. -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b
/-- At region 0's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the first host stretch: region 1's entry. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- At region 1's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- After the second host stretch: the end. -/
abbrev W4 : Dev nD → Valuation τ sig (Elt F) := fun c => StableHlo.after hostOps2 (W3 m ρ c)

/-- A buffer neither host stretch writes passes through it. -/
theorem W2_of (c : Dev nD) (r : Ref sig .tc) (h : r ∉ hostOps1_W) : W2 m ρ c r = W1 m ρ c r :=
  StableHlo.after_of_writes_sub hostOps1 _ hostOps1_writes h
theorem W4_of (c : Dev nD) (r : Ref sig .tc) (h : r ∉ hostOps2_W) : W4 m ρ c r = W3 m ρ c r :=
  StableHlo.after_of_writes_sub hostOps2 _ hostOps2_writes h

/-! ## The proof data family and the thread state -/

/-- The prefetched tables' admissible contents: no pipeline has a table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the final contents, the register at some state. -/
abbrev Tₙ (c : Dev nD) : sProp 𝕄 := iprop(StableHlo.held (c : Thread nD τ) (Pipeline.ucRefs τ sig) (W4 m ρ c) ∗ ∃ r, prngReg c r)

/-! ## The regions as segments -/

-- a library lemma stated over the pinned configuration unifies with the printed one only when unification may unfold
-- plain definitions in a metavariable's type
set_option backward.isDefEq.respectTransparency.types false in
/-- Region 0 over the thread state: entered from every unscoped buffer at the launch contents, left at `W1`. Its arrays are split out of the unscoped buffers and put back at the exit contents; the generator register goes into the class invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at `W2`, left at `W3`; otherwise as region 0. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four segments in order. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]
/-- @main is the run of the segments. -/
theorem main_run (c : Dev nD) : main (F := F) c = Pipeline.Seg.run (segs m ρ) := (main_chain c).trans (by chain_rfl)

set_option backward.isDefEq.respectTransparency.types false in
/-- From any memory with zero counters every weakly fair execution of @main terminates, nothing faulting, and every
    final state holds every unscoped buffer of every core at the final contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

end Cert.Kernel.Hand

end
-- ==== Proof.K.FrameOf.lean ====
/-
  The frame: no host operation and no region writes an argument array — a region reads it through an input window or
  passes it by — so at an argument's buffer the fold of contents walks back to the launch memory, and the run's post
  gives the frame claim: every weakly fair execution terminates and leaves the ten arguments as launched.
-/
import proofs.«139756_g50276887167361_cont_8to1_c_1049_28_alg».proof.Proof.Gen.Kernel.Launch
import proofs.«139756_g50276887167361_cont_8to1_c_1049_28_alg».proof.Proof.Gen.Kernel.Skeleton
import proofs.«139756_g50276887167361_cont_8to1_c_1049_28_alg».proof.Proof.Gen.Kernel.Points
import proofs.«139756_g50276887167361_cont_8to1_c_1049_28_alg».proof.Proof.K.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of m ρ c main_arg0 (by decide)
    _ = W2 m ρ c (Proc.devRef .tc main_arg0) := (W3_arr m ρ c 0).trans (((dat1 (V2 m ρ) c).arrAt_in 0 rfl _).trans (A_eq1 (V2 m ρ) c 0))
    _ = W1 m ρ c (Proc.devRef .tc main_arg0) := W2_of m ρ c main_arg0 (by decide)
    _ = W0 m ρ c (Proc.devRef .tc main_arg0) := W1_of_ne m ρ c main_arg0 (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of m ρ c main_arg1 (by decide)
    _ = W2 m ρ c (Proc.devRef .tc main_arg1) := W3_of_ne m ρ c main_arg1 (by decide)
    _ = W1 m ρ c (Proc.devRef .tc main_arg1) := W2_of m ρ c main_arg1 (by decide)
    _ = W0 m ρ c (Proc.devRef .tc main_arg1) := (W1_arr m ρ c 0).trans (((dat0 (V0 m ρ) c).arrAt_in 0 rfl _).trans (A_eq0 (V0 m ρ) c 0))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of m ρ c main_arg2 (by decide)
    _ = W2 m ρ c (Proc.devRef .tc main_arg2) := (W3_arr m ρ c 1).trans (((dat1 (V2 m ρ) c).arrAt_in 1 rfl _).trans (A_eq1 (V2 m ρ) c 1))
    _ = W1 m ρ c (Proc.devRef .tc main_arg2) := W2_of m ρ c main_arg2 (by decide)
    _ = W0 m ρ c (Proc.devRef .tc main_arg2) := W1_of_ne m ρ c main_arg2 (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of m ρ c main_arg3 (by decide)
    _ = W2 m ρ c (Proc.devRef .tc main_arg3) := (W3_arr m ρ c 2).trans (((dat1 (V2 m ρ) c).arrAt_in 2 rfl _).trans (A_eq1 (V2 m ρ) c 2))
    _ = W1 m ρ c (Proc.devRef .tc main_arg3) := W2_of m ρ c main_arg3 (by decide)
    _ = W0 m ρ c (Proc.devRef .tc main_arg3) := W1_of_ne m ρ c main_arg3 (by decide)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of m ρ c main_arg4 (by decide)
    _ = W2 m ρ c (Proc.devRef .tc main_arg4) := (W3_arr m ρ c 3).trans (((dat1 (V2 m ρ) c).arrAt_in 3 rfl _).trans (A_eq1 (V2 m ρ) c 3))
    _ = W1 m ρ c (Proc.devRef .tc main_arg4) := W2_of m ρ c main_arg4 (by decide)
    _ = W0 m ρ c (Proc.devRef .tc main_arg4) := W1_of_ne m ρ c main_arg4 (by decide)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of m ρ c main_arg5 (by decide)
    _ = W2 m ρ c (Proc.devRef .tc main_arg5) := W3_of_ne m ρ c main_arg5 (by decide)
    _ = W1 m ρ c (Proc.devRef .tc main_arg5) := W2_of m ρ c main_arg5 (by decide)
    _ = W0 m ρ c (Proc.devRef .tc main_arg5) := W1_of_ne m ρ c main_arg5 (by decide)
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of m ρ c main_arg6 (by decide)
    _ = W2 m ρ c (Proc.devRef .tc main_arg6) := W3_of_ne m ρ c main_arg6 (by decide)
    _ = W1 m ρ c (Proc.devRef .tc main_arg6) := W2_of m ρ c main_arg6 (by decide)
    _ = W0 m ρ c (Proc.devRef .tc main_arg6) := (W1_arr m ρ c 1).trans (((dat0 (V0 m ρ) c).arrAt_in 1 rfl _).trans (A_eq0 (V0 m ρ) c 1))
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of m ρ c main_arg7 (by decide)
    _ = W2 m ρ c (Proc.devRef .tc main_arg7) := W3_of_ne m ρ c main_arg7 (by decide)
    _ = W1 m ρ c (Proc.devRef .tc main_arg7) := W2_of m ρ c main_arg7 (by decide)
    _ = W0 m ρ c (Proc.devRef .tc main_arg7) := W1_of_ne m ρ c main_arg7 (by decide)
    _ = m ((c : Thread nD τ).loc main_arg7) := rfl

theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of m ρ c main_arg8 (by decide)
    _ = W2 m ρ c (Proc.devRef .tc main_arg8) := (W3_arr m ρ c 5).trans (((dat1 (V2 m ρ) c).arrAt_in 5 rfl _).trans (A_eq1 (V2 m ρ) c 5))
    _ = W1 m ρ c (Proc.devRef .tc main_arg8) := W2_of m ρ c main_arg8 (by decide)
    _ = W0 m ρ c (Proc.devRef .tc main_arg8) := W1_of_ne m ρ c main_arg8 (by decide)
    _ = m ((c : Thread nD τ).loc main_arg8) := rfl

theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of m ρ c main_arg9 (by decide)
    _ = W2 m ρ c (Proc.devRef .tc main_arg9) := W3_of_ne m ρ c main_arg9 (by decide)
    _ = W1 m ρ c (Proc.devRef .tc main_arg9) := W2_of m ρ c main_arg9 (by decide)
    _ = W0 m ρ c (Proc.devRef .tc main_arg9) := W1_of_ne m ρ c main_arg9 (by decide)
    _ = m ((c : Thread nD τ).loc main_arg9) := rfl

/-- The frame claim's statement at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c),
    (h c _ (mem_uc main_arg9 (by decide))).trans (W4_main_arg9 m ρ c)⟩) (run_all m ρ)

end Cert.Kernel.Hand

end
-- ==== Proof.KI.Region0.lean ====
/-
  The first kernel region, `s3 = x3 · W3` computed 400 rows at a time over a grid of five points, as the pipeline
  runs it: at point `t` the body finds rows `400 t … 400 t + 399` of `x3` in its first staging buffer and all of `W3`
  in its second, and leaves in its third the one value it stores, which the pipeline writes back to rows
  `400 t … 400 t + 399` of the result. Stated for any float instance and any contents `V` of the core's buffers at
  the region's entry: the body's triple, the proof data of the pipeline, and its body obligation.
-/
import proofs.«139756_g50276887167361_cont_8to1_c_1049_28_alg».proof.Proof.Gen.KernelIdeal.Launch
import proofs.«139756_g50276887167361_cont_8to1_c_1049_28_alg».proof.Proof.Gen.KernelIdeal.Skeleton
import proofs.«139756_g50276887167361_cont_8to1_c_1049_28_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows of `x3` are in their staging buffer at every point, for any proof data over `V` whose body leaves them there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- `W3`, fetched once, is in its staging buffer at every point: its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses and what it leaves -/

abbrev rX3 : Rect S400x2000 := Rect.unit (s := S400x2000) ![0, 0] S400x2000.size inb_S400x2000_S400x2000_0_0
abbrev rW3 : Rect S2000x64 := Rect.unit (s := S2000x64) ![0, 0] S2000x64.size inb_S2000x64_S2000x64_0_0
abbrev rT3 : Rect S400x64 := Rect.unit (s := S400x64) ![0, 0] S400x64.size inb_S400x64_S400x64_0_0

/-- The result's staging buffer after the body: its one store, of the product of the two loaded blocks. -/
def out0_2 (x0 : Vec F S400x2000 .f32) (x1 : Vec F S2000x64 .f32) : Vec F S400x64 .f32 :=
  View.canon [⟨rT3, k0_pay1 (View.ld x0 rX3) (View.ld x1 rW3)⟩]

/-- The one store covers the buffer. -/
theorem cover0_2 (p0 : Vec F S400x64 .f32) (y : S400x64.Idx) :
    ∃ pc ∈ ([⟨rT3, p0⟩] : List (View.Piece (Elt F) S400x64 .f32)), y ∈ pc.1.set :=
  View.cover_of_tiled [⟨rT3, p0⟩] S400x64.size (by rfl) y

/-! ## The body's triple -/

set_option maxHeartbeats 1000000 in
/-- On whole staging memrefs, the inputs' at contents `x0`, `x1` and the result's at anything, the body runs to the
    continuation with the inputs' as they were and the result's at `out0_2 x0 x1`. -/
theorem sound_kernel0 (c : Dev nD) (E : Set ℕ) (i : grid0.Coords) (arg1 : Memref sig .tc .vmem S400x2000 .f32) (harg1 : arg1.IsWhole) (arg2 : Memref sig .tc .vmem S2000x64 .f32) (harg2 : arg2.IsWhole) (arg3 : Memref sig .tc .vmem S400x64 .f32) (harg3 : arg3.IsWhole)
    (x0 : Vec F S400x2000 .f32) (x1 : Vec F S2000x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__t3_body i arg1 harg1 arg2 harg2 arg3 harg3) K := by
  simp only [cc0__t3_body_eq_skeleton]; unfold cc0__t3_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the first pipeline on core `c`: the arrays as the region finds them; after the body at point `t`
    each input's buffer at its block and the result's at `out0_2` of the two blocks; the scoped rest and the generator
    register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1Defs.lean ====
/-
  The second kernel region over its grid of 25 points, 400 rows of the first node type per point: what the two
  runs of its body and its proof data are stated over. At point `t` the body finds rows `400 t … 400 t + 399` of `x0`,
  `adj` and `mask`, and all of `W0`, `s3 = x3 · W3`, `Wp`, the bias row `b0 + b3` and the row `bp`; it stores the rows'
  hidden features, their reconstruction, and — into a buffer that stays resident over the whole grid — the rows'
  contribution `s0ᵀ · e` to the second node type's aggregate: stored at the first point, added to what the buffer holds
  at every later one. Exactly one of the two guarded stores runs at each point, so the resident window is never idle.
-/
import proofs.«139756_g50276887167361_cont_8to1_c_1049_28_alg».proof.Proof.Gen.KernelIdeal.Launch
import proofs.«139756_g50276887167361_cont_8to1_c_1049_28_alg».proof.Proof.Gen.KernelIdeal.Skeleton
import proofs.«139756_g50276887167361_cont_8to1_c_1049_28_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rows of `x0` of the point are in their staging buffer at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The rows of `adj` of the point are in their staging buffer at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The rows of `mask` of the point are in their staging buffer at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- `W0`, fetched once, stays in its staging buffer: its block index never moves. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- `s3`, fetched once, stays in its staging buffer. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- `Wp`, fetched once, stays in its staging buffer. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The summed bias row `b0 + b3`, fetched once, stays in its staging buffer. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- The bias row `bp`, fetched once, stays in its staging buffer. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev rRows : Rect S400x2000 := Rect.unit (s := S400x2000) ![0, 0] S400x2000.size inb_S400x2000_S400x2000_0_0
abbrev rX0 : Rect S400x128 := Rect.unit (s := S400x128) ![0, 0] S400x128.size inb_S400x128_S400x128_0_0
abbrev rW0 : Rect S128x64 := Rect.unit (s := S128x64) ![0, 0] S128x64.size inb_S128x64_S128x64_0_0
abbrev rS3 : Rect S2000x64 := Rect.unit (s := S2000x64) ![0, 0] S2000x64.size inb_S2000x64_S2000x64_0_0
abbrev rWp : Rect S64x2000 := Rect.unit (s := S64x2000) ![0, 0] S64x2000.size inb_S64x2000_S64x2000_0_0
abbrev rB : Rect S1x64 := Rect.unit (s := S1x64) ![0, 0] S1x64.size inb_S1x64_S1x64_0_0
abbrev rBp : Rect S1x2000 := Rect.unit (s := S1x2000) ![0, 0] S1x2000.size inb_S1x2000_S1x2000_0_0
abbrev rH0 : Rect S400x64 := Rect.unit (s := S400x64) ![0, 0] S400x64.size inb_S400x64_S400x64_0_0

/-! ## What the body leaves in each output window's buffer

The inputs' contents are named by window: `x0` the rows of `x0`, `x1` of `adj`, `x2` of `mask`, `x3` `W0`, `x4` `s3`,
`x5` `Wp`, `x6` the summed bias row, `x7` the row `bp`. -/

/-- The rows' hidden features: the one store into the second output's buffer. -/
def out1_9 (x0 : Vec F S400x128 .f32) (x1 x2 : Vec F S400x2000 .f32) (x3 : Vec F S128x64 .f32) (x4 : Vec F S2000x64 .f32) (x6 : Vec F S1x64 .f32) : Vec F S400x64 .f32 :=
  View.canon [⟨rH0, k1_pay4 (View.ld x2 rRows) (View.ld x1 rRows) (View.ld x0 rX0) (View.ld x3 rW0) (View.ld x4 rS3) (View.ld x6 rB)⟩]

/-- The rows' reconstruction: the one store into the first output's buffer. -/
def out1_8 (x0 : Vec F S400x128 .f32) (x1 x2 : Vec F S400x2000 .f32) (x3 : Vec F S128x64 .f32) (x4 : Vec F S2000x64 .f32) (x5 : Vec F S64x2000 .f32) (x6 : Vec F S1x64 .f32) (x7 : Vec F S1x2000 .f32) : Vec F S400x2000 .f32 :=
  View.canon [⟨rRows, k1_pay5 (View.ld x2 rRows) (View.ld x1 rRows) (View.ld x0 rX0) (View.ld x3 rW0) (View.ld x4 rS3) (View.ld x6 rB) (View.ld x5 rWp) (View.ld x7 rBp)⟩]

/-- The rows' contribution `s0ᵀ · e` to the second node type's aggregate. -/
def contrib1 (x0 : Vec F S400x128 .f32) (x1 x2 : Vec F S400x2000 .f32) (x3 : Vec F S128x64 .f32) : FVec F S64x2000 .f32 :=
  k1_pay6 (View.ld x2 rRows) (View.ld x1 rRows) (View.ld x0 rX0) (View.ld x3 rW0)

/-- The resident buffer after the first point: the contribution, stored. -/
def out1_10A (x0 : Vec F S400x128 .f32) (x1 x2 : Vec F S400x2000 .f32) (x3 : Vec F S128x64 .f32) : Vec F S64x2000 .f32 :=
  View.canon [⟨rWp, contrib1 x0 x1 x2 x3⟩]

/-- The resident buffer after a later point: what it held, `xo`, plus the contribution. -/
def out1_10B (x0 : Vec F S400x128 .f32) (x1 x2 : Vec F S400x2000 .f32) (x3 : Vec F S128x64 .f32) (xo : Vec F S64x2000 .f32) : Vec F S64x2000 .f32 :=
  View.canon [⟨rWp, k1_pay1 (contrib1 x0 x1 x2 x3) (View.ld xo rWp)⟩]

/-- Each output's one store covers its buffer. -/
theorem cover1_8 (p0 : Vec F S400x2000 .f32) (y : S400x2000.Idx) :
    ∃ pc ∈ ([⟨rRows, p0⟩] : List (View.Piece (Elt F) S400x2000 .f32)), y ∈ pc.1.set :=
  View.cover_of_tiled [⟨rRows, p0⟩] S400x2000.size (by rfl) y
theorem cover1_9 (p0 : Vec F S400x64 .f32) (y : S400x64.Idx) :
    ∃ pc ∈ ([⟨rH0, p0⟩] : List (View.Piece (Elt F) S400x64 .f32)), y ∈ pc.1.set :=
  View.cover_of_tiled [⟨rH0, p0⟩] S400x64.size (by rfl) y
theorem cover1_10 (p0 : Vec F S64x2000 .f32) (y : S64x2000.Idx) :
    ∃ pc ∈ ([⟨rWp, p0⟩] : List (View.Piece (Elt F) S64x2000 .f32)), y ∈ pc.1.set :=
  View.cover_of_tiled [⟨rWp, p0⟩] S64x2000.size (by rfl) y

/-! ## The two guards, over the grid -/

/-- The first guard (the point is the first) holds at point 0 only. -/
theorem hcond1 : ∀ t : Fin cfg1.N, k1_cond1 (grid1.coords t) = 1#1 ↔ t.val = 0 :=
  (by decide +kernel : ∀ t : Fin grid1.N, k1_cond1 (grid1.coords t) = 1#1 ↔ t.val = 0)
/-- The second guard (the point is a later one) holds at every other point. -/
theorem hcond2 : ∀ t : Fin cfg1.N, k1_cond2 (grid1.coords t) = 1#1 ↔ t.val ≠ 0 :=
  (by decide +kernel : ∀ t : Fin grid1.N, k1_cond2 (grid1.coords t) = 1#1 ↔ t.val ≠ 0)

/-- One of the guards holds at every grid coordinate: the resident window is idle nowhere. -/
theorem live1_10 : ∀ i : grid1.Coords, cfg1.idle 10 i = false :=
  (by decide +kernel : ∀ i : grid1.Coords, idle1 10 i = false)

end Cert.KernelIdeal.Hand

end
-- ==== Proof.KI.Run1A.lean ====
/-
  The second region's body at the FIRST grid point: the first guard holds and the second fails, so the rows' contribution is stored into the resident buffer over whatever it held.
-/
import proofs.«139756_g50276887167361_cont_8to1_c_1049_28_alg».proof.Proof.Gen.KernelIdeal.Launch
import proofs.«139756_g50276887167361_cont_8to1_c_1049_28_alg».proof.Proof.Gen.KernelIdeal.Skeleton
import proofs.«139756_g50276887167361_cont_8to1_c_1049_28_alg».proof.Proof.Gen.KernelIdeal.Points
import proofs.«139756_g50276887167361_cont_8to1_c_1049_28_alg».proof.Proof.KI.Region1Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- On whole staging memrefs, the eight inputs' at their contents, the body runs to the continuation with the inputs'
    as they were, the reconstruction's buffer at `out1_8`, the hidden features' at `out1_9` and the resident buffer at
    `out1_10A` of them. -/
theorem sound_kernel1_A (c : Dev nD) (E : Set ℕ) (i : grid1.Coords) (arg1 : Memref sig .tc .vmem S400x128 .f32) (harg1 : arg1.IsWhole) (arg2 : Memref sig .tc .vmem S400x2000 .f32) (harg2 : arg2.IsWhole) (arg3 : Memref sig .tc .vmem S400x2000 .f32) (harg3 : arg3.IsWhole) (arg4 : Memref sig .tc .vmem S128x64 .f32) (harg4 : arg4.IsWhole) (arg5 : Memref sig .tc .vmem S2000x64 .f32) (harg5 : arg5.IsWhole) (arg6 : Memref sig .tc .vmem S64x2000 .f32) (harg6 : arg6.IsWhole) (arg7 : Memref sig .tc .vmem S1x64 .f32) (harg7 : arg7.IsWhole) (arg8 : Memref sig .tc .vmem S1x2000 .f32) (harg8 : arg8.IsWhole) (arg9 : Memref sig .tc .vmem S400x2000 .f32) (harg9 : arg9.IsWhole) (arg10 : Memref sig .tc .vmem S400x64 .f32) (harg10 : arg10.IsWhole) (arg11 : Memref sig .tc .vmem S64x2000 .f32) (harg11 : arg11.IsWhole)
    (hc1 : k1_cond1 i = 1#1) (hc2 : ¬k1_cond2 i = 1#1)
    (x0 : Vec F S400x128 .f32) (x1 x2 : Vec F S400x2000 .f32) (x3 : Vec F S128x64 .f32) (x4 : Vec F S2000x64 .f32) (x5 : Vec F S64x2000 .f32) (x6 : Vec F S1x64 .f32) (x7 : Vec F S1x2000 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (out1_8 x0 x1 x2 x3 x4 x5 x6 x7) ∗ owns (c : Thread nD τ) arg10 fullShare (out1_9 x0 x1 x2 x3 x4 x6)
            ∗ owns (c : Thread nD τ) arg11 fullShare (out1_10A x0 x1 x2 x3)) -∗ K ⟨⟩))
      ⊢ wp frame (wpE (defs₀ (F := F)) Variants.none c none) E (cc1__main_body i arg1 harg1 arg2 harg2 arg3 harg3 arg4 harg4 arg5 harg5 arg6 harg6 arg7 harg7 arg8 harg8 arg9 harg9 arg10 harg10 arg11 harg11) K := by
  simp only [cc1__main_body_eq_skeleton]; unfold cc1__main_body_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover1_8 _)
  isplitl [H9]
  · iexists _; isplitr
    swap; · iexact H9
    ipureintro
    exact View.read_writes_eq_canon _ _ _ (cover1_9 _)
  iexists _; isplitr
  swap; · iexact H10
  ipureintro
  exact View.read_writes_eq_canon _ _ _ (cover1_10 _)

end Cert.KernelIdeal.Hand

end
-- ==== Proof.KI.Run1B.lean ====
/-
  The second region's body at a LATER grid point: the first guard fails and the second holds, so the rows' contribution is added to what the resident buffer holds, `xo`, and the sum stored back.
-/
import proofs.«139756_g50276887167361_cont_8to1_c_1049_28_alg».proof.Proof.Gen.KernelIdeal.Launch
import proofs.«139756_g50276887167361_cont_8to1_c_1049_28_alg».proof.Proof.Gen.KernelIdeal.Skeleton
import proofs.«139756_g50276887167361_cont_8to1_c_1049_28_alg».proof.Proof.Gen.KernelIdeal.Points
import proofs.«139756_g50276887167361_cont_8to1_c_1049_28_alg».proof.Proof.KI.Region1Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- On whole staging memrefs, the eight inputs' at their contents, the body runs to the continuation with the inputs'
    as they were, the reconstruction's buffer at `out1_8`, the hidden features' at `out1_9` and the resident buffer at
    `out1_10B` of them. -/
theorem sound_kernel1_B (c : Dev nD) (E : Set ℕ) (i : grid1.Coords) (arg1 : Memref sig .tc .vmem S400x128 .f32) (harg1 : arg1.IsWhole) (arg2 : Memref sig .tc .vmem S400x2000 .f32) (harg2 : arg2.IsWhole) (arg3 : Memref sig .tc .vmem S400x2000 .f32) (harg3 : arg3.IsWhole) (arg4 : Memref sig .tc .vmem S128x64 .f32) (harg4 : arg4.IsWhole) (arg5 : Memref sig .tc .vmem S2000x64 .f32) (harg5 : arg5.IsWhole) (arg6 : Memref sig .tc .vmem S64x2000 .f32) (harg6 : arg6.IsWhole) (arg7 : Memref sig .tc .vmem S1x64 .f32) (harg7 : arg7.IsWhole) (arg8 : Memref sig .tc .vmem S1x2000 .f32) (harg8 : arg8.IsWhole) (arg9 : Memref sig .tc .vmem S400x2000 .f32) (harg9 : arg9.IsWhole) (arg10 : Memref sig .tc .vmem S400x64 .f32) (harg10 : arg10.IsWhole) (arg11 : Memref sig .tc .vmem S64x2000 .f32) (harg11 : arg11.IsWhole)
    (hc1 : ¬k1_cond1 i = 1#1) (hc2 : k1_cond2 i = 1#1)
    (x0 : Vec F S400x128 .f32) (x1 x2 : Vec F S400x2000 .f32) (x3 : Vec F S128x64 .f32) (x4 : Vec F S2000x64 .f32) (x5 : Vec F S64x2000 .f32) (x6 : Vec F S1x64 .f32) (x7 : Vec F S1x2000 .f32) (xo : Vec F S64x2000 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ (∃ d, owns (c : Thread nD τ) arg10 fullShare d) ∗ owns (c : Thread nD τ) arg11 fullShare xo
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (out1_8 x0 x1 x2 x3 x4 x5 x6 x7) ∗ owns (c : Thread nD τ) arg10 fullShare (out1_9 x0 x1 x2 x3 x4 x6)
            ∗ owns (c : Thread nD τ) arg11 fullShare (out1_10B x0 x1 x2 x3 xo)) -∗ K ⟨⟩))
      ⊢ wp frame (wpE (defs₀ (F := F)) Variants.none c none) E (cc1__main_body i arg1 harg1 arg2 harg2 arg3 harg3 arg4 harg4 arg5 harg5 arg6 harg6 arg7 harg7 arg8 harg8 arg9 harg9 arg10 harg10 arg11 harg11) K := by
  simp only [cc1__main_body_eq_skeleton]; unfold cc1__main_body_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, Hk⟩
  subst hf0 hf1 hf2 hf3 hf4 hf5 hf6 hf7 hf10
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover1_8 _)
  isplitl [H9]
  · iexists _; isplitr
    swap; · iexact H9
    ipureintro
    exact View.read_writes_eq_canon _ _ _ (cover1_9 _)
  iexists _; isplitr
  swap; · iexact H10
  ipureintro
  exact View.read_writes_eq_canon _ _ _ (cover1_10 _)

end Cert.KernelIdeal.Hand

end
-- ==== Proof.KI.Region1.lean ====
/-
  The second kernel region's proof data and body obligation. The resident buffer's contents after point `n` are the
  running sum of the contributions of points `0 … n` (`acc1`, by recursion on the point: stored at point 0, added to at
  every later one); the other two outputs hold the point's own rows. A later point finds in the resident buffer what
  the point before left, because the window is written back at the last point only and is idle nowhere.
-/
import proofs.«139756_g50276887167361_cont_8to1_c_1049_28_alg».proof.Proof.Gen.KernelIdeal.Launch
import proofs.«139756_g50276887167361_cont_8to1_c_1049_28_alg».proof.Proof.Gen.KernelIdeal.Skeleton
import proofs.«139756_g50276887167361_cont_8to1_c_1049_28_alg».proof.Proof.Gen.KernelIdeal.Points
import proofs.«139756_g50276887167361_cont_8to1_c_1049_28_alg».proof.Proof.KI.Run1A
import proofs.«139756_g50276887167361_cont_8to1_c_1049_28_alg».proof.Proof.KI.Run1B
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The running sum in the resident buffer -/

/-- What the resident buffer holds after the body at point `n`: the first point's contribution, stored; then each later
    point's contribution added to what the point before left. -/
def acc1 (c : Dev nD) : (n : ℕ) → n < cfg1.N → Vec F S64x2000 .f32
  | 0, hn => out1_10A (iblk1 V c 0 ⟨0, hn⟩) (iblk1 V c 1 ⟨0, hn⟩) (iblk1 V c 2 ⟨0, hn⟩) (iblk1 V c 3 ⟨0, hn⟩)
  | n + 1, hn => out1_10B (iblk1 V c 0 ⟨n + 1, hn⟩) (iblk1 V c 1 ⟨n + 1, hn⟩) (iblk1 V c 2 ⟨n + 1, hn⟩) (iblk1 V c 3 ⟨n + 1, hn⟩) (acc1 c n (Nat.lt_of_succ_lt hn))

theorem acc1_first (c : Dev nD) (t : Fin cfg1.N) (h0 : t.val = 0) :
    acc1 V c t.val t.isLt = out1_10A (iblk1 V c 0 t) (iblk1 V c 1 t) (iblk1 V c 2 t) (iblk1 V c 3 t) := by
  obtain ⟨n, hn⟩ := t
  cases n with
  | zero => exact rfl
  | succ n => exact absurd h0 (Nat.succ_ne_zero n)

theorem acc1_later (c : Dev nD) (t : Fin cfg1.N) (h0 : t.val ≠ 0) :
    acc1 V c t.val t.isLt = out1_10B (iblk1 V c 0 t) (iblk1 V c 1 t) (iblk1 V c 2 t) (iblk1 V c 3 t) (acc1 V c (t.val - 1) (Nat.lt_of_le_of_lt (Nat.sub_le _ _) t.isLt)) := by
  obtain ⟨n, hn⟩ := t
  cases n with
  | zero => exact absurd rfl h0
  | succ n => exact rfl

/-! ## The pipeline's proof data -/

/-- The proof data of the second pipeline on core `c`: the arrays as the region finds them; after the body at point `t`
    each input's buffer at its block, the two row outputs at the point's rows, the resident buffer at the running sum;
    the scoped rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
    | ⟨9, _⟩ => out1_9 (iblk1 V c 0 t) (iblk1 V c 1 t) (iblk1 V c 2 t) (iblk1 V c 3 t) (iblk1 V c 4 t) (iblk1 V c 6 t)
    | ⟨10, _⟩ => acc1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) (iblk1 V c 7 t) := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 6 t) := by dsimp only [dat1]
theorem after1_10 (c : Dev nD) (t : Fin cfg1.N) : (dat1 V c).after 10 t = acc1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-- At a later point the resident buffer holds what the body left at the point before: the window is an output, written
    back at the last point only, live everywhere and uncut. -/
theorem before1_10_later (c : Dev nD) (t : Fin cfg1.N) (h0 : t.val ≠ 0) (d) :
    (dat1 V c).before 10 t d = acc1 V c (t.val - 1) (Nat.lt_of_le_of_lt (Nat.sub_le _ _) t.isLt) := by
  have hN : t.val < 25 := lt_of_lt_of_eq t.isLt (show cfg1.N = 25 from N_1)
  rw [Dat.before_out_kept _ 10 rfl t h0 (Bool.eq_false_iff.mpr fun h => by have := (flush1_10 _).mp h; dsimp only at this; omega)
    live1_10 (fun _ _ => rfl)]
  dsimp only [dat1]

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

set_option maxHeartbeats 2000000 in
/-- The body at any point: the inputs' memrefs hold their blocks; the point is the first or a later one, and at a later
    one the resident buffer holds the running sum so far; so the matching run applies; the invariant and what the core
    owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  by_cases h0 : t.val = 0
  · rw [acc1_first V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (sound_kernel1_A c Set.univ (grid1.coords t) _ _ _ _ _ _ _ _ _ _ _ _ _ _ _ _ _ _ _ _ _ _ ((hcond1 t).mpr h0) (fun h => (hcond2 t).mp h h0)
      (iblk1 V c 0 t) (iblk1 V c 1 t) (iblk1 V c 2 t) (iblk1 V c 3 t) (iblk1 V c 4 t) (iblk1 V c 5 t) (iblk1 V c 6 t) (iblk1 V c 7 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    iintro ⟨H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [acc1_later V c t h0]
    simp only [before1_10_later V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (sound_kernel1_B c Set.univ (grid1.coords t) _ _ _ _ _ _ _ _ _ _ _ _ _ _ _ _ _ _ _ _ _ _ (fun h => h0 ((hcond1 t).mp h)) ((hcond2 t).mpr h0)
      (iblk1 V c 0 t) (iblk1 V c 1 t) (iblk1 V c 2 t) (iblk1 V c 3 t) (iblk1 V c 4 t) (iblk1 V c 5 t) (iblk1 V c 6 t) (iblk1 V c 7 t) (acc1 V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexact H10
    iintro ⟨H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

end Cert.KernelIdeal.Hand

end
-- ==== Proof.KI.Oblig1.lean ====
/-
  The second region's body obligation in the library's form: the library states, per window, what the body leaves by
  cases on whether the window is idle at the point; no window of this kernel is idle anywhere, so every clause is the
  live one and the obligation is the body's triple at the point.
-/
import proofs.«139756_g50276887167361_cont_8to1_c_1049_28_alg».proof.Proof.Gen.KernelIdeal.Launch
import proofs.«139756_g50276887167361_cont_8to1_c_1049_28_alg».proof.Proof.Gen.KernelIdeal.Skeleton
import proofs.«139756_g50276887167361_cont_8to1_c_1049_28_alg».proof.Proof.Gen.KernelIdeal.Points
import proofs.«139756_g50276887167361_cont_8to1_c_1049_28_alg».proof.Proof.KI.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The library's body obligation, at every point: every window's clause is its live one. -/
theorem body_obligation1 (c : Dev nD) : BodyObligation (dat1 (F := F) V c) (defs₀ (F := F)) Variants.none () Set.univ := fun t => by
  rw [bigSep_W1, bigSep_W1]
  have hl : idle1 10 (grid1.coords t) = false := live1_10 _
  have hl' : cfg1.idle 10 (cfg1.grid.coords t) = false := live1_10 _
  simp only [hl, hl']
  exact sound_body1 V c t

end Cert.KernelIdeal.Hand

end
-- ==== Proof.KI.Run.lean ====
/-
  The whole program's run: region 0 (`s3 = x3 · W3`), three host operations (the summed bias row and the two row
  reshapes), region 1 (hidden features, reconstruction, and the transposed aggregate accumulated over the grid), six
  host operations (transpose the aggregate, add `s3`, add the summed bias). The core's buffer contents at each boundary
  are a fold from the launch memory: a host stretch applies its operations; a region leaves its arrays at what its
  write-backs fold to and every other buffer as entered. Every weakly fair execution ends with every unscoped buffer
  at the last of these contents.
-/
import proofs.«139756_g50276887167361_cont_8to1_c_1049_28_alg».proof.Proof.Gen.KernelIdeal.Launch
import proofs.«139756_g50276887167361_cont_8to1_c_1049_28_alg».proof.Proof.Gen.KernelIdeal.Skeleton
import proofs.«139756_g50276887167361_cont_8to1_c_1049_28_alg».proof.Proof.Gen.KernelIdeal.Points
import proofs.«139756_g50276887167361_cont_8to1_c_1049_28_alg».proof.Proof.Gen.KernelIdeal.Regions
import proofs.«139756_g50276887167361_cont_8to1_c_1049_28_alg».proof.Proof.KI.Region0
import proofs.«139756_g50276887167361_cont_8to1_c_1049_28_alg».proof.Proof.KI.Region1
import proofs.«139756_g50276887167361_cont_8to1_c_1049_28_alg».proof.Proof.KI.Oblig1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch: region 0's entry. -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b
/-- At region 0's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the first host stretch: region 1's entry. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- At region 1's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- After the second host stretch: the end. -/
abbrev W4 : Dev nD → Valuation τ sig (Elt F) := fun c => StableHlo.after hostOps2 (W3 m ρ c)

/-- A buffer neither host stretch writes passes through it. -/
theorem W2_of (c : Dev nD) (r : Ref sig .tc) (h : r ∉ hostOps1_W) : W2 m ρ c r = W1 m ρ c r :=
  StableHlo.after_of_writes_sub hostOps1 _ hostOps1_writes h
theorem W4_of (c : Dev nD) (r : Ref sig .tc) (h : r ∉ hostOps2_W) : W4 m ρ c r = W3 m ρ c r :=
  StableHlo.after_of_writes_sub hostOps2 _ hostOps2_writes h

/-! ## The proof data family and the thread state -/

/-- The prefetched tables' admissible contents: no pipeline has a table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the final contents, the register at some state. -/
abbrev Tₙ (c : Dev nD) : sProp 𝕄 := iprop(StableHlo.held (c : Thread nD τ) (Pipeline.ucRefs τ sig) (W4 m ρ c) ∗ ∃ r, prngReg c r)

/-! ## The regions as segments -/

-- a library lemma stated over the pinned configuration unifies with the printed one only when unification may unfold
-- plain definitions in a metavariable's type
set_option backward.isDefEq.respectTransparency.types false in
/-- Region 0 over the thread state: entered from every unscoped buffer at the launch contents, left at `W1`. Its arrays are split out of the unscoped buffers and put back at the exit contents; the generator register goes into the class invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at `W2`, left at `W3`; otherwise as region 0. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four segments in order. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]
/-- @main is the run of the segments. -/
theorem main_run (c : Dev nD) : main (F := F) c = Pipeline.Seg.run (segs m ρ) := (main_chain c).trans (by chain_rfl)

set_option backward.isDefEq.respectTransparency.types false in
/-- From any memory with zero counters every weakly fair execution of @main terminates, nothing faulting, and every
    final state holds every unscoped buffer of every core at the final contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

end Cert.KernelIdeal.Hand

end
-- ==== Proof.KI.FrameOf.lean ====
/-
  The frame: no host operation and no region writes an argument array — a region reads it through an input window or
  passes it by — so at an argument's buffer the fold of contents walks back to the launch memory, and the run's post
  gives the frame claim: every weakly fair execution terminates and leaves the ten arguments as launched.
-/
import proofs.«139756_g50276887167361_cont_8to1_c_1049_28_alg».proof.Proof.Gen.KernelIdeal.Launch
import proofs.«139756_g50276887167361_cont_8to1_c_1049_28_alg».proof.Proof.Gen.KernelIdeal.Skeleton
import proofs.«139756_g50276887167361_cont_8to1_c_1049_28_alg».proof.Proof.Gen.KernelIdeal.Points
import proofs.«139756_g50276887167361_cont_8to1_c_1049_28_alg».proof.Proof.KI.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of m ρ c main_arg0 (by decide)
    _ = W2 m ρ c (Proc.devRef .tc main_arg0) := (W3_arr m ρ c 0).trans (((dat1 (V2 m ρ) c).arrAt_in 0 rfl _).trans (A_eq1 (V2 m ρ) c 0))
    _ = W1 m ρ c (Proc.devRef .tc main_arg0) := W2_of m ρ c main_arg0 (by decide)
    _ = W0 m ρ c (Proc.devRef .tc main_arg0) := W1_of_ne m ρ c main_arg0 (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of m ρ c main_arg1 (by decide)
    _ = W2 m ρ c (Proc.devRef .tc main_arg1) := W3_of_ne m ρ c main_arg1 (by decide)
    _ = W1 m ρ c (Proc.devRef .tc main_arg1) := W2_of m ρ c main_arg1 (by decide)
    _ = W0 m ρ c (Proc.devRef .tc main_arg1) := (W1_arr m ρ c 0).trans (((dat0 (V0 m ρ) c).arrAt_in 0 rfl _).trans (A_eq0 (V0 m ρ) c 0))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of m ρ c main_arg2 (by decide)
    _ = W2 m ρ c (Proc.devRef .tc main_arg2) := (W3_arr m ρ c 1).trans (((dat1 (V2 m ρ) c).arrAt_in 1 rfl _).trans (A_eq1 (V2 m ρ) c 1))
    _ = W1 m ρ c (Proc.devRef .tc main_arg2) := W2_of m ρ c main_arg2 (by decide)
    _ = W0 m ρ c (Proc.devRef .tc main_arg2) := W1_of_ne m ρ c main_arg2 (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of m ρ c main_arg3 (by decide)
    _ = W2 m ρ c (Proc.devRef .tc main_arg3) := (W3_arr m ρ c 2).trans (((dat1 (V2 m ρ) c).arrAt_in 2 rfl _).trans (A_eq1 (V2 m ρ) c 2))
    _ = W1 m ρ c (Proc.devRef .tc main_arg3) := W2_of m ρ c main_arg3 (by decide)
    _ = W0 m ρ c (Proc.devRef .tc main_arg3) := W1_of_ne m ρ c main_arg3 (by decide)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of m ρ c main_arg4 (by decide)
    _ = W2 m ρ c (Proc.devRef .tc main_arg4) := (W3_arr m ρ c 3).trans (((dat1 (V2 m ρ) c).arrAt_in 3 rfl _).trans (A_eq1 (V2 m ρ) c 3))
    _ = W1 m ρ c (Proc.devRef .tc main_arg4) := W2_of m ρ c main_arg4 (by decide)
    _ = W0 m ρ c (Proc.devRef .tc main_arg4) := W1_of_ne m ρ c main_arg4 (by decide)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of m ρ c main_arg5 (by decide)
    _ = W2 m ρ c (Proc.devRef .tc main_arg5) := W3_of_ne m ρ c main_arg5 (by decide)
    _ = W1 m ρ c (Proc.devRef .tc main_arg5) := W2_of m ρ c main_arg5 (by decide)
    _ = W0 m ρ c (Proc.devRef .tc main_arg5) := W1_of_ne m ρ c main_arg5 (by decide)
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of m ρ c main_arg6 (by decide)
    _ = W2 m ρ c (Proc.devRef .tc main_arg6) := W3_of_ne m ρ c main_arg6 (by decide)
    _ = W1 m ρ c (Proc.devRef .tc main_arg6) := W2_of m ρ c main_arg6 (by decide)
    _ = W0 m ρ c (Proc.devRef .tc main_arg6) := (W1_arr m ρ c 1).trans (((dat0 (V0 m ρ) c).arrAt_in 1 rfl _).trans (A_eq0 (V0 m ρ) c 1))
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of m ρ c main_arg7 (by decide)
    _ = W2 m ρ c (Proc.devRef .tc main_arg7) := W3_of_ne m ρ c main_arg7 (by decide)
    _ = W1 m ρ c (Proc.devRef .tc main_arg7) := W2_of m ρ c main_arg7 (by decide)
    _ = W0 m ρ c (Proc.devRef .tc main_arg7) := W1_of_ne m ρ c main_arg7 (by decide)
    _ = m ((c : Thread nD τ).loc main_arg7) := rfl

theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of m ρ c main_arg8 (by decide)
    _ = W2 m ρ c (Proc.devRef .tc main_arg8) := (W3_arr m ρ c 5).trans (((dat1 (V2 m ρ) c).arrAt_in 5 rfl _).trans (A_eq1 (V2 m ρ) c 5))
    _ = W1 m ρ c (Proc.devRef .tc main_arg8) := W2_of m ρ c main_arg8 (by decide)
    _ = W0 m ρ c (Proc.devRef .tc main_arg8) := W1_of_ne m ρ c main_arg8 (by decide)
    _ = m ((c : Thread nD τ).loc main_arg8) := rfl

theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of m ρ c main_arg9 (by decide)
    _ = W2 m ρ c (Proc.devRef .tc main_arg9) := W3_of_ne m ρ c main_arg9 (by decide)
    _ = W1 m ρ c (Proc.devRef .tc main_arg9) := W2_of m ρ c main_arg9 (by decide)
    _ = W0 m ρ c (Proc.devRef .tc main_arg9) := W1_of_ne m ρ c main_arg9 (by decide)
    _ = m ((c : Thread nD τ).loc main_arg9) := rfl

/-- The frame claim's statement at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c),
    (h c _ (mem_uc main_arg9 (by decide))).trans (W4_main_arg9 m ρ c)⟩) (run_all m ρ)

end Cert.KernelIdeal.Hand

end
-- ==== Proof.LibDense.lean ====
/-
  A dense product of two matrices on the extended reals, index by index, and the two array operations that compute it.

  For `x : [n0, nk]` and `w : [nk, n1]` the product is `(x · w)[r, q] = Σ_{k < nk} x[r, k] · w[k, q]` (`denseProd`). A
  contraction whose dimension numbers pair axis 1 of the left operand with axis 0 of the right one, with no batch axes, sums
  exactly these terms: its contraction index is one coordinate `k`, its left operand index at output `(r, q)` is `(r, k)`
  and its right one `(k, q)` (`sum_contr`). So on the extended reals the matrix unit's product into a zero accumulator
  (`matmul_zero_eq`) and the host's `dot_general` (`dotGeneral_eq`) are both `denseProd`: no order of summation, no
  rounding of the operands, no accumulator survives at the ideal instance.
-/
import Idealize.ShloMosaic.PureOps.Ideal.Laws
import Idealize.ShloMosaic.Lib.ValueIdx

noncomputable section

open scoped BigOperators

namespace Cert.LibDense

open Idealize.ShloMosaic Idealize.ShloMosaic.ValueIdx

/-- `(x · w)[r, q] = Σ_k x[r, k] · w[k, q]` on the extended reals. -/
def denseProd {n0 nk n1 : Nat} (x : (⟨2, ![n0, nk]⟩ : Shape).Idx → EReal) (w : (⟨2, ![nk, n1]⟩ : Shape).Idx → EReal) :
    (⟨2, ![n0, n1]⟩ : Shape).Idx → EReal :=
  fun i => ∑ k : Fin nk, x (ix2 (i 0) k) * w (ix2 k (i 1))

theorem denseProd_apply {n0 nk n1 : Nat} (x : (⟨2, ![n0, nk]⟩ : Shape).Idx → EReal) (w : (⟨2, ![nk, n1]⟩ : Shape).Idx → EReal)
    (i : (⟨2, ![n0, n1]⟩ : Shape).Idx) : denseProd x w i = ∑ k : Fin nk, x (ix2 (i 0) k) * w (ix2 k (i 1)) := rfl

/-- A row of a product depends on the same row of the left factor only: if row `p` of `xb` is row `r` of `x` and
    column `q` of `wb` is column `q` of `w`, the products agree at `(p, q)` and `(r, q)` — a row block of `x · w` is
    the product of the row block of `x` with `w`. -/
theorem denseProd_row {nb n0 nk n1 : Nat} (xb : (⟨2, ![nb, nk]⟩ : Shape).Idx → EReal) (x : (⟨2, ![n0, nk]⟩ : Shape).Idx → EReal)
    (wb w : (⟨2, ![nk, n1]⟩ : Shape).Idx → EReal) (p : Fin nb) (r : Fin n0) (q : Fin n1)
    (hx : ∀ k : Fin nk, xb (ix2 p k) = x (ix2 r k)) (hw : ∀ k : Fin nk, wb (ix2 k q) = w (ix2 k q)) :
    denseProd xb wb (ix2 p q) = denseProd x w (ix2 r q) :=
  Finset.sum_congr rfl fun k _ => by
    show xb (ix2 p k) * wb (ix2 k q) = x (ix2 r k) * w (ix2 k q)
    rw [hx k, hw k]

section Plain

variable {n0 nk n1 : Nat} (d : DotDims ⟨2, ![n0, nk]⟩ ⟨2, ![nk, n1]⟩ ⟨2, ![n0, n1]⟩)
  (hr : d.contr.rank = 1) (hs : d.contr.size ⟨0, by omega⟩ = nk)
  (hlc : d.lhsContracting = [1]) (hrc : d.rhsContracting = [0])
  (hl0 : ∀ (i : (⟨2, ![n0, n1]⟩ : Shape).Idx) (q : d.contr.Idx), (d.lhsIdx i q 0).val = (i 0).val)
  (hr1 : ∀ (i : (⟨2, ![n0, n1]⟩ : Shape).Idx) (q : d.contr.Idx), (d.rhsIdx i q 1).val = (i 1).val)

include hr hs hlc hrc hl0 hr1

/-- The contraction's sum over its one-coordinate index is the sum over `k < nk` of row entry times column entry. -/
theorem sum_contr (x : (⟨2, ![n0, nk]⟩ : Shape).Idx → EReal) (w : (⟨2, ![nk, n1]⟩ : Shape).Idx → EReal)
    (i : (⟨2, ![n0, n1]⟩ : Shape).Idx) :
    ∑ q : d.contr.Idx, x (d.lhsIdx i q) * w (d.rhsIdx i q) = denseProd x w i := by
  rw [denseProd_apply, ← Equiv.sum_comp (contrEquiv1 d nk hr hs).symm]
  refine Finset.sum_congr rfl fun k _ => ?_
  have hk := contrEquiv1_symm_val d nk hr hs k
  have el : d.lhsIdx i ((contrEquiv1 d nk hr hs).symm k) = ix2 (i 0) k := funext fun a => Fin.ext (by
    match a with
    | ⟨0, _⟩ => exact hl0 _ _
    | ⟨1, _⟩ => exact (d.lhsIdx_val_of_single hlc i _).trans hk)
  have er : d.rhsIdx i ((contrEquiv1 d nk hr hs).symm k) = ix2 k (i 1) := funext fun a => Fin.ext (by
    match a with
    | ⟨0, _⟩ => exact (d.rhsIdx_val_of_single hrc i _).trans hk
    | ⟨1, _⟩ => exact hr1 _ _)
  rw [el, er]
  rfl

/-- The matrix unit's product into the zero accumulator is the dense product, whatever formats the operands were rounded to. -/
theorem matmul_zero_eq {φ₁ φ₂ : FTy} (prec : Option ContractPrecision) (x : FVec Ideal ⟨2, ![n0, nk]⟩ φ₁)
    (w : FVec Ideal ⟨2, ![nk, n1]⟩ φ₂) :
    FloatOps.matmul d prec x w (constant ⟨2, ![n0, n1]⟩ .f32 0x00000000#32) = denseProd x w :=
  funext fun i => (Ideal.matmul_constant_zero_apply d prec x w i).trans (sum_contr d hr hs hlc hrc hl0 hr1 x w i)

/-- The host's `dot_general` is the dense product, whatever its schedule key. -/
theorem dotGeneral_eq {φ₁ φ₂ : FTy} (prec : Option ContractPrecision) (sched : HostSchedule) (x : FVec Ideal ⟨2, ![n0, nk]⟩ φ₁)
    (w : FVec Ideal ⟨2, ![nk, n1]⟩ φ₂) :
    FloatOps.dotGeneral d prec sched x w = denseProd x w :=
  funext fun i => (Ideal.dotGeneral_apply d prec sched x w i).trans (sum_contr d hr hs hlc hrc hl0 hr1 x w i)

end Plain

end Cert.LibDense

end
-- ==== Proof.Spec.lean ====
/-
  The three results of one graph-convolution layer on two node types, as functions of the ten argument arrays,
  entry by entry on the extended reals.

  With `e = mask ∘ adj` (entrywise), `s0 = x0 · W0` and `s3 = x3 · W3` (dense products):
    h0[r, h]    = (s0[r, h] + b0[h]) + ((e · s3)[r, h] + b3[h])
    h3[j, h]    = (s3[j, h] + b3[h]) + ((eᵀ · s0)[j, h] + b0[h])
    recon[r, q] = (max(h0, 0) · Wp)[r, q] + bp[q]
  The zero of the rectifier is kept as the float word both programs print; it is never evaluated.
-/
import proofs.«139756_g50276887167361_cont_8to1_c_1049_28_alg».proof.Proof.LibDense

noncomputable section

namespace Cert.Hand.Spec

open Idealize.ShloMosaic Idealize.ShloMosaic.ValueIdx Cert.LibDense

/-- A rank-2 array of extended reals of literal extents. -/
abbrev Mat (a b : Nat) : Type := (⟨2, ![a, b]⟩ : Shape).Idx → EReal
/-- A rank-1 array of extended reals of a literal extent. -/
abbrev Row (a : Nat) : Type := (⟨1, ![a]⟩ : Shape).Idx → EReal

/-- The masked adjacency, entry by entry: `mask[r, j] · adj[r, j]`. -/
def masked (mask adj : Mat 10000 2000) : Mat 10000 2000 := fun i => mask i * adj i

/-- Its transpose: `[j, r] ↦ mask[r, j] · adj[r, j]`. -/
def maskedT (mask adj : Mat 10000 2000) : Mat 2000 10000 := fun i => masked mask adj (ix2 (i 1) (i 0))

/-- The rectifier's zero, as the word both programs print. -/
abbrev zeroWord : EReal := Ideal.ofBits .f32 0x00000000#32

/-- The first node type's hidden features. -/
def hid0 (x0 : Mat 10000 128) (x3 : Mat 2000 2000) (adj mask : Mat 10000 2000) (W0 : Mat 128 64) (b0 : Row 64)
    (W3 : Mat 2000 64) (b3 : Row 64) : Mat 10000 64 := fun i =>
  (denseProd x0 W0 i + b0 (ix1 (i 1))) + (denseProd (masked mask adj) (denseProd x3 W3) i + b3 (ix1 (i 1)))

/-- The second node type's hidden features. -/
def hid3 (x0 : Mat 10000 128) (x3 : Mat 2000 2000) (adj mask : Mat 10000 2000) (W0 : Mat 128 64) (b0 : Row 64)
    (W3 : Mat 2000 64) (b3 : Row 64) : Mat 2000 64 := fun i =>
  (denseProd x3 W3 i + b3 (ix1 (i 1))) + (denseProd (maskedT mask adj) (denseProd x0 W0) i + b0 (ix1 (i 1)))

/-- The reconstruction of the adjacency from the rectified hidden features of the first node type. -/
def recon (x0 : Mat 10000 128) (x3 : Mat 2000 2000) (adj mask : Mat 10000 2000) (W0 : Mat 128 64) (b0 : Row 64)
    (W3 : Mat 2000 64) (b3 : Row 64) (Wp : Mat 64 2000) (bp : Row 2000) : Mat 10000 2000 := fun i =>
  denseProd (fun j => max (hid0 x0 x3 adj mask W0 b0 W3 b3 j) zeroWord) Wp i + bp (ix1 (i 1))

end Cert.Hand.Spec

end
-- ==== Proof.RefSide.lean ====
/-
  The reference program computes the specification.

  The reference is a straight line of array operations on the host. Read at an index, on the extended reals, each of
  them is what its name says: a contraction of axis 1 with axis 0 is the dense product, a bias of extent `n`
  broadcast first to `[1, n]` and then along the rows reads the bias at the column, a transposition reads its
  operand at the swapped index, the rectifier is the entrywise maximum with the zero word both programs print, and
  sums and products of arrays are entrywise. The specification arranges its sums exactly as the reference does, so
  the three results of the reference are the three arrays of the specification term by term, no sum rearranged; the
  run of the reference then ends with its results at the specification's arrays and its ten arguments as launched.
-/
import proofs.«139756_g50276887167361_cont_8to1_c_1049_28_alg».proof.Defs
import proofs.«139756_g50276887167361_cont_8to1_c_1049_28_alg».proof.Proof.Gen.ReferenceIdeal.Run
import proofs.«139756_g50276887167361_cont_8to1_c_1049_28_alg».proof.Proof.Gen.ReferenceIdeal.Read
import proofs.«139756_g50276887167361_cont_8to1_c_1049_28_alg».proof.Proof.Spec

noncomputable section

namespace Cert.Hand.Ref

open Idealize.ShloMosaic Idealize.ShloMosaic.TcCoe Idealize.SL.Sem Idealize.ShloMosaic.ValueIdx
open Cert.ReferenceIdeal Cert.ReferenceIdeal.Gen Cert.ReferenceIdeal.Read Cert.LibDense Cert.Hand

variable [Cert.ReferenceIdeal.Facts] [Cert.Pre_finite_inputs.Facts]

/-! ## Each operation, read at an index -/

/-- The contraction `[10000, 128] · [128, 64]` is the dense product. -/
theorem dot_10000x128x64 (x : FVec Ideal S10000x128 .f32) (w : FVec Ideal S128x64 .f32) :
    Host.dotGeneral dot_S10000x128_S128x64_S10000x64_1_0_0_1_n_n none x w = denseProd x w :=
  dotGeneral_eq (n0 := 10000) (nk := 128) (n1 := 64) dot_S10000x128_S128x64_S10000x64_1_0_0_1_n_n rfl rfl rfl rfl
    (fun i q => lhs_main_v1_0 i q) (fun i q => rhs_main_v1_1 i q) none .single x w

/-- The contraction `[2000, 2000] · [2000, 64]` is the dense product. -/
theorem dot_2000x2000x64 (x : FVec Ideal S2000x2000 .f32) (w : FVec Ideal S2000x64 .f32) :
    Host.dotGeneral dot_S2000x2000_S2000x64_S2000x64_1_0_0_1_n_n none x w = denseProd x w :=
  dotGeneral_eq (n0 := 2000) (nk := 2000) (n1 := 64) dot_S2000x2000_S2000x64_S2000x64_1_0_0_1_n_n rfl rfl rfl rfl
    (fun i q => lhs_main_v5_0 i q) (fun i q => rhs_main_v5_1 i q) none .single x w

/-- The contraction `[10000, 2000] · [2000, 64]` is the dense product. -/
theorem dot_10000x2000x64 (x : FVec Ideal S10000x2000 .f32) (w : FVec Ideal S2000x64 .f32) :
    Host.dotGeneral dot_S10000x2000_S2000x64_S10000x64_1_0_0_1_n_n none x w = denseProd x w :=
  dotGeneral_eq (n0 := 10000) (nk := 2000) (n1 := 64) dot_S10000x2000_S2000x64_S10000x64_1_0_0_1_n_n rfl rfl rfl rfl
    (fun i q => lhs_main_v10_0 i q) (fun i q => rhs_main_v10_1 i q) none .single x w

/-- The contraction `[2000, 10000] · [10000, 64]` is the dense product. -/
theorem dot_2000x10000x64 (x : FVec Ideal S2000x10000 .f32) (w : FVec Ideal S10000x64 .f32) :
    Host.dotGeneral dot_S2000x10000_S10000x64_S2000x64_1_0_0_1_n_n none x w = denseProd x w :=
  dotGeneral_eq (n0 := 2000) (nk := 10000) (n1 := 64) dot_S2000x10000_S10000x64_S2000x64_1_0_0_1_n_n rfl rfl rfl rfl
    (fun i q => lhs_main_v17_0 i q) (fun i q => rhs_main_v17_1 i q) none .single x w

/-- The contraction `[10000, 64] · [64, 2000]` is the dense product. -/
theorem dot_10000x64x2000 (x : FVec Ideal S10000x64 .f32) (w : FVec Ideal S64x2000 .f32) :
    Host.dotGeneral dot_S10000x64_S64x2000_S10000x2000_1_0_0_1_n_n none x w = denseProd x w :=
  dotGeneral_eq (n0 := 10000) (nk := 64) (n1 := 2000) dot_S10000x64_S64x2000_S10000x2000_1_0_0_1_n_n rfl rfl rfl rfl
    (fun i q => lhs_main_v24_0 i q) (fun i q => rhs_main_v24_1 i q) none .single x w

/-- A bias of extent 64 broadcast to `[1, 64]` and then to `[10000, 64]` reads the bias at the column. -/
theorem bias_10000x64 (b : FVec Ideal S64 .f32) (i : S10000x64.Idx) :
    (broadcastInDim S10000x64 ![0, 1] bcast_S1x64_S10000x64_0_1 (broadcastInDim S1x64 ![1] bcast_S64_S1x64_1 b)) i = b (ix1 (i 1)) :=
  ((val_main_v3_apply (F := Ideal) b i).trans (val_main_v2_apply (F := Ideal) b (idx_main_v3 i))).trans
    (congrArg b (funext fun a => match a with | ⟨0, _⟩ => rfl))

/-- A bias of extent 64 broadcast to `[1, 64]` and then to `[2000, 64]` reads the bias at the column. -/
theorem bias_2000x64 (b : FVec Ideal S64 .f32) (i : S2000x64.Idx) :
    (broadcastInDim S2000x64 ![0, 1] bcast_S1x64_S2000x64_0_1 (broadcastInDim S1x64 ![1] bcast_S64_S1x64_1 b)) i = b (ix1 (i 1)) :=
  ((val_main_v7_apply (F := Ideal) b i).trans (val_main_v6_apply (F := Ideal) b (idx_main_v7 i))).trans
    (congrArg b (funext fun a => match a with | ⟨0, _⟩ => rfl))

/-- A bias of extent 2000 broadcast to `[1, 2000]` and then to `[10000, 2000]` reads the bias at the column. -/
theorem bias_10000x2000 (b : FVec Ideal S2000 .f32) (i : S10000x2000.Idx) :
    (broadcastInDim S10000x2000 ![0, 1] bcast_S1x2000_S10000x2000_0_1 (broadcastInDim S1x2000 ![1] bcast_S2000_S1x2000_1 b)) i = b (ix1 (i 1)) :=
  ((val_main_v26_apply (F := Ideal) b i).trans (val_main_v25_apply (F := Ideal) b (idx_main_v26 i))).trans
    (congrArg b (funext fun a => match a with | ⟨0, _⟩ => rfl))

/-- The transposed entrywise product `mask ∘ adj` is the specification's transposed masked adjacency. -/
theorem transpose_masked (adj mask : FVec Ideal S10000x2000 .f32) :
    transpose S2000x10000 [1, 0] (mulf mask adj) transposes_S10000x2000_S2000x10000_1_0 = Spec.maskedT mask adj :=
  funext fun j => (val_main_v15_apply (F := Ideal) adj mask j).trans
    (congrArg (Spec.masked mask adj) (funext fun a => match a with | ⟨0, _⟩ => rfl | ⟨1, _⟩ => rfl))

/-- The rectifier: the entrywise maximum with the broadcast zero word, the word kept as printed. -/
theorem relu_10000x64 (h : FVec Ideal S10000x64 .f32) :
    maximumf h (broadcastInDim S10000x64 ![] bcast_S_S10000x64 (constant S_ .f32 0x00000000#32))
      = fun j => max (h j) Spec.zeroWord :=
  funext fun j => congrArg (max (h j)) ((val_main_call0_v0_apply (F := Ideal) j).trans (constant_apply _ _))

/-! ## The three results -/

/-- The first node type's hidden features, as the reference composes them. -/
theorem hid0_eq (x0 : FVec Ideal S10000x128 .f32) (x3 : FVec Ideal S2000x2000 .f32) (adj mask : FVec Ideal S10000x2000 .f32)
    (W0 : FVec Ideal S128x64 .f32) (b0 : FVec Ideal S64 .f32) (W3 : FVec Ideal S2000x64 .f32) (b3 : FVec Ideal S64 .f32) :
    addf (addf (Host.dotGeneral dot_S10000x128_S128x64_S10000x64_1_0_0_1_n_n none x0 W0) (broadcastInDim S10000x64 ![0, 1] bcast_S1x64_S10000x64_0_1 (broadcastInDim S1x64 ![1] bcast_S64_S1x64_1 b0))) (addf (Host.dotGeneral dot_S10000x2000_S2000x64_S10000x64_1_0_0_1_n_n none (mulf mask adj) (Host.dotGeneral dot_S2000x2000_S2000x64_S2000x64_1_0_0_1_n_n none x3 W3)) (broadcastInDim S10000x64 ![0, 1] bcast_S1x64_S10000x64_0_1 (broadcastInDim S1x64 ![1] bcast_S64_S1x64_1 b3)))
      = Spec.hid0 x0 x3 adj mask W0 b0 W3 b3 := by
  funext i
  rw [dot_10000x128x64, dot_2000x2000x64, dot_10000x2000x64]
  show (denseProd x0 W0 i + _) + (denseProd (mulf mask adj) (denseProd x3 W3) i + _) = _
  rw [bias_10000x64 b0 i, bias_10000x64 b3 i]
  rfl

/-- The second node type's hidden features, as the reference composes them. -/
theorem hid3_eq (x0 : FVec Ideal S10000x128 .f32) (x3 : FVec Ideal S2000x2000 .f32) (adj mask : FVec Ideal S10000x2000 .f32)
    (W0 : FVec Ideal S128x64 .f32) (b0 : FVec Ideal S64 .f32) (W3 : FVec Ideal S2000x64 .f32) (b3 : FVec Ideal S64 .f32) :
    addf (addf (Host.dotGeneral dot_S2000x2000_S2000x64_S2000x64_1_0_0_1_n_n none x3 W3) (broadcastInDim S2000x64 ![0, 1] bcast_S1x64_S2000x64_0_1 (broadcastInDim S1x64 ![1] bcast_S64_S1x64_1 b3))) (addf (Host.dotGeneral dot_S2000x10000_S10000x64_S2000x64_1_0_0_1_n_n none (transpose S2000x10000 [1, 0] (mulf mask adj) transposes_S10000x2000_S2000x10000_1_0) (Host.dotGeneral dot_S10000x128_S128x64_S10000x64_1_0_0_1_n_n none x0 W0)) (broadcastInDim S2000x64 ![0, 1] bcast_S1x64_S2000x64_0_1 (broadcastInDim S1x64 ![1] bcast_S64_S1x64_1 b0)))
      = Spec.hid3 x0 x3 adj mask W0 b0 W3 b3 := by
  funext i
  rw [transpose_masked, dot_10000x128x64, dot_2000x2000x64, dot_2000x10000x64]
  show (denseProd x3 W3 i + _) + (denseProd (Spec.maskedT mask adj) (denseProd x0 W0) i + _) = _
  rw [bias_2000x64 b3 i, bias_2000x64 b0 i]
  rfl

/-- The reconstruction, as the reference composes it. -/
theorem recon_eq (x0 : FVec Ideal S10000x128 .f32) (x3 : FVec Ideal S2000x2000 .f32) (adj mask : FVec Ideal S10000x2000 .f32)
    (W0 : FVec Ideal S128x64 .f32) (b0 : FVec Ideal S64 .f32) (W3 : FVec Ideal S2000x64 .f32) (b3 : FVec Ideal S64 .f32)
    (Wp : FVec Ideal S64x2000 .f32) (bp : FVec Ideal S2000 .f32) :
    addf (Host.dotGeneral dot_S10000x64_S64x2000_S10000x2000_1_0_0_1_n_n none (maximumf (addf (addf (Host.dotGeneral dot_S10000x128_S128x64_S10000x64_1_0_0_1_n_n none x0 W0) (broadcastInDim S10000x64 ![0, 1] bcast_S1x64_S10000x64_0_1 (broadcastInDim S1x64 ![1] bcast_S64_S1x64_1 b0))) (addf (Host.dotGeneral dot_S10000x2000_S2000x64_S10000x64_1_0_0_1_n_n none (mulf mask adj) (Host.dotGeneral dot_S2000x2000_S2000x64_S2000x64_1_0_0_1_n_n none x3 W3)) (broadcastInDim S10000x64 ![0, 1] bcast_S1x64_S10000x64_0_1 (broadcastInDim S1x64 ![1] bcast_S64_S1x64_1 b3)))) (broadcastInDim S10000x64 ![] bcast_S_S10000x64 (constant S_ .f32 0x00000000#32))) Wp) (broadcastInDim S10000x2000 ![0, 1] bcast_S1x2000_S10000x2000_0_1 (broadcastInDim S1x2000 ![1] bcast_S2000_S1x2000_1 bp))
      = Spec.recon x0 x3 adj mask W0 b0 W3 b3 Wp bp := by
  funext i
  rw [hid0_eq, relu_10000x64, dot_10000x64x2000]
  show denseProd (fun j => max (Spec.hid0 x0 x3 adj mask W0 b0 W3 b3 j) Spec.zeroWord) Wp i + _ = _
  rw [bias_10000x2000 bp i]
  rfl

/-! ## The run -/

/-- Every weakly fair execution of the reference ends, faults nowhere, holds the specification's three arrays of the
    launched arguments in its three results, and leaves its ten arguments as launched. -/
theorem ref_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v27) = Spec.recon (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))
      ∧ r.2.mem ((c.tc : Thread Cert.ReferenceIdeal.nD Cert.ReferenceIdeal.τ).loc Cert.ReferenceIdeal.main_v14) = Spec.hid0 (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))
      ∧ r.2.mem ((c.tc : Thread Cert.ReferenceIdeal.nD Cert.ReferenceIdeal.τ).loc Cert.ReferenceIdeal.main_v21) = Spec.hid3 (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)) :=
  (θ_run Cert.ReferenceIdeal.defs _ _).mono (fun _ h c =>
      ⟨(h c).1.trans (recon_eq _ _ _ _ _ _ _ _ _ _), (h c).2.1.trans (hid0_eq _ _ _ _ _ _ _ _),
        (h c).2.2.1.trans (hid3_eq _ _ _ _ _ _ _ _), (h c).2.2.2⟩)
    (Cert.ReferenceIdeal.Value.run (F := Ideal) m ρ)

/-- The reference runs and leaves its ten arguments as launched. -/
theorem frame_ri : Cert.frame_ReferenceIdeal := fun m ρ _ =>
  (θ_run Cert.ReferenceIdeal.defs _ _).mono (fun _ h c => (h c).2.2.2) (Cert.ReferenceIdeal.Value.run (F := Ideal) m ρ)

end Cert.Hand.Ref

end
-- ==== Proof.KernelHost.lean ====
/-
  The host operations around the two kernel regions, read at an index on the extended reals. Before the second region:
  the bias row `b0 + b3` reshaped to `[1, 64]` and the row `bp` reshaped to `[1, 2000]`. After it: the aggregate
  `[64, 2000]` transposed, plus `s3`, plus the bias row `b0 + b3` spread over the 2000 rows. The arguments themselves
  reach the second region as launched, and `s3` reaches it, and the last stretch, as the first region left it.
-/
import proofs.«139756_g50276887167361_cont_8to1_c_1049_28_alg».proof.Proof.KI.Run
import Idealize.ShloMosaic.Lib.Pipeline.Value
import Idealize.ShloMosaic.Lib.ValueIdx
import Idealize.ShloMosaic.Lib.StableHlo.Run

noncomputable section

namespace Cert.Hand.KHost

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

/-- A buffer's contents typed as the array of extended reals it is. -/
abbrev asVec (S : Shape) (x : FVec Ideal S .f32) : FVec Ideal S .f32 := x

variable (m : (ℓ : Loc nD τ sig) → Buf (Elt Ideal) ℓ) (ρ : Dev nD → PrngReg)

/-! ## The arguments, as arrays of extended reals -/

abbrev aX0 (c : Dev nD) : S10000x128.Idx → EReal := m ((c : Thread nD τ).loc main_arg0)
abbrev aX3 (c : Dev nD) : S2000x2000.Idx → EReal := m ((c : Thread nD τ).loc main_arg1)
abbrev aADJ (c : Dev nD) : S10000x2000.Idx → EReal := m ((c : Thread nD τ).loc main_arg2)
abbrev aMASK (c : Dev nD) : S10000x2000.Idx → EReal := m ((c : Thread nD τ).loc main_arg3)
abbrev aW0 (c : Dev nD) : S128x64.Idx → EReal := m ((c : Thread nD τ).loc main_arg4)
abbrev aB0 (c : Dev nD) : S64.Idx → EReal := m ((c : Thread nD τ).loc main_arg5)
abbrev aW3 (c : Dev nD) : S2000x64.Idx → EReal := m ((c : Thread nD τ).loc main_arg6)
abbrev aB3 (c : Dev nD) : S64.Idx → EReal := m ((c : Thread nD τ).loc main_arg7)
abbrev aWP (c : Dev nD) : S64x2000.Idx → EReal := m ((c : Thread nD τ).loc main_arg8)
abbrev aBP (c : Dev nD) : S2000.Idx → EReal := m ((c : Thread nD τ).loc main_arg9)

/-! ## The arguments as the second region finds them -/

theorem W1_arg0 (c : Dev nD) : W1 m ρ c (Proc.devRef .tc main_arg0) = m ((c : Thread nD τ).loc main_arg0) :=
  (W1_of_ne m ρ c main_arg0 (by decide)).trans rfl
theorem V2_arg0 (c : Dev nD) : V2 m ρ c main_arg0 = m ((c : Thread nD τ).loc main_arg0) :=
  (W2_of m ρ c main_arg0 (by decide)).trans (W1_arg0 m ρ c)
theorem W1_arg2 (c : Dev nD) : W1 m ρ c (Proc.devRef .tc main_arg2) = m ((c : Thread nD τ).loc main_arg2) :=
  (W1_of_ne m ρ c main_arg2 (by decide)).trans rfl
theorem V2_arg2 (c : Dev nD) : V2 m ρ c main_arg2 = m ((c : Thread nD τ).loc main_arg2) :=
  (W2_of m ρ c main_arg2 (by decide)).trans (W1_arg2 m ρ c)
theorem W1_arg3 (c : Dev nD) : W1 m ρ c (Proc.devRef .tc main_arg3) = m ((c : Thread nD τ).loc main_arg3) :=
  (W1_of_ne m ρ c main_arg3 (by decide)).trans rfl
theorem V2_arg3 (c : Dev nD) : V2 m ρ c main_arg3 = m ((c : Thread nD τ).loc main_arg3) :=
  (W2_of m ρ c main_arg3 (by decide)).trans (W1_arg3 m ρ c)
theorem W1_arg4 (c : Dev nD) : W1 m ρ c (Proc.devRef .tc main_arg4) = m ((c : Thread nD τ).loc main_arg4) :=
  (W1_of_ne m ρ c main_arg4 (by decide)).trans rfl
theorem V2_arg4 (c : Dev nD) : V2 m ρ c main_arg4 = m ((c : Thread nD τ).loc main_arg4) :=
  (W2_of m ρ c main_arg4 (by decide)).trans (W1_arg4 m ρ c)
theorem W1_arg5 (c : Dev nD) : W1 m ρ c (Proc.devRef .tc main_arg5) = m ((c : Thread nD τ).loc main_arg5) :=
  (W1_of_ne m ρ c main_arg5 (by decide)).trans rfl
theorem V2_arg5 (c : Dev nD) : V2 m ρ c main_arg5 = m ((c : Thread nD τ).loc main_arg5) :=
  (W2_of m ρ c main_arg5 (by decide)).trans (W1_arg5 m ρ c)
theorem W1_arg7 (c : Dev nD) : W1 m ρ c (Proc.devRef .tc main_arg7) = m ((c : Thread nD τ).loc main_arg7) :=
  (W1_of_ne m ρ c main_arg7 (by decide)).trans rfl
theorem V2_arg7 (c : Dev nD) : V2 m ρ c main_arg7 = m ((c : Thread nD τ).loc main_arg7) :=
  (W2_of m ρ c main_arg7 (by decide)).trans (W1_arg7 m ρ c)
theorem W1_arg8 (c : Dev nD) : W1 m ρ c (Proc.devRef .tc main_arg8) = m ((c : Thread nD τ).loc main_arg8) :=
  (W1_of_ne m ρ c main_arg8 (by decide)).trans rfl
theorem V2_arg8 (c : Dev nD) : V2 m ρ c main_arg8 = m ((c : Thread nD τ).loc main_arg8) :=
  (W2_of m ρ c main_arg8 (by decide)).trans (W1_arg8 m ρ c)
theorem W1_arg9 (c : Dev nD) : W1 m ρ c (Proc.devRef .tc main_arg9) = m ((c : Thread nD τ).loc main_arg9) :=
  (W1_of_ne m ρ c main_arg9 (by decide)).trans rfl
theorem V2_arg9 (c : Dev nD) : V2 m ρ c main_arg9 = m ((c : Thread nD τ).loc main_arg9) :=
  (W2_of m ρ c main_arg9 (by decide)).trans (W1_arg9 m ρ c)

/-- `s3`, the first region's result, reaches the second region's entry unchanged. -/
theorem V2_s3 (c : Dev nD) : V2 m ρ c main_call0_v0 = (dat0 (V0 m ρ) c).arrAt 2 cfg0.N :=
  (W2_of m ρ c main_call0_v0 (by decide)).trans (W1_arr m ρ c 2)

/-! ## The first host stretch -/

/-- The summed bias row, as the operations' term. -/
theorem V2_bias_term (c : Dev nD) :
    asVec S1x64 (V2 m ρ c main_call0_v2) = shapeCast S1x64 (addf (asVec S64 (W1 m ρ c (Proc.devRef .tc main_arg5))) (asVec S64 (W1 m ρ c (Proc.devRef .tc main_arg7)))) shapeCasts_S64_S1x64 := by
  show StableHlo.after hostOps1 (W1 m ρ c) (Proc.devRef .tc main_call0_v2) = _
  after_results; rfl

/-- Entry `q` of the summed bias row is `b0[q] + b3[q]`. -/
theorem V2_bias_apply (c : Dev nD) (q : Fin 64) :
    asVec S1x64 (V2 m ρ c main_call0_v2) (ix2 0 q) = aB0 m c (ix1 q) + aB3 m c (ix1 q) := by
  rw [V2_bias_term]
  refine (shapeCast_apply _ _ (ix2 0 q) (ix1 q) (by rw [Shape.rowMajor_val_one, Shape.rowMajor_val_two]; show q.val = 0 * 64 + q.val; omega)).trans ?_
  rw [ValueIdx.addf_apply, W1_arg5, W1_arg7]

/-- The row `bp` reshaped, as the operation's term. -/
theorem V2_bp_term (c : Dev nD) :
    asVec S1x2000 (V2 m ρ c main_call0_v3) = shapeCast S1x2000 (asVec S2000 (W1 m ρ c (Proc.devRef .tc main_arg9))) shapeCasts_S2000_S1x2000 := by
  show StableHlo.after hostOps1 (W1 m ρ c) (Proc.devRef .tc main_call0_v3) = _
  after_results; rfl

/-- Entry `q` of the reshaped row is `bp[q]`. -/
theorem V2_bp_apply (c : Dev nD) (q : Fin 2000) :
    asVec S1x2000 (V2 m ρ c main_call0_v3) (ix2 0 q) = aBP m c (ix1 q) := by
  rw [V2_bp_term]
  refine (shapeCast_apply _ _ (ix2 0 q) (ix1 q) (by rw [Shape.rowMajor_val_one, Shape.rowMajor_val_two]; show q.val = 0 * 2000 + q.val; omega)).trans ?_
  show W1 m ρ c (Proc.devRef .tc main_arg9) (ix1 q) = _
  rw [W1_arg9]

/-! ## The second region's results and what the last host stretch reads -/

theorem W4_recon (c : Dev nD) : W4 m ρ c (Proc.devRef .tc main_v0_0) = (dat1 (V2 m ρ) c).arrAt 8 cfg1.N :=
  (W4_of m ρ c main_v0_0 (by decide)).trans (W3_arr m ρ c 8)
theorem W4_hid0 (c : Dev nD) : W4 m ρ c (Proc.devRef .tc main_v0_1) = (dat1 (V2 m ρ) c).arrAt 9 cfg1.N :=
  (W4_of m ρ c main_v0_1 (by decide)).trans (W3_arr m ρ c 9)
theorem W3_agg (c : Dev nD) : W3 m ρ c (Proc.devRef .tc main_call0_v4_2) = (dat1 (V2 m ρ) c).arrAt 10 cfg1.N :=
  W3_arr m ρ c 10
theorem W3_s3 (c : Dev nD) : W3 m ρ c (Proc.devRef .tc main_call0_v0) = (dat0 (V0 m ρ) c).arrAt 2 cfg0.N :=
  ((W3_arr m ρ c 4).trans (((dat1 (V2 m ρ) c).arrAt_in 4 rfl _).trans (A_eq1 (V2 m ρ) c 4))).trans (V2_s3 m ρ c)
theorem W3_arg5 (c : Dev nD) : W3 m ρ c (Proc.devRef .tc main_arg5) = m ((c : Thread nD τ).loc main_arg5) :=
  (W3_of_ne m ρ c main_arg5 (by decide)).trans (V2_arg5 m ρ c)
theorem W3_arg7 (c : Dev nD) : W3 m ρ c (Proc.devRef .tc main_arg7) = m ((c : Thread nD τ).loc main_arg7) :=
  (W3_of_ne m ρ c main_arg7 (by decide)).trans (V2_arg7 m ρ c)

/-- The third result, as the last stretch's operations' term over what the second region left. -/
theorem W4_hid3_term (c : Dev nD) :
    asVec S2000x64 (W4 m ρ c (Proc.devRef .tc main_v0_2))
      = addf (addf (transpose S2000x64 [1, 0] (asVec S64x2000 (W3 m ρ c (Proc.devRef .tc main_call0_v4_2))) transposes_S64x2000_S2000x64_1_0) (asVec S2000x64 (W3 m ρ c (Proc.devRef .tc main_call0_v0))))
          (broadcastInDim S2000x64 ![0, 1] bcast_S1x64_S2000x64_0_1 (broadcastInDim S1x64 ![1] bcast_S64_S1x64_1
            (addf (asVec S64 (W3 m ρ c (Proc.devRef .tc main_arg5))) (asVec S64 (W3 m ρ c (Proc.devRef .tc main_arg7)))))) := by
  show StableHlo.after hostOps2 (W3 m ρ c) (Proc.devRef .tc main_v0_2) = _
  after_results; rfl

/-- Entry `(j, h)` of the third result: the aggregate's entry `(h, j)`, plus `s3[j, h]`, plus `b0[h] + b3[h]`. -/
theorem W4_hid3_apply (c : Dev nD) (j : Fin 2000) (h : Fin 64) :
    asVec S2000x64 (W4 m ρ c (Proc.devRef .tc main_v0_2)) (ix2 j h)
      = (asVec S64x2000 ((dat1 (V2 m ρ) c).arrAt 10 cfg1.N) (ix2 h j) + asVec S2000x64 ((dat0 (V0 m ρ) c).arrAt 2 cfg0.N) (ix2 j h))
        + (aB0 m c (ix1 h) + aB3 m c (ix1 h)) := by
  rw [W4_hid3_term, ValueIdx.addf_apply, ValueIdx.addf_apply]
  congr 1
  · congr 1
    · refine (transpose_apply _ _ _ (ix2 j h) (ix2 h j) (fun b => match b with | ⟨0, _⟩ => rfl | ⟨1, _⟩ => rfl)).trans ?_
      show W3 m ρ c (Proc.devRef .tc main_call0_v4_2) (ix2 h j) = _
      rw [W3_agg]
    · show W3 m ρ c (Proc.devRef .tc main_call0_v0) (ix2 j h) = _
      rw [W3_s3]
  · refine (broadcastInDim_apply _ _ _ (ix2 j h) (ix2 0 h) (fun a => match a with | ⟨0, _⟩ => rfl | ⟨1, _⟩ => rfl)).trans ?_
    refine (broadcastInDim_apply _ _ _ (ix2 0 h) (ix1 h) (fun a => match a with | ⟨0, _⟩ => rfl)).trans ?_
    rw [ValueIdx.addf_apply, W3_arg5, W3_arg7]

end Cert.Hand.KHost

end
-- ==== Proof.PayloadForms.lean ====
/-
  The kernel bodies' arithmetic read at an index on the extended reals.

  On the extended reals a change of float format is the identity, a shape cast to the same shape is the identity, and a
  matrix product into the zero accumulator is the exact sum of products. So each value a kernel body stores is a closed
  expression in the arrays it loaded:
    the first body stores the dense product x · w;
    the second body forms the entrywise product e = v0 ∘ v1 and the dense product s = v4 · v6, stores
      (s + e · v9) + b (b a row, repeated down the rows), then (max(that, 0) · v22) + c (c a row, repeated), and
      yields the product of the transposes, (sᵀ · e)[h, j] = Σ_r s[r, h] · e[r, j];
    the accumulating store adds the yielded block to the block already there.
  The rectifier's zero stays the float word the program prints; it is never evaluated.
-/
import proofs.«139756_g50276887167361_cont_8to1_c_1049_28_alg».proof.Proof.Gen.KernelIdeal.Skeleton
import proofs.«139756_g50276887167361_cont_8to1_c_1049_28_alg».proof.Proof.Spec
import proofs.«139756_g50276887167361_cont_8to1_c_1049_28_alg».proof.Proof.LibDense
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Hand.Pay

open Idealize.ShloMosaic Idealize.ShloMosaic.ValueIdx Cert.LibDense Cert.KernelIdeal Cert.KernelIdeal.Gen

variable [Cert.KernelIdeal.Facts]

/-! ## Format changes and the four contractions -/

/-- A narrowing format change is the identity on an array of extended reals. -/
theorem truncf_eq {s : Shape} {φ ψ : FTy} (a : FVec Ideal s φ) (h : ψ.bits < φ.bits) :
    (truncf ψ a h : FVec Ideal s ψ) = a := funext fun _ => rfl

/-- [400, 2000] by [2000, 64] into the zero accumulator is the dense product. -/
theorem matmul_400_2000_64 {φ₁ φ₂ : FTy} (x : FVec Ideal S400x2000 φ₁) (w : FVec Ideal S2000x64 φ₂) :
    matmul dot_S400x2000_S2000x64_S400x64_1_0_0_1_n_n none x w (constant S400x64 .f32 0x00000000#32) = denseProd x w :=
  matmul_zero_eq dot_S400x2000_S2000x64_S400x64_1_0_0_1_n_n rfl rfl rfl rfl (fun _ _ => rfl) (fun _ _ => rfl) none x w

/-- [400, 128] by [128, 64] into the zero accumulator is the dense product. -/
theorem matmul_400_128_64 {φ₁ φ₂ : FTy} (x : FVec Ideal S400x128 φ₁) (w : FVec Ideal S128x64 φ₂) :
    matmul dot_S400x128_S128x64_S400x64_1_0_0_1_n_n none x w (constant S400x64 .f32 0x00000000#32) = denseProd x w :=
  matmul_zero_eq dot_S400x128_S128x64_S400x64_1_0_0_1_n_n rfl rfl rfl rfl (fun _ _ => rfl) (fun _ _ => rfl) none x w

/-- [400, 64] by [64, 2000] into the zero accumulator is the dense product. -/
theorem matmul_400_64_2000 {φ₁ φ₂ : FTy} (x : FVec Ideal S400x64 φ₁) (w : FVec Ideal S64x2000 φ₂) :
    matmul dot_S400x64_S64x2000_S400x2000_1_0_0_1_n_n none x w (constant S400x2000 .f32 0x00000000#32) = denseProd x w :=
  matmul_zero_eq dot_S400x64_S64x2000_S400x2000_1_0_0_1_n_n rfl rfl rfl rfl (fun _ _ => rfl) (fun _ _ => rfl) none x w

/-- The contraction that pairs axis 0 of a [400, 64] array with axis 0 of a [400, 2000] array: at output (h, j) its one
    coordinate r reads the left operand at (r, h) and the right one at (r, j). -/
theorem sum_contr_rows (x : S400x64.Idx → EReal) (w : S400x2000.Idx → EReal) (h : Fin 64) (j : Fin 2000) :
    ∑ q : dot_S400x64_S400x2000_S64x2000_0_0_1_1_n_n.contr.Idx,
        x (dot_S400x64_S400x2000_S64x2000_0_0_1_1_n_n.lhsIdx (ix2 h j) q)
          * w (dot_S400x64_S400x2000_S64x2000_0_0_1_1_n_n.rhsIdx (ix2 h j) q)
      = ∑ r : Fin 400, x (ix2 r h) * w (ix2 r j) := by
  rw [← Equiv.sum_comp (contrEquiv1 dot_S400x64_S400x2000_S64x2000_0_0_1_1_n_n 400 rfl rfl).symm]
  refine Finset.sum_congr rfl fun k _ => ?_
  have hk := contrEquiv1_symm_val dot_S400x64_S400x2000_S64x2000_0_0_1_1_n_n 400 rfl rfl k
  have el : dot_S400x64_S400x2000_S64x2000_0_0_1_1_n_n.lhsIdx (ix2 h j)
      ((contrEquiv1 dot_S400x64_S400x2000_S64x2000_0_0_1_1_n_n 400 rfl rfl).symm k) = ix2 k h :=
    funext fun a => Fin.ext (by
      match a with
      | ⟨0, _⟩ => exact (DotDims.lhsIdx_val_of_single _ rfl (ix2 h j) _).trans hk
      | ⟨1, _⟩ => rfl)
  have er : dot_S400x64_S400x2000_S64x2000_0_0_1_1_n_n.rhsIdx (ix2 h j)
      ((contrEquiv1 dot_S400x64_S400x2000_S64x2000_0_0_1_1_n_n 400 rfl rfl).symm k) = ix2 k j :=
    funext fun a => Fin.ext (by
      match a with
      | ⟨0, _⟩ => exact (DotDims.rhsIdx_val_of_single _ rfl (ix2 h j) _).trans hk
      | ⟨1, _⟩ => rfl)
  rw [el, er]

/-! ## The first body -/

/-- The first body stores the dense product of its two loaded blocks. -/
theorem k0_pay1_eq (x : Vec Ideal S400x2000 .f32) (w : Vec Ideal S2000x64 .f32) :
    k0_pay1 (F := Ideal) x w = denseProd x w :=
  matmul_400_2000_64 (truncf .bf16 x Facts₀.bitsLt_bf16_f32) (truncf .bf16 w Facts₀.bitsLt_bf16_f32)

/-! ## The second body -/

/-- The entrywise product of the two [400, 2000] blocks. -/
theorem k1_pay2_eq (v0 v1 : Vec Ideal S400x2000 .f32) :
    (k1_pay2 (F := Ideal) v0 v1 : S400x2000.Idx → EReal) = fun i => v0 i * v1 i := rfl

/-- The dense product of the [400, 128] block with the [128, 64] array. -/
theorem k1_pay3_eq (v4 : Vec Ideal S400x128 .f32) (v6 : Vec Ideal S128x64 .f32) :
    k1_pay3 (F := Ideal) v4 v6 = denseProd v4 v6 :=
  matmul_400_128_64 (truncf .bf16 v4 Facts₀.bitsLt_bf16_f32) (truncf .bf16 v6 Facts₀.bitsLt_bf16_f32)

/-- The hidden block before the rectifier: the two dense products added, plus the bias row. -/
theorem k1_pay4_apply (v0 v1 : Vec Ideal S400x2000 .f32) (v4 : Vec Ideal S400x128 .f32) (v6 : Vec Ideal S128x64 .f32)
    (v9 : Vec Ideal S2000x64 .f32) (v14 : Vec Ideal S1x64 .f32) (p : Fin 400) (q : Fin 64) :
    k1_pay4 (F := Ideal) v0 v1 v4 v6 v9 v14 (ix2 p q)
      = (denseProd v4 v6 (ix2 p q) + denseProd (fun i => v0 i * v1 i) v9 (ix2 p q)) + v14 (ix2 0 q) := by
  show (k1_pay3 (F := Ideal) v4 v6 (ix2 p q)
        + matmul dot_S400x2000_S2000x64_S400x64_1_0_0_1_n_n none (k1_pay2 (F := Ideal) v0 v1)
            (truncf .bf16 (shapeCast S2000x64 v9 Facts₀.shapeCasts_S2000x64_S2000x64) Facts₀.bitsLt_bf16_f32)
            (constant S400x64 .f32 0x00000000#32) (ix2 p q))
      + broadcastTo S400x64 (shapeCast S1x64 v14 Facts₀.shapeCasts_S1x64_S1x64) Facts₀.broadcasts_S1x64_S400x64 (ix2 p q) = _
  rw [k1_pay3_eq, matmul_400_2000_64, shapeCast_self, shapeCast_self, broadcastTo_1b_ab_apply]
  rfl

/-- The reconstruction block: the rectified hidden block times the [64, 2000] array, plus the bias row. -/
theorem k1_pay5_apply (v0 v1 : Vec Ideal S400x2000 .f32) (v4 : Vec Ideal S400x128 .f32) (v6 : Vec Ideal S128x64 .f32)
    (v9 : Vec Ideal S2000x64 .f32) (v14 : Vec Ideal S1x64 .f32) (v22 : Vec Ideal S64x2000 .f32) (v25 : Vec Ideal S1x2000 .f32)
    (p : Fin 400) (q : Fin 2000) :
    k1_pay5 (F := Ideal) v0 v1 v4 v6 v9 v14 v22 v25 (ix2 p q)
      = denseProd (fun j : S400x64.Idx => max (k1_pay4 (F := Ideal) v0 v1 v4 v6 v9 v14 j) (Ideal.ofBits .f32 0x00000000#32))
          v22 (ix2 p q) + v25 (ix2 0 q) := by
  show matmul dot_S400x64_S64x2000_S400x2000_1_0_0_1_n_n none
          (truncf .bf16 (maximumf (k1_pay4 (F := Ideal) v0 v1 v4 v6 v9 v14) (broadcast S400x64 (Scalar.ofBits .f32 0x00000000#32)))
            Facts₀.bitsLt_bf16_f32)
          (truncf .bf16 v22 Facts₀.bitsLt_bf16_f32) (constant S400x2000 .f32 0x00000000#32) (ix2 p q)
      + broadcastTo S400x2000 (shapeCast S1x2000 v25 Facts₀.shapeCasts_S1x2000_S1x2000) Facts₀.broadcasts_S1x2000_S400x2000 (ix2 p q) = _
  rw [matmul_400_64_2000, shapeCast_self, broadcastTo_1b_ab_apply]
  rfl

/-- The yielded block: the product of the transposes, a sum down the 400 rows. -/
theorem k1_pay6_apply (v0 v1 : Vec Ideal S400x2000 .f32) (v4 : Vec Ideal S400x128 .f32) (v6 : Vec Ideal S128x64 .f32)
    (h : Fin 64) (j : Fin 2000) :
    k1_pay6 (F := Ideal) v0 v1 v4 v6 (ix2 h j)
      = ∑ r : Fin 400, denseProd v4 v6 (ix2 r h) * (v0 (ix2 r j) * v1 (ix2 r j)) := by
  show matmul dot_S400x64_S400x2000_S64x2000_0_0_1_1_n_n none
        (truncf .bf16 (k1_pay3 (F := Ideal) v4 v6) Facts₀.bitsLt_bf16_f32) (k1_pay2 (F := Ideal) v0 v1)
        (constant S64x2000 .f32 0x00000000#32) (ix2 h j) = _
  rw [k1_pay3_eq]
  exact (Ideal.matmul_constant_zero_apply _ none _ _ (ix2 h j)).trans
    (sum_contr_rows (denseProd v4 v6) (fun i => v0 i * v1 i) h j)

/-! ## The accumulating store -/

/-- The accumulating store writes the block already there plus the yielded block. -/
theorem k1_pay1_apply (v31 : FVec Ideal S64x2000 .f32) (v38 : Vec Ideal S64x2000 .f32) (i : S64x2000.Idx) :
    k1_pay1 (F := Ideal) v31 v38 i = v38 i + v31 i := by
  show addf (shapeCast S64x2000 v38 Facts₀.shapeCasts_S64x2000_S64x2000) v31 i = _
  rw [shapeCast_self]
  rfl

end Cert.Hand.Pay

end
-- ==== Proof.OutForms.lean ====
/-
  What each store of the two kernel bodies leaves, as a function of the loaded blocks, on the extended reals.

  Each body loads its staging buffers whole and stores its results whole: through the rectangle of the buffer's own extents
  at offset zero a load reads the buffer's contents and the one store leaves its payload. So what a body leaves in an
  output buffer is its payload of the input buffers' contents, and the payloads' closed forms carry over:
    the first body leaves the dense product of its two blocks;
    the second body leaves, for 400 rows, the hidden features (x0 · W0 + (mask ∘ adj) · s3) + b, their reconstruction
      (max(hidden, 0) · Wp) + bp, and in the resident buffer the rows' contribution Σ_r (x0 · W0)[r, h] · (mask ∘ adj)[r, j],
      stored at the first point and added to what the buffer held at every later one.
-/
import proofs.«139756_g50276887167361_cont_8to1_c_1049_28_alg».proof.Proof.KI.Region0
import proofs.«139756_g50276887167361_cont_8to1_c_1049_28_alg».proof.Proof.KI.Region1Defs
import proofs.«139756_g50276887167361_cont_8to1_c_1049_28_alg».proof.Proof.PayloadForms
import Idealize.ShloMosaic.Lib.Pipeline.Value

noncomputable section

open scoped BigOperators

namespace Cert.Hand.Out

open Idealize.ShloMosaic Idealize.ShloMosaic.ValueIdx Cert.LibDense Cert.KernelIdeal Cert.KernelIdeal.Gen
open Cert.KernelIdeal.Hand Cert.Hand.Pay

variable [Cert.KernelIdeal.Facts]

/-- The offset of every whole-buffer rectangle: zero on both axes. -/
theorem hz2 : (![0, 0] : Fin 2 → Nat) = fun _ => 0 :=
  funext fun a => match a with | ⟨0, _⟩ => rfl | ⟨1, _⟩ => rfl

/-! ## Each output buffer holds the payload of the input buffers' contents -/

/-- The first body's result buffer holds its payload of the two blocks. -/
theorem out0_2_pay (x0 : Vec Ideal S400x2000 .f32) (x1 : Vec Ideal S2000x64 .f32) :
    out0_2 (F := Ideal) x0 x1 = k0_pay1 (F := Ideal) x0 x1 := by
  unfold out0_2
  rw [View.canon_unit_zero hz2]
  simp only [View.ld_unit_zero (S := S400x2000) hz2, View.ld_unit_zero (S := S2000x64) hz2]

/-- The hidden-features buffer holds its payload; the body reads the mask block first, then the adjacency block. -/
theorem out1_9_pay (x0 : Vec Ideal S400x128 .f32) (x1 x2 : Vec Ideal S400x2000 .f32) (x3 : Vec Ideal S128x64 .f32)
    (x4 : Vec Ideal S2000x64 .f32) (x6 : Vec Ideal S1x64 .f32) :
    out1_9 (F := Ideal) x0 x1 x2 x3 x4 x6 = k1_pay4 (F := Ideal) x2 x1 x0 x3 x4 x6 := by
  unfold out1_9
  rw [View.canon_unit_zero hz2]
  simp only [View.ld_unit_zero (S := S400x2000) hz2, View.ld_unit_zero (S := S400x128) hz2,
    View.ld_unit_zero (S := S128x64) hz2, View.ld_unit_zero (S := S2000x64) hz2, View.ld_unit_zero (S := S1x64) hz2]

/-- The reconstruction buffer holds its payload. -/
theorem out1_8_pay (x0 : Vec Ideal S400x128 .f32) (x1 x2 : Vec Ideal S400x2000 .f32) (x3 : Vec Ideal S128x64 .f32)
    (x4 : Vec Ideal S2000x64 .f32) (x5 : Vec Ideal S64x2000 .f32) (x6 : Vec Ideal S1x64 .f32) (x7 : Vec Ideal S1x2000 .f32) :
    out1_8 (F := Ideal) x0 x1 x2 x3 x4 x5 x6 x7 = k1_pay5 (F := Ideal) x2 x1 x0 x3 x4 x6 x5 x7 := by
  unfold out1_8
  rw [View.canon_unit_zero hz2]
  simp only [View.ld_unit_zero (S := S400x2000) hz2, View.ld_unit_zero (S := S400x128) hz2,
    View.ld_unit_zero (S := S128x64) hz2, View.ld_unit_zero (S := S2000x64) hz2, View.ld_unit_zero (S := S1x64) hz2,
    View.ld_unit_zero (S := S64x2000) hz2, View.ld_unit_zero (S := S1x2000) hz2]

/-- The rows' contribution is its payload of the four blocks. -/
theorem contrib1_pay (x0 : Vec Ideal S400x128 .f32) (x1 x2 : Vec Ideal S400x2000 .f32) (x3 : Vec Ideal S128x64 .f32) :
    contrib1 (F := Ideal) x0 x1 x2 x3 = k1_pay6 (F := Ideal) x2 x1 x0 x3 := by
  unfold contrib1
  simp only [View.ld_unit_zero (S := S400x2000) hz2, View.ld_unit_zero (S := S400x128) hz2,
    View.ld_unit_zero (S := S128x64) hz2]

/-- After the first point the resident buffer holds the contribution. -/
theorem out1_10A_pay (x0 : Vec Ideal S400x128 .f32) (x1 x2 : Vec Ideal S400x2000 .f32) (x3 : Vec Ideal S128x64 .f32) :
    out1_10A (F := Ideal) x0 x1 x2 x3 = k1_pay6 (F := Ideal) x2 x1 x0 x3 := by
  unfold out1_10A
  rw [View.canon_unit_zero hz2, contrib1_pay]

/-- After a later point the resident buffer holds the accumulating payload of the contribution and what it held. -/
theorem out1_10B_pay (x0 : Vec Ideal S400x128 .f32) (x1 x2 : Vec Ideal S400x2000 .f32) (x3 : Vec Ideal S128x64 .f32)
    (xo : Vec Ideal S64x2000 .f32) :
    out1_10B (F := Ideal) x0 x1 x2 x3 xo = k1_pay1 (F := Ideal) (k1_pay6 (F := Ideal) x2 x1 x0 x3) xo := by
  unfold out1_10B
  rw [View.canon_unit_zero hz2, contrib1_pay]
  simp only [View.ld_unit_zero (S := S64x2000) hz2]

/-! ## The closed forms -/

/-- The first body leaves the dense product of its two blocks. -/
theorem out0_2_eq (x0 : Vec Ideal S400x2000 .f32) (x1 : Vec Ideal S2000x64 .f32) :
    out0_2 (F := Ideal) x0 x1 = denseProd x0 x1 :=
  (out0_2_pay x0 x1).trans (k0_pay1_eq x0 x1)

/-- The hidden features of the rows: the two dense products added, plus the bias row. -/
theorem out1_9_apply (x0 : Vec Ideal S400x128 .f32) (x1 x2 : Vec Ideal S400x2000 .f32) (x3 : Vec Ideal S128x64 .f32)
    (x4 : Vec Ideal S2000x64 .f32) (x6 : Vec Ideal S1x64 .f32) (p : Fin 400) (q : Fin 64) :
    out1_9 (F := Ideal) x0 x1 x2 x3 x4 x6 (ix2 p q)
      = (denseProd x0 x3 (ix2 p q) + denseProd (fun i => x2 i * x1 i) x4 (ix2 p q)) + x6 (ix2 0 q) := by
  rw [out1_9_pay]
  exact k1_pay4_apply x2 x1 x0 x3 x4 x6 p q

/-- The rows' reconstruction: the rectified hidden features times the [64, 2000] array, plus the bias row. -/
theorem out1_8_apply (x0 : Vec Ideal S400x128 .f32) (x1 x2 : Vec Ideal S400x2000 .f32) (x3 : Vec Ideal S128x64 .f32)
    (x4 : Vec Ideal S2000x64 .f32) (x5 : Vec Ideal S64x2000 .f32) (x6 : Vec Ideal S1x64 .f32) (x7 : Vec Ideal S1x2000 .f32)
    (p : Fin 400) (q : Fin 2000) :
    out1_8 (F := Ideal) x0 x1 x2 x3 x4 x5 x6 x7 (ix2 p q)
      = denseProd (fun j : S400x64.Idx => max (out1_9 (F := Ideal) x0 x1 x2 x3 x4 x6 j) (Ideal.ofBits .f32 0x00000000#32))
          x5 (ix2 p q) + x7 (ix2 0 q) := by
  rw [out1_8_pay, out1_9_pay]
  exact k1_pay5_apply x2 x1 x0 x3 x4 x6 x5 x7 p q

/-- The resident buffer after the first point: the rows' contribution, a sum down the 400 rows. -/
theorem out1_10A_apply (x0 : Vec Ideal S400x128 .f32) (x1 x2 : Vec Ideal S400x2000 .f32) (x3 : Vec Ideal S128x64 .f32)
    (h : Fin 64) (j : Fin 2000) :
    out1_10A (F := Ideal) x0 x1 x2 x3 (ix2 h j)
      = ∑ r : Fin 400, denseProd x0 x3 (ix2 r h) * (x2 (ix2 r j) * x1 (ix2 r j)) := by
  rw [out1_10A_pay]
  exact k1_pay6_apply x2 x1 x0 x3 h j

/-- The resident buffer after a later point: what it held plus the rows' contribution. -/
theorem out1_10B_apply (x0 : Vec Ideal S400x128 .f32) (x1 x2 : Vec Ideal S400x2000 .f32) (x3 : Vec Ideal S128x64 .f32)
    (xo : Vec Ideal S64x2000 .f32) (h : Fin 64) (j : Fin 2000) :
    out1_10B (F := Ideal) x0 x1 x2 x3 xo (ix2 h j)
      = xo (ix2 h j) + ∑ r : Fin 400, denseProd x0 x3 (ix2 r h) * (x2 (ix2 r j) * x1 (ix2 r j)) := by
  rw [out1_10B_pay, k1_pay1_apply, k1_pay6_apply]

end Cert.Hand.Out

end
-- ==== Proof.RowFinals.lean ====
/-
  The arrays the two kernel regions leave, from their row blocks.

  Both regions walk the rows of their result 400 at a time: at point `t` the body is handed rows `400 t … 400 t + 399`
  of each row-blocked input and the whole of every other input, and what it stores is written back to rows
  `400 t … 400 t + 399` of each row-blocked result. A block's index is the block index times the block's extent plus
  the index inside the block, so an entry of row `r` of a result is written by the point `r / 400` alone, and there
  it is the body's value at row `r mod 400` of blocks that are rows `r - r mod 400 …` of the inputs. The bodies'
  values are dense products of the row blocks with whole arrays, and a row block of a product is the product of the
  row block: so the first region leaves `x3 · W3`, and the second leaves, row by row, the hidden features
  `(x0 · W0 + (mask ∘ adj) · s3) + b` and their reconstruction `max(hidden, 0) · Wp + bp`, as functions of the whole
  arrays the regions find.
-/
import proofs.«139756_g50276887167361_cont_8to1_c_1049_28_alg».proof.Proof.KI.Region0
import proofs.«139756_g50276887167361_cont_8to1_c_1049_28_alg».proof.Proof.KI.Region1
import proofs.«139756_g50276887167361_cont_8to1_c_1049_28_alg».proof.Proof.OutForms
import Idealize.ShloMosaic.Lib.Pipeline.Value

noncomputable section

namespace Cert.Hand.Fin

open Idealize.ShloMosaic Idealize.ShloMosaic.TcCoe Idealize.ShloMosaic.ValueIdx
open Idealize.ShloMosaic.Pipeline (Dat)
open Cert.LibDense Cert.KernelIdeal Cert.KernelIdeal.Gen Cert.KernelIdeal.Hand Cert.Hand.Out

variable (V : (c : Dev nD) → (b : Ref sig .tc) → Buf (Elt Ideal) ((c : Thread nD τ).loc b))

/-! ## The first region: `s3 = x3 · W3` -/

/-- The printed index maps of the first region, decided over its five points. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The first window's block at point `t` is rows `400 t … 400 t + 399` of `x3`. -/
theorem blk0_0 (c : Dev nD) (t : Fin cfg0.N) (y : S400x2000.Idx) (k : S2000x2000.Idx)
    (hk0 : (k 0).val = 400 * t.val + (y 0).val) (hk1 : (k 1).val = (y 1).val) :
    (iblk0 V c 0 t : Vec Ideal S400x2000 .f32) y = (V c main_arg1 : S2000x2000.Idx → EReal) k := by
  obtain ⟨e0, e1, -⟩ := idx0 t
  show V c main_arg1 (((cfg0.win 0).blk t).view.emb y) = V c main_arg1 k
  congr 1
  funext a
  apply Fin.ext
  match a with
  | ⟨0, _⟩ => show win0_0.index t (0 : Fin 2) * 400 + 1 * (y 0).val = (k 0).val; rw [e0, hk0]; omega
  | ⟨1, _⟩ => show win0_0.index t (1 : Fin 2) * 2000 + 1 * (y 1).val = (k 1).val; rw [e1, hk1]; omega

/-- The second window's block is all of `W3` at every point. -/
theorem blk0_1 (c : Dev nD) (t : Fin cfg0.N) (y : S2000x64.Idx) :
    (iblk0 V c 1 t : Vec Ideal S2000x64 .f32) y = (V c main_arg6 : S2000x64.Idx → EReal) y := by
  obtain ⟨-, -, e0, e1, -⟩ := idx0 t
  show V c main_arg6 (((cfg0.win 1).blk t).view.emb y) = V c main_arg6 y
  congr 1
  funext a
  apply Fin.ext
  match a with
  | ⟨0, _⟩ => show win0_1.index t (0 : Fin 2) * 2000 + 1 * (y 0).val = (y 0).val; rw [e0]; omega
  | ⟨1, _⟩ => show win0_1.index t (1 : Fin 2) * 64 + 1 * (y 1).val = (y 1).val; rw [e1]; omega

/-- What point `t` of the first region writes back is rows `400 t … 400 t + 399` of the product. -/
theorem flushed0_2_eq (c : Dev nD) (t : Fin cfg0.N) :
    (dat0 V c).flushed 2 t = ((cfg0.win 2).blk t).view.read (Elt Ideal)
      (denseProd (n0 := 2000) (nk := 2000) (n1 := 64) (V c main_arg1) (V c main_arg6)) := by
  show (cfg0.win 2).cut (grid0.coords t) ((dat0 V c).after 2 t) = _
  rw [after0_2, out0_2_eq]
  obtain ⟨-, -, -, -, e0, e1⟩ := idx0 t
  have hN : grid0.N = 5 := N_0
  have ht : t.val < 5 := hN ▸ t.isLt
  funext j
  have hj0 : (j 0).val < 400 := (j 0).isLt
  have hj1 : (j 1).val < 64 := (j 1).isLt
  show denseProd (n0 := 400) (nk := 2000) (n1 := 64) (iblk0 V c 0 t) (iblk0 V c 1 t) (ix2 ⟨(j 0).val, hj0⟩ ⟨(j 1).val, hj1⟩)
    = denseProd (n0 := 2000) (nk := 2000) (n1 := 64) (V c main_arg1) (V c main_arg6) (((cfg0.win 2).blk t).view.emb j)
  have hemb : ((cfg0.win 2).blk t).view.emb j = (ix2 (⟨400 * t.val + (j 0).val, by omega⟩ : Fin 2000) (⟨(j 1).val, hj1⟩ : Fin 64) : S2000x64.Idx) := by
    funext a
    apply Fin.ext
    match a with
    | ⟨0, _⟩ => show win0_2.index t (0 : Fin 2) * 400 + 1 * (j 0).val = 400 * t.val + (j 0).val; rw [e0]; omega
    | ⟨1, _⟩ => show win0_2.index t (1 : Fin 2) * 64 + 1 * (j 1).val = (j 1).val; rw [e1]; omega
  rw [hemb]
  exact denseProd_row _ _ _ _ _ _ _
    (fun k => blk0_0 V c t _ _ rfl rfl) (fun k => blk0_1 V c t _)

/-- An index of the product is in point `t`'s block iff each coordinate is in the block's range on its axis. -/
theorem mem_blk0_2 (t : Fin cfg0.N) (i : S2000x64.Idx) :
    i ∈ ((cfg0.win 2).blk t).view.set ↔ ∀ a : Fin 2, win0_2.index t a * S400x64.size a ≤ (i a).val ∧ (i a).val < win0_2.index t a * S400x64.size a + S400x64.size a := by
  show i ∈ ((View.whole main_call0_v0).slice (win0_2.rect t)).set ↔ _
  rw [View.set_slice_whole, Rect.mem_set_unit]
  exact Iff.rfl

/-- Every row of the product is in the block of the point `row / 400`. -/
theorem covered0_2 (i : S2000x64.Idx) : ∃ t : Fin cfg0.N, (cfg0.win 2).flush t = true ∧ i ∈ ((cfg0.win 2).blk t).view.set := by
  have hN : grid0.N = 5 := N_0
  have hi0 : (i 0).val < 2000 := (i 0).isLt
  have hi1 : (i 1).val < 64 := (i 1).isLt
  have ht : (i 0).val / 400 < grid0.N := by omega
  refine ⟨⟨(i 0).val / 400, ht⟩, flush0_2 _, ?_⟩
  obtain ⟨-, -, -, -, e0, e1⟩ := idx0 ⟨(i 0).val / 400, ht⟩
  rw [mem_blk0_2]
  intro a
  match a with
  | ⟨0, _⟩ =>
    show win0_2.index ⟨(i 0).val / 400, ht⟩ (0 : Fin 2) * 400 ≤ (i 0).val ∧ (i 0).val < win0_2.index ⟨(i 0).val / 400, ht⟩ (0 : Fin 2) * 400 + 400
    rw [e0]; show (i 0).val / 400 * 400 ≤ (i 0).val ∧ (i 0).val < (i 0).val / 400 * 400 + 400; omega
  | ⟨1, _⟩ =>
    show win0_2.index ⟨(i 0).val / 400, ht⟩ (1 : Fin 2) * 64 ≤ (i 1).val ∧ (i 1).val < win0_2.index ⟨(i 0).val / 400, ht⟩ (1 : Fin 2) * 64 + 64
    rw [e1]; omega

/-- After the first region its result array holds the product `x3 · W3` of the arrays the region finds. -/
theorem final0_2 (c : Dev nD) :
    (dat0 (F := Ideal) V c).arrAt 2 cfg0.N = denseProd (n0 := 2000) (nk := 2000) (n1 := 64) (V c main_arg1) (V c main_arg6) :=
  (dat0 V c).arrAt_eq_of_cover 2 _ (fun t _ => flushed0_2_eq V c t) covered0_2

/-! ## The second region -/

/-! ## The arrays the second region finds, at their literal extents -/

/-- The first node type's features. -/
abbrev X0 (c : Dev nD) : S10000x128.Idx → EReal := V c main_arg0
/-- The adjacency. -/
abbrev ADJ (c : Dev nD) : S10000x2000.Idx → EReal := V c main_arg2
/-- The mask. -/
abbrev MASK (c : Dev nD) : S10000x2000.Idx → EReal := V c main_arg3
/-- The first node type's weights. -/
abbrev W0 (c : Dev nD) : S128x64.Idx → EReal := V c main_arg4
/-- The first region's result, `s3`. -/
abbrev S3 (c : Dev nD) : S2000x64.Idx → EReal := V c main_call0_v0
/-- The reconstruction's weights. -/
abbrev WP (c : Dev nD) : S64x2000.Idx → EReal := V c main_arg8
/-- The bias row of the hidden features. -/
abbrev B (c : Dev nD) : S1x64.Idx → EReal := V c main_call0_v2
/-- The bias row of the reconstruction. -/
abbrev BP (c : Dev nD) : S1x2000.Idx → EReal := V c main_call0_v3

/-- The printed index maps of the second region, decided over its 25 points: the three row-blocked inputs and the two
    row-blocked results are at block `(t, 0)`, every other window at block `(0, 0)`. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_8.index t (0 : Fin 2) = t.val ∧ win1_8.index t (1 : Fin 2) = 0
    ∧ win1_9.index t (0 : Fin 2) = t.val ∧ win1_9.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0 :=
  (by decide +kernel : ∀ t : Fin grid1.N, _)

/-- Window 0's block at point `t` is rows `400 t … 400 t + 399` of `x0`. -/
theorem blk1_0 (c : Dev nD) (t : Fin cfg1.N) (y : S400x128.Idx) (k : S10000x128.Idx)
    (hk0 : (k 0).val = 400 * t.val + (y 0).val) (hk1 : (k 1).val = (y 1).val) :
    (iblk1 V c 0 t : Vec Ideal S400x128 .f32) y = (V c main_arg0 : S10000x128.Idx → EReal) k := by
  obtain ⟨e0, e1, -⟩ := idx1 t
  show V c main_arg0 (((cfg1.win 0).blk t).view.emb y) = V c main_arg0 k
  congr 1
  funext a
  apply Fin.ext
  match a with
  | ⟨0, _⟩ => show win1_0.index t (0 : Fin 2) * 400 + 1 * (y 0).val = (k 0).val; rw [e0, hk0]; omega
  | ⟨1, _⟩ => show win1_0.index t (1 : Fin 2) * 128 + 1 * (y 1).val = (k 1).val; rw [e1, hk1]; omega

/-- Window 1's block at point `t` is rows `400 t … 400 t + 399` of `adj`. -/
theorem blk1_1 (c : Dev nD) (t : Fin cfg1.N) (y : S400x2000.Idx) (k : S10000x2000.Idx)
    (hk0 : (k 0).val = 400 * t.val + (y 0).val) (hk1 : (k 1).val = (y 1).val) :
    (iblk1 V c 1 t : Vec Ideal S400x2000 .f32) y = (V c main_arg2 : S10000x2000.Idx → EReal) k := by
  obtain ⟨-, -, e0, e1, -⟩ := idx1 t
  show V c main_arg2 (((cfg1.win 1).blk t).view.emb y) = V c main_arg2 k
  congr 1
  funext a
  apply Fin.ext
  match a with
  | ⟨0, _⟩ => show win1_1.index t (0 : Fin 2) * 400 + 1 * (y 0).val = (k 0).val; rw [e0, hk0]; omega
  | ⟨1, _⟩ => show win1_1.index t (1 : Fin 2) * 2000 + 1 * (y 1).val = (k 1).val; rw [e1, hk1]; omega

/-- Window 2's block at point `t` is rows `400 t … 400 t + 399` of `mask`. -/
theorem blk1_2 (c : Dev nD) (t : Fin cfg1.N) (y : S400x2000.Idx) (k : S10000x2000.Idx)
    (hk0 : (k 0).val = 400 * t.val + (y 0).val) (hk1 : (k 1).val = (y 1).val) :
    (iblk1 V c 2 t : Vec Ideal S400x2000 .f32) y = (V c main_arg3 : S10000x2000.Idx → EReal) k := by
  obtain ⟨-, -, -, -, e0, e1, -⟩ := idx1 t
  show V c main_arg3 (((cfg1.win 2).blk t).view.emb y) = V c main_arg3 k
  congr 1
  funext a
  apply Fin.ext
  match a with
  | ⟨0, _⟩ => show win1_2.index t (0 : Fin 2) * 400 + 1 * (y 0).val = (k 0).val; rw [e0, hk0]; omega
  | ⟨1, _⟩ => show win1_2.index t (1 : Fin 2) * 2000 + 1 * (y 1).val = (k 1).val; rw [e1, hk1]; omega

/-- Window 3's block is all of `W0` at every point. -/
theorem blk1_3 (c : Dev nD) (t : Fin cfg1.N) (y : S128x64.Idx) :
    (iblk1 V c 3 t : Vec Ideal S128x64 .f32) y = (V c main_arg4 : S128x64.Idx → EReal) y := by
  obtain ⟨-, -, -, -, -, -, -, -, -, -, e0, e1, -⟩ := idx1 t
  show V c main_arg4 (((cfg1.win 3).blk t).view.emb y) = V c main_arg4 y
  congr 1
  funext a
  apply Fin.ext
  match a with
  | ⟨0, _⟩ => show win1_3.index t (0 : Fin 2) * 128 + 1 * (y 0).val = (y 0).val; rw [e0]; omega
  | ⟨1, _⟩ => show win1_3.index t (1 : Fin 2) * 64 + 1 * (y 1).val = (y 1).val; rw [e1]; omega

/-- Window 4's block is all of `s3` at every point. -/
theorem blk1_4 (c : Dev nD) (t : Fin cfg1.N) (y : S2000x64.Idx) :
    (iblk1 V c 4 t : Vec Ideal S2000x64 .f32) y = (V c main_call0_v0 : S2000x64.Idx → EReal) y := by
  obtain ⟨-, -, -, -, -, -, -, -, -, -, -, -, e0, e1, -⟩ := idx1 t
  show V c main_call0_v0 (((cfg1.win 4).blk t).view.emb y) = V c main_call0_v0 y
  congr 1
  funext a
  apply Fin.ext
  match a with
  | ⟨0, _⟩ => show win1_4.index t (0 : Fin 2) * 2000 + 1 * (y 0).val = (y 0).val; rw [e0]; omega
  | ⟨1, _⟩ => show win1_4.index t (1 : Fin 2) * 64 + 1 * (y 1).val = (y 1).val; rw [e1]; omega

/-- Window 5's block is all of `Wp` at every point. -/
theorem blk1_5 (c : Dev nD) (t : Fin cfg1.N) (y : S64x2000.Idx) :
    (iblk1 V c 5 t : Vec Ideal S64x2000 .f32) y = (V c main_arg8 : S64x2000.Idx → EReal) y := by
  obtain ⟨-, -, -, -, -, -, -, -, -, -, -, -, -, -, e0, e1, -⟩ := idx1 t
  show V c main_arg8 (((cfg1.win 5).blk t).view.emb y) = V c main_arg8 y
  congr 1
  funext a
  apply Fin.ext
  match a with
  | ⟨0, _⟩ => show win1_5.index t (0 : Fin 2) * 64 + 1 * (y 0).val = (y 0).val; rw [e0]; omega
  | ⟨1, _⟩ => show win1_5.index t (1 : Fin 2) * 2000 + 1 * (y 1).val = (y 1).val; rw [e1]; omega

/-- Window 6's block is the whole bias row of the hidden features at every point. -/
theorem blk1_6 (c : Dev nD) (t : Fin cfg1.N) (y : S1x64.Idx) :
    (iblk1 V c 6 t : Vec Ideal S1x64 .f32) y = (V c main_call0_v2 : S1x64.Idx → EReal) y := by
  obtain ⟨-, -, -, -, -, -, -, -, -, -, -, -, -, -, -, -, e0, e1, -⟩ := idx1 t
  show V c main_call0_v2 (((cfg1.win 6).blk t).view.emb y) = V c main_call0_v2 y
  congr 1
  funext a
  apply Fin.ext
  match a with
  | ⟨0, _⟩ => show win1_6.index t (0 : Fin 2) * 1 + 1 * (y 0).val = (y 0).val; rw [e0]; omega
  | ⟨1, _⟩ => show win1_6.index t (1 : Fin 2) * 64 + 1 * (y 1).val = (y 1).val; rw [e1]; omega

/-- Window 7's block is the whole bias row of the reconstruction at every point. -/
theorem blk1_7 (c : Dev nD) (t : Fin cfg1.N) (y : S1x2000.Idx) :
    (iblk1 V c 7 t : Vec Ideal S1x2000 .f32) y = (V c main_call0_v3 : S1x2000.Idx → EReal) y := by
  obtain ⟨-, -, -, -, -, -, -, -, -, -, -, -, -, -, -, -, -, -, e0, e1⟩ := idx1 t
  show V c main_call0_v3 (((cfg1.win 7).blk t).view.emb y) = V c main_call0_v3 y
  congr 1
  funext a
  apply Fin.ext
  match a with
  | ⟨0, _⟩ => show win1_7.index t (0 : Fin 2) * 1 + 1 * (y 0).val = (y 0).val; rw [e0]; omega
  | ⟨1, _⟩ => show win1_7.index t (1 : Fin 2) * 2000 + 1 * (y 1).val = (y 1).val; rw [e1]; omega

/-! ## The hidden features -/

/-- The hidden features of the first node type, as one function of the whole arrays the second region finds. -/
abbrev hidG (c : Dev nD) : S10000x64.Idx → EReal := fun i =>
  (denseProd (X0 V c) (W0 V c) i + denseProd (fun k => MASK V c k * ADJ V c k) (S3 V c) i) + B V c (ix2 0 (i 1))

/-- Over any blocks whose row `p` is row `r` of the row-blocked arrays and whose other blocks are the whole arrays,
    row `p` of what the body leaves for the hidden features is row `r` of `hidG`. -/
theorem hid_row_of (c : Dev nD) (b0 : Vec Ideal S400x128 .f32) (b1 b2 : Vec Ideal S400x2000 .f32) (b3 : Vec Ideal S128x64 .f32)
    (b4 : Vec Ideal S2000x64 .f32) (b6 : Vec Ideal S1x64 .f32) (p : Fin 400) (r : Fin 10000)
    (h0 : ∀ k : Fin 128, b0 (ix2 p k) = X0 V c (ix2 r k))
    (h1 : ∀ k : Fin 2000, b1 (ix2 p k) = ADJ V c (ix2 r k))
    (h2 : ∀ k : Fin 2000, b2 (ix2 p k) = MASK V c (ix2 r k))
    (h3 : ∀ y : S128x64.Idx, b3 y = W0 V c y) (h4 : ∀ y : S2000x64.Idx, b4 y = S3 V c y)
    (h6 : ∀ y : S1x64.Idx, b6 y = B V c y) (q : Fin 64) :
    out1_9 (F := Ideal) b0 b1 b2 b3 b4 b6 (ix2 p q) = hidG V c (ix2 r q) := by
  rw [out1_9_apply]
  show (denseProd b0 b3 (ix2 p q) + denseProd (fun i => b2 i * b1 i) b4 (ix2 p q)) + b6 (ix2 0 q)
    = (denseProd (X0 V c) (W0 V c) (ix2 r q) + denseProd (fun k => MASK V c k * ADJ V c k) (S3 V c) (ix2 r q)) + B V c (ix2 0 q)
  rw [denseProd_row b0 (X0 V c) b3 (W0 V c) p r q h0 (fun k => h3 _),
    denseProd_row (fun i => b2 i * b1 i) (fun k => MASK V c k * ADJ V c k) b4 (S3 V c) p r q
      (fun k => by show b2 (ix2 p k) * b1 (ix2 p k) = MASK V c (ix2 r k) * ADJ V c (ix2 r k); rw [h2, h1]) (fun k => h4 _),
    h6]

/-- Row `p` of what the body leaves for the hidden features at point `t` is row `400 t + p` of `hidG`. -/
theorem hid_row (c : Dev nD) (t : Fin cfg1.N) (p : Fin 400) (q : Fin 64) (r : Fin 10000) (hr : r.val = 400 * t.val + p.val) :
    out1_9 (F := Ideal) (iblk1 V c 0 t) (iblk1 V c 1 t) (iblk1 V c 2 t) (iblk1 V c 3 t) (iblk1 V c 4 t) (iblk1 V c 6 t) (ix2 p q) = hidG V c (ix2 r q) :=
  hid_row_of V c _ _ _ _ _ _ p r (fun k => blk1_0 V c t (ix2 p k) (ix2 r k) hr rfl) (fun k => blk1_1 V c t (ix2 p k) (ix2 r k) hr rfl)
    (fun k => blk1_2 V c t (ix2 p k) (ix2 r k) hr rfl) (blk1_3 V c t) (blk1_4 V c t) (blk1_6 V c t) q

/-- Point `t`'s block of the hidden features sends row `p` of the block to row `400 t + p` of the array. -/
theorem emb1_9 (t : Fin cfg1.N) (p : Fin 400) (q : Fin 64) (r : Fin 10000) (hr : r.val = 400 * t.val + p.val) :
    ((cfg1.win 9).blk t).view.emb (ix2 p q : S400x64.Idx) = (ix2 r q : S10000x64.Idx) := by
  obtain ⟨-, -, -, -, -, -, -, -, e0, e1, -⟩ := idx1 t
  funext a
  apply Fin.ext
  match a with
  | ⟨0, _⟩ => show win1_9.index t (0 : Fin 2) * 400 + 1 * p.val = r.val; rw [e0, hr]; omega
  | ⟨1, _⟩ => show win1_9.index t (1 : Fin 2) * 64 + 1 * q.val = q.val; rw [e1]; omega

/-- What point `t` of the second region writes back to the hidden features is rows `400 t … 400 t + 399` of `hidG`. -/
theorem flushed1_9_eq (c : Dev nD) (t : Fin cfg1.N) :
    (dat1 V c).flushed 9 t = ((cfg1.win 9).blk t).view.read (Elt Ideal) (hidG V c) := by
  show (cfg1.win 9).cut (grid1.coords t) ((dat1 V c).after 9 t) = _
  rw [after1_9]
  have hN : grid1.N = 25 := N_1
  have ht : t.val < 25 := hN ▸ t.isLt
  refine funext fun (j : S400x64.Idx) => ?_
  obtain ⟨p, q, rfl⟩ : ∃ (p : Fin 400) (q : Fin 64), j = ix2 p q := ⟨j 0, j 1, eq_ix2 j⟩
  have hp : p.val < 400 := p.isLt
  show out1_9 (F := Ideal) (iblk1 V c 0 t) (iblk1 V c 1 t) (iblk1 V c 2 t) (iblk1 V c 3 t) (iblk1 V c 4 t) (iblk1 V c 6 t) (ix2 p q) = hidG V c (((cfg1.win 9).blk t).view.emb (ix2 p q : S400x64.Idx))
  rw [emb1_9 t p q ⟨400 * t.val + p.val, by omega⟩ rfl]
  exact hid_row V c t p q _ rfl

/-- An index of the hidden features is in point `t`'s block iff each coordinate is in the block's range on its axis. -/
theorem mem_blk1_9 (t : Fin cfg1.N) (i : S10000x64.Idx) :
    i ∈ ((cfg1.win 9).blk t).view.set ↔ ∀ a : Fin 2, win1_9.index t a * S400x64.size a ≤ (i a).val ∧ (i a).val < win1_9.index t a * S400x64.size a + S400x64.size a := by
  show i ∈ ((View.whole main_v0_1).slice (win1_9.rect t)).set ↔ _
  rw [View.set_slice_whole, Rect.mem_set_unit]
  exact Iff.rfl

/-- Every row of the hidden features is in the block of the point `row / 400`. -/
theorem covered1_9 (i : S10000x64.Idx) : ∃ t : Fin cfg1.N, (cfg1.win 9).flush t = true ∧ i ∈ ((cfg1.win 9).blk t).view.set := by
  have hN : grid1.N = 25 := N_1
  have hi0 : (i 0).val < 10000 := (i 0).isLt
  have hi1 : (i 1).val < 64 := (i 1).isLt
  have ht : (i 0).val / 400 < grid1.N := by omega
  refine ⟨⟨(i 0).val / 400, ht⟩, flush1_9 _, ?_⟩
  obtain ⟨-, -, -, -, -, -, -, -, e0, e1, -⟩ := idx1 ⟨(i 0).val / 400, ht⟩
  rw [mem_blk1_9]
  intro a
  match a with
  | ⟨0, _⟩ =>
    show win1_9.index ⟨(i 0).val / 400, ht⟩ (0 : Fin 2) * 400 ≤ (i 0).val ∧ (i 0).val < win1_9.index ⟨(i 0).val / 400, ht⟩ (0 : Fin 2) * 400 + 400
    rw [e0]; show (i 0).val / 400 * 400 ≤ (i 0).val ∧ (i 0).val < (i 0).val / 400 * 400 + 400; omega
  | ⟨1, _⟩ =>
    show win1_9.index ⟨(i 0).val / 400, ht⟩ (1 : Fin 2) * 64 ≤ (i 1).val ∧ (i 1).val < win1_9.index ⟨(i 0).val / 400, ht⟩ (1 : Fin 2) * 64 + 64
    rw [e1]; omega

/-- After the second region its second result holds the hidden features `(x0 · W0 + (mask ∘ adj) · s3) + b`. -/
theorem final1_9 (c : Dev nD) :
    (dat1 (F := Ideal) V c).arrAt 9 cfg1.N = fun i : S10000x64.Idx =>
      (denseProd (X0 V c) (W0 V c) i + denseProd (fun k => MASK V c k * ADJ V c k) (S3 V c) i) + B V c (ix2 0 (i 1)) :=
  (dat1 V c).arrAt_eq_of_cover 9 (hidG V c) (fun t _ => flushed1_9_eq V c t) covered1_9

/-! ## The reconstruction -/

/-- The reconstruction, as one function of the whole arrays the second region finds. -/
abbrev reconG (c : Dev nD) : S10000x2000.Idx → EReal := fun i =>
  denseProd (fun j : S10000x64.Idx => max (hidG V c j) (Ideal.ofBits .f32 0x00000000#32)) (WP V c) i + BP V c (ix2 0 (i 1))

/-- Over any blocks whose rectified hidden features at row `p` are those of `hidG` at row `r` and whose other blocks
    are the whole arrays, row `p` of what the body leaves for the reconstruction is row `r` of `reconG`. -/
theorem recon_row_of (c : Dev nD) (h : S400x64.Idx → EReal) (b5 : Vec Ideal S64x2000 .f32) (b7 : Vec Ideal S1x2000 .f32)
    (p : Fin 400) (r : Fin 10000) (hh : ∀ k : Fin 64, h (ix2 p k) = hidG V c (ix2 r k))
    (h5 : ∀ y : S64x2000.Idx, b5 y = WP V c y) (h7 : ∀ y : S1x2000.Idx, b7 y = BP V c y) (q : Fin 2000) :
    denseProd (fun j : S400x64.Idx => max (h j) (Ideal.ofBits .f32 0x00000000#32)) b5 (ix2 p q) + b7 (ix2 0 q)
      = reconG V c (ix2 r q) := by
  show _ = denseProd (fun j : S10000x64.Idx => max (hidG V c j) (Ideal.ofBits .f32 0x00000000#32)) (WP V c) (ix2 r q) + BP V c (ix2 0 q)
  rw [denseProd_row (fun j : S400x64.Idx => max (h j) (Ideal.ofBits .f32 0x00000000#32))
      (fun j : S10000x64.Idx => max (hidG V c j) (Ideal.ofBits .f32 0x00000000#32)) b5 (WP V c) p r q
      (fun k => congrArg (fun z => max z (Ideal.ofBits .f32 0x00000000#32)) (hh k)) (fun k => h5 _),
    h7]

/-- Row `p` of what the body leaves for the reconstruction at point `t` is row `400 t + p` of `reconG`. -/
theorem recon_row (c : Dev nD) (t : Fin cfg1.N) (p : Fin 400) (q : Fin 2000) (r : Fin 10000) (hr : r.val = 400 * t.val + p.val) :
    out1_8 (F := Ideal) (iblk1 V c 0 t) (iblk1 V c 1 t) (iblk1 V c 2 t) (iblk1 V c 3 t) (iblk1 V c 4 t) (iblk1 V c 5 t) (iblk1 V c 6 t) (iblk1 V c 7 t) (ix2 p q) = reconG V c (ix2 r q) := by
  rw [out1_8_apply]
  exact recon_row_of V c _ _ _ p r (fun k => hid_row V c t p k r hr) (blk1_5 V c t) (blk1_7 V c t) q

/-- Point `t`'s block of the reconstruction sends row `p` of the block to row `400 t + p` of the array. -/
theorem emb1_8 (t : Fin cfg1.N) (p : Fin 400) (q : Fin 2000) (r : Fin 10000) (hr : r.val = 400 * t.val + p.val) :
    ((cfg1.win 8).blk t).view.emb (ix2 p q : S400x2000.Idx) = (ix2 r q : S10000x2000.Idx) := by
  obtain ⟨-, -, -, -, -, -, e0, e1, -⟩ := idx1 t
  funext a
  apply Fin.ext
  match a with
  | ⟨0, _⟩ => show win1_8.index t (0 : Fin 2) * 400 + 1 * p.val = r.val; rw [e0, hr]; omega
  | ⟨1, _⟩ => show win1_8.index t (1 : Fin 2) * 2000 + 1 * q.val = q.val; rw [e1]; omega

/-- What point `t` of the second region writes back to the reconstruction is rows `400 t … 400 t + 399` of `reconG`. -/
theorem flushed1_8_eq (c : Dev nD) (t : Fin cfg1.N) :
    (dat1 V c).flushed 8 t = ((cfg1.win 8).blk t).view.read (Elt Ideal) (reconG V c) := by
  show (cfg1.win 8).cut (grid1.coords t) ((dat1 V c).after 8 t) = _
  rw [after1_8]
  have hN : grid1.N = 25 := N_1
  have ht : t.val < 25 := hN ▸ t.isLt
  refine funext fun (j : S400x2000.Idx) => ?_
  obtain ⟨p, q, rfl⟩ : ∃ (p : Fin 400) (q : Fin 2000), j = ix2 p q := ⟨j 0, j 1, eq_ix2 j⟩
  have hp : p.val < 400 := p.isLt
  show out1_8 (F := Ideal) (iblk1 V c 0 t) (iblk1 V c 1 t) (iblk1 V c 2 t) (iblk1 V c 3 t) (iblk1 V c 4 t) (iblk1 V c 5 t) (iblk1 V c 6 t) (iblk1 V c 7 t) (ix2 p q) = reconG V c (((cfg1.win 8).blk t).view.emb (ix2 p q : S400x2000.Idx))
  rw [emb1_8 t p q ⟨400 * t.val + p.val, by omega⟩ rfl]
  exact recon_row V c t p q _ rfl

/-- An index of the reconstruction is in point `t`'s block iff each coordinate is in the block's range on its axis. -/
theorem mem_blk1_8 (t : Fin cfg1.N) (i : S10000x2000.Idx) :
    i ∈ ((cfg1.win 8).blk t).view.set ↔ ∀ a : Fin 2, win1_8.index t a * S400x2000.size a ≤ (i a).val ∧ (i a).val < win1_8.index t a * S400x2000.size a + S400x2000.size a := by
  show i ∈ ((View.whole main_v0_0).slice (win1_8.rect t)).set ↔ _
  rw [View.set_slice_whole, Rect.mem_set_unit]
  exact Iff.rfl

/-- Every row of the reconstruction is in the block of the point `row / 400`. -/
theorem covered1_8 (i : S10000x2000.Idx) : ∃ t : Fin cfg1.N, (cfg1.win 8).flush t = true ∧ i ∈ ((cfg1.win 8).blk t).view.set := by
  have hN : grid1.N = 25 := N_1
  have hi0 : (i 0).val < 10000 := (i 0).isLt
  have hi1 : (i 1).val < 2000 := (i 1).isLt
  have ht : (i 0).val / 400 < grid1.N := by omega
  refine ⟨⟨(i 0).val / 400, ht⟩, flush1_8 _, ?_⟩
  obtain ⟨-, -, -, -, -, -, e0, e1, -⟩ := idx1 ⟨(i 0).val / 400, ht⟩
  rw [mem_blk1_8]
  intro a
  match a with
  | ⟨0, _⟩ =>
    show win1_8.index ⟨(i 0).val / 400, ht⟩ (0 : Fin 2) * 400 ≤ (i 0).val ∧ (i 0).val < win1_8.index ⟨(i 0).val / 400, ht⟩ (0 : Fin 2) * 400 + 400
    rw [e0]; show (i 0).val / 400 * 400 ≤ (i 0).val ∧ (i 0).val < (i 0).val / 400 * 400 + 400; omega
  | ⟨1, _⟩ =>
    show win1_8.index ⟨(i 0).val / 400, ht⟩ (1 : Fin 2) * 2000 ≤ (i 1).val ∧ (i 1).val < win1_8.index ⟨(i 0).val / 400, ht⟩ (1 : Fin 2) * 2000 + 2000
    rw [e1]; omega

/-- After the second region its first result holds the reconstruction `max(hidden, 0) · Wp + bp`. -/
theorem final1_8 (c : Dev nD) :
    (dat1 (F := Ideal) V c).arrAt 8 cfg1.N = fun i : S10000x2000.Idx =>
      denseProd (fun j : S10000x64.Idx => max ((denseProd (X0 V c) (W0 V c) j + denseProd (fun k => MASK V c k * ADJ V c k) (S3 V c) j) + B V c (ix2 0 (j 1))) (Ideal.ofBits .f32 0x00000000#32)) (WP V c) i + BP V c (ix2 0 (i 1)) :=
  (dat1 V c).arrAt_eq_of_cover 8 (reconG V c) (fun t _ => flushed1_8_eq V c t) covered1_8

end Cert.Hand.Fin

end
-- ==== Proof.LibChunkSum.lean ====
/-
  A finite sum taken chunk by chunk, in any commutative monoid.

  A function on `Fin N` is extended by zero to all naturals (`ext0`); the sum over `Fin N` is then the
  sum of the extension over `range N` (`sum_eq_range`), and a range sum up to `a + K` is the range sum
  up to `a` plus the `K` terms of the next chunk (`range_add_chunk`). Only commutativity and
  associativity of `+` are used, so the statements hold on the extended reals, infinities included.
-/
import Idealize.ShloMosaic.PureOps.Ideal

open scoped BigOperators

namespace Cert.LibChunkSum

variable {M : Type*} [AddCommMonoid M]

/-- `f` extended by zero past `N`. -/
def ext0 {N : ℕ} (f : Fin N → M) (k : ℕ) : M := if h : k < N then f ⟨k, h⟩ else 0

/-- Below `N` the extension is `f`. -/
theorem ext0_of_lt {N : ℕ} (f : Fin N → M) {k : ℕ} (h : k < N) : ext0 f k = f ⟨k, h⟩ := dif_pos h

/-- The sum over `Fin N` is the sum of the extension over `range N`. -/
theorem sum_eq_range {N : ℕ} (f : Fin N → M) : ∑ k : Fin N, f k = ∑ k ∈ Finset.range N, ext0 f k := by
  rw [← Fin.sum_univ_eq_sum_range (fun k => ext0 f k) N]
  exact Finset.sum_congr rfl fun k _ => (ext0_of_lt f k.isLt).symm

/-- One more chunk: the range sum up to `a + K` is the one up to `a` plus the chunk's `K` terms. -/
theorem range_add_chunk {N : ℕ} (f : Fin N → M) (a K : ℕ) :
    ∑ k ∈ Finset.range (a + K), ext0 f k
      = ∑ k ∈ Finset.range a, ext0 f k + ∑ j : Fin K, ext0 f (a + j.val) := by
  rw [Finset.sum_range_add, Fin.sum_univ_eq_sum_range (fun j => ext0 f (a + j)) K]

end Cert.LibChunkSum
-- ==== Proof.AccFinal.lean ====
/-
  The aggregate accumulated over the grid is the full sum over the 10000 rows.

  The second region walks the 10000 rows of the first node type 400 at a time, 25 points in all. At point t its body finds
  rows 400 t … 400 t + 399 of x0, of the adjacency and of the mask, and all of W0, and adds into a buffer that stays
  resident the rows' contribution
      Σ_{r in the block} (x0 · W0)[r, h] · (mask[r, j] · adj[r, j]).
  A row block of x0 · W0 is the product of the row block of x0 with W0, so after point n the buffer holds the sum of the
  row terms over rows 0 … 400 (n + 1) − 1, and after the last point the sum over all 10000 rows. The buffer is written
  back once, at the last point, and its block is the whole [64, 2000] array: that array ends holding the full sums.
-/
import proofs.«139756_g50276887167361_cont_8to1_c_1049_28_alg».proof.Proof.KI.Region1
import proofs.«139756_g50276887167361_cont_8to1_c_1049_28_alg».proof.Proof.OutForms
import proofs.«139756_g50276887167361_cont_8to1_c_1049_28_alg».proof.Proof.LibChunkSum
import Idealize.ShloMosaic.Lib.Pipeline.Value

noncomputable section

open scoped BigOperators

namespace Cert.Hand.Acc

open Idealize.ShloMosaic Idealize.ShloMosaic.TcCoe Idealize.ShloMosaic.ValueIdx Idealize.SL.Sem
open Idealize.ShloMosaic.Pipeline (Dat)
open Cert.LibDense Cert.LibChunkSum Cert.KernelIdeal Cert.KernelIdeal.Gen Cert.KernelIdeal.Hand Cert.Hand.Out

variable (V : (c : Dev nD) → (b : Ref sig .tc) → Buf (Elt Ideal) ((c : Thread nD τ).loc b)) (c : Dev nD)

/-! ## The arrays and the row terms -/

/-- The first node type's features, [10000, 128], as the region finds them. -/
abbrev aX0 : S10000x128.Idx → EReal := V c main_arg0
/-- The adjacency, [10000, 2000]. -/
abbrev aADJ : S10000x2000.Idx → EReal := V c main_arg2
/-- The mask, [10000, 2000]. -/
abbrev aMASK : S10000x2000.Idx → EReal := V c main_arg3
/-- The first node type's weights, [128, 64]. -/
abbrev aW0 : S128x64.Idx → EReal := V c main_arg4

/-- Row r's term of entry (h, j) of the aggregate: (x0 · W0)[r, h] · (mask[r, j] · adj[r, j]). -/
abbrev rowTerm (h : Fin 64) (j : Fin 2000) : Fin 10000 → EReal :=
  fun r => denseProd (aX0 V c) (aW0 V c) (ix2 r h) * (aMASK V c (ix2 r j) * aADJ V c (ix2 r j))

/-! ## The blocks a point finds -/

/-- The printed index maps, decided over the grid: the three row windows are at block (t, 0), the weights' window and the
    resident output's at block (0, 0). -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_10.index t (0 : Fin 2) = 0 ∧ win1_10.index t (1 : Fin 2) = 0) :=
  (by decide +kernel : ∀ t : Fin grid1.N, _)

/-- The block of x0 at point t is rows 400 t … 400 t + 399 of the array. -/
theorem blk0_at (t : Fin cfg1.N) (x : S400x128.Idx) (k : S10000x128.Idx)
    (hk0 : (k 0).val = 400 * t.val + (x 0).val) (hk1 : (k 1).val = (x 1).val) :
    (iblk1 V c 0 t : Vec Ideal S400x128 .f32) x = aX0 V c k := by
  have hi := (idx_facts t).1
  unfold iblk1
  rw [View.read_apply]
  show V c main_arg0 _ = V c main_arg0 _
  congr 1
  funext a
  apply Fin.ext
  match a with
  | ⟨0, _⟩ => show win1_0.index t (0 : Fin 2) * 400 + 1 * (x 0).val = (k 0).val; rw [hi.1, hk0]; omega
  | ⟨1, _⟩ => show win1_0.index t (1 : Fin 2) * 128 + 1 * (x 1).val = (k 1).val; rw [hi.2, hk1]; omega

/-- The block of the adjacency at point t is rows 400 t … 400 t + 399 of the array. -/
theorem blk1_at (t : Fin cfg1.N) (x : S400x2000.Idx) (k : S10000x2000.Idx)
    (hk0 : (k 0).val = 400 * t.val + (x 0).val) (hk1 : (k 1).val = (x 1).val) :
    (iblk1 V c 1 t : Vec Ideal S400x2000 .f32) x = aADJ V c k := by
  have hi := (idx_facts t).2.1
  unfold iblk1
  rw [View.read_apply]
  show V c main_arg2 _ = V c main_arg2 _
  congr 1
  funext a
  apply Fin.ext
  match a with
  | ⟨0, _⟩ => show win1_1.index t (0 : Fin 2) * 400 + 1 * (x 0).val = (k 0).val; rw [hi.1, hk0]; omega
  | ⟨1, _⟩ => show win1_1.index t (1 : Fin 2) * 2000 + 1 * (x 1).val = (k 1).val; rw [hi.2, hk1]; omega

/-- The block of the mask at point t is rows 400 t … 400 t + 399 of the array. -/
theorem blk2_at (t : Fin cfg1.N) (x : S400x2000.Idx) (k : S10000x2000.Idx)
    (hk0 : (k 0).val = 400 * t.val + (x 0).val) (hk1 : (k 1).val = (x 1).val) :
    (iblk1 V c 2 t : Vec Ideal S400x2000 .f32) x = aMASK V c k := by
  have hi := (idx_facts t).2.2.1
  unfold iblk1
  rw [View.read_apply]
  show V c main_arg3 _ = V c main_arg3 _
  congr 1
  funext a
  apply Fin.ext
  match a with
  | ⟨0, _⟩ => show win1_2.index t (0 : Fin 2) * 400 + 1 * (x 0).val = (k 0).val; rw [hi.1, hk0]; omega
  | ⟨1, _⟩ => show win1_2.index t (1 : Fin 2) * 2000 + 1 * (x 1).val = (k 1).val; rw [hi.2, hk1]; omega

/-- The weights' block at every point is the whole array. -/
theorem blk3_eq (t : Fin cfg1.N) : (iblk1 V c 3 t : Vec Ideal S128x64 .f32) = aW0 V c := by
  have hi := (idx_facts t).2.2.2.1
  funext x
  unfold iblk1
  rw [View.read_apply]
  show V c main_arg4 _ = V c main_arg4 _
  congr 1
  funext a
  apply Fin.ext
  match a with
  | ⟨0, _⟩ => show win1_3.index t (0 : Fin 2) * 128 + 1 * (x 0).val = (x 0).val; rw [hi.1]; omega
  | ⟨1, _⟩ => show win1_3.index t (1 : Fin 2) * 64 + 1 * (x 1).val = (x 1).val; rw [hi.2]; omega

/-- Rows of x0, by coordinates. -/
theorem blk0_apply (t : Fin cfg1.N) (p : Fin 400) (k : Fin 128) (hr : 400 * t.val + p.val < 10000) :
    (iblk1 V c 0 t : Vec Ideal S400x128 .f32) (ix2 p k) = aX0 V c (ix2 ⟨400 * t.val + p.val, hr⟩ k) :=
  blk0_at V c t (ix2 p k) (ix2 ⟨400 * t.val + p.val, hr⟩ k) rfl rfl

/-- Rows of the adjacency, by coordinates. -/
theorem blk1_apply (t : Fin cfg1.N) (p : Fin 400) (j : Fin 2000) (hr : 400 * t.val + p.val < 10000) :
    (iblk1 V c 1 t : Vec Ideal S400x2000 .f32) (ix2 p j) = aADJ V c (ix2 ⟨400 * t.val + p.val, hr⟩ j) :=
  blk1_at V c t (ix2 p j) (ix2 ⟨400 * t.val + p.val, hr⟩ j) rfl rfl

/-- Rows of the mask, by coordinates. -/
theorem blk2_apply (t : Fin cfg1.N) (p : Fin 400) (j : Fin 2000) (hr : 400 * t.val + p.val < 10000) :
    (iblk1 V c 2 t : Vec Ideal S400x2000 .f32) (ix2 p j) = aMASK V c (ix2 ⟨400 * t.val + p.val, hr⟩ j) :=
  blk2_at V c t (ix2 p j) (ix2 ⟨400 * t.val + p.val, hr⟩ j) rfl rfl

/-! ## One point's contribution is the next 400 row terms -/

/-- For blocks that are rows 400 n … 400 n + 399 of the arrays, and the weights whole, the contribution at (h, j) is the
    sum of the row terms of those rows: a row block of x0 · W0 is the product of the row block of x0 with W0. -/
theorem contrib_rows (x0 : Vec Ideal S400x128 .f32) (x1 x2 : Vec Ideal S400x2000 .f32) (x3 : Vec Ideal S128x64 .f32)
    (n : ℕ) (hn : 400 * n + 400 ≤ 10000)
    (h0 : ∀ (p : Fin 400) (k : Fin 128), x0 (ix2 p k) = aX0 V c (ix2 ⟨400 * n + p.val, by have := p.isLt; omega⟩ k))
    (h1 : ∀ (p : Fin 400) (j : Fin 2000), x1 (ix2 p j) = aADJ V c (ix2 ⟨400 * n + p.val, by have := p.isLt; omega⟩ j))
    (h2 : ∀ (p : Fin 400) (j : Fin 2000), x2 (ix2 p j) = aMASK V c (ix2 ⟨400 * n + p.val, by have := p.isLt; omega⟩ j))
    (h3 : x3 = aW0 V c) (h : Fin 64) (j : Fin 2000) :
    ∑ r : Fin 400, denseProd x0 x3 (ix2 r h) * (x2 (ix2 r j) * x1 (ix2 r j))
      = ∑ r : Fin 400, ext0 (rowTerm V c h j) (400 * n + r.val) := by
  refine Finset.sum_congr rfl fun r _ => ?_
  have hr : 400 * n + r.val < 10000 := by have := r.isLt; omega
  rw [ext0_of_lt _ hr, h2 r j, h1 r j,
    denseProd_row x0 (aX0 V c) x3 (aW0 V c) r ⟨400 * n + r.val, hr⟩ h (fun k => h0 r k) (fun k => by rw [h3])]

/-! ## The running sum -/

/-- After point n the resident buffer holds, at (h, j), the sum of the row terms of rows 0 … 400 (n + 1) − 1. -/
theorem acc1_apply (h : Fin 64) (j : Fin 2000) : ∀ (n : ℕ) (hn : n < cfg1.N),
    acc1 (F := Ideal) V c n hn (ix2 h j) = ∑ k ∈ Finset.range (400 * (n + 1)), ext0 (rowTerm V c h j) k
  | 0, hn => by
    have hN : cfg1.N = 25 := N_1
    show out1_10A (F := Ideal) (iblk1 V c 0 ⟨0, hn⟩) (iblk1 V c 1 ⟨0, hn⟩) (iblk1 V c 2 ⟨0, hn⟩) (iblk1 V c 3 ⟨0, hn⟩) (ix2 h j) = _
    refine (out1_10A_apply (iblk1 V c 0 ⟨0, hn⟩) (iblk1 V c 1 ⟨0, hn⟩) (iblk1 V c 2 ⟨0, hn⟩) (iblk1 V c 3 ⟨0, hn⟩) h j).trans ?_
    refine (contrib_rows V c _ _ _ _ 0 (by omega)
      (fun p k => blk0_apply V c ⟨0, hn⟩ p k _) (fun p j => blk1_apply V c ⟨0, hn⟩ p j _)
      (fun p j => blk2_apply V c ⟨0, hn⟩ p j _) (blk3_eq V c ⟨0, hn⟩) h j).trans ?_
    rw [show 400 * (0 + 1) = 400 * 0 + 400 from rfl, range_add_chunk, Nat.mul_zero, Finset.range_zero, Finset.sum_empty,
      zero_add]
  | n + 1, hn => by
    have hN : cfg1.N = 25 := N_1
    show out1_10B (F := Ideal) (iblk1 V c 0 ⟨n + 1, hn⟩) (iblk1 V c 1 ⟨n + 1, hn⟩) (iblk1 V c 2 ⟨n + 1, hn⟩)
      (iblk1 V c 3 ⟨n + 1, hn⟩) (acc1 V c n (Nat.lt_of_succ_lt hn)) (ix2 h j) = _
    refine (out1_10B_apply (iblk1 V c 0 ⟨n + 1, hn⟩) (iblk1 V c 1 ⟨n + 1, hn⟩) (iblk1 V c 2 ⟨n + 1, hn⟩)
      (iblk1 V c 3 ⟨n + 1, hn⟩) (acc1 V c n (Nat.lt_of_succ_lt hn)) h j).trans ?_
    rw [acc1_apply h j n (Nat.lt_of_succ_lt hn),
      contrib_rows V c _ _ _ _ (n + 1) (by omega)
        (fun p k => blk0_apply V c ⟨n + 1, hn⟩ p k _) (fun p j => blk1_apply V c ⟨n + 1, hn⟩ p j _)
        (fun p j => blk2_apply V c ⟨n + 1, hn⟩ p j _) (blk3_eq V c ⟨n + 1, hn⟩) h j,
      show 400 * (n + 1 + 1) = 400 * (n + 1) + 400 from by omega, range_add_chunk]

/-- After the last point the resident buffer holds the full sums over the 10000 rows. -/
theorem acc1_last (h : Fin 64) (j : Fin 2000) :
    acc1 (F := Ideal) V c 24 (by rw [show cfg1.N = 25 from N_1]; decide) (ix2 h j) = ∑ r : Fin 10000, rowTerm V c h j r :=
  (acc1_apply V c h j 24 _).trans (sum_eq_range (rowTerm V c h j)).symm

/-! ## The array the resident buffer is written back to -/

/-- The full sums over the 10000 rows, as one [64, 2000] array. -/
abbrev aggregate : S64x2000.Idx → EReal := fun i => ∑ r : Fin 10000, rowTerm V c (i 0) (i 1) r

/-- After the last point the resident buffer is that array. -/
theorem acc1_last_eq (hn : 24 < cfg1.N) : (acc1 (F := Ideal) V c 24 hn : S64x2000.Idx → EReal) = aggregate V c :=
  funext fun y => by
    obtain ⟨a, b, rfl⟩ : ∃ a b, y = ix2 a b := ⟨y 0, y 1, eq_ix2 y⟩
    exact acc1_last V c a b

/-- An index of the array is in point t's block iff each coordinate is in the block's range on its axis. -/
theorem mem_blk10 (t : Fin cfg1.N) (i : S64x2000.Idx) :
    i ∈ ((cfg1.win 10).blk t).view.set ↔ ∀ a : Fin 2, win1_10.index t a * S64x2000.size a ≤ (i a).val
      ∧ (i a).val < win1_10.index t a * S64x2000.size a + S64x2000.size a := by
  show i ∈ ((View.whole main_call0_v4_2).slice (win1_10.rect t)).set ↔ _
  rw [View.set_slice_whole, Rect.mem_set_unit]
  exact Iff.rfl

/-- The one write-back, at the last point, writes the full sums: the block at index (0, 0) of the whole extents is the
    array itself. -/
theorem flushed10_eq (t : Fin cfg1.N) (hf : (cfg1.win 10).flush t = true) :
    (dat1 (F := Ideal) V c).flushed 10 t = ((cfg1.win 10).blk t).view.read (Elt Ideal) (aggregate V c) := by
  have hN : cfg1.N = 25 := N_1
  have h24 : t.val = 24 := by have := (flush1_10 t).mp hf; have := t.isLt; omega
  obtain ⟨e0, e1⟩ := (idx_facts t).2.2.2.2
  have hacc : (acc1 (F := Ideal) V c t.val t.isLt : S64x2000.Idx → EReal) = aggregate V c := by
    obtain ⟨tv, ht⟩ := t
    dsimp only at h24
    subst h24
    exact acc1_last_eq V c ht
  show (cfg1.win 10).cut (grid1.coords t) ((dat1 V c).after 10 t) = _
  rw [after1_10, hacc]
  funext y
  show aggregate V c y = aggregate V c (((cfg1.win 10).blk t).view.emb y)
  congr 1
  funext a
  apply Fin.ext
  match a with
  | ⟨0, _⟩ => show (y 0).val = win1_10.index t (0 : Fin 2) * 64 + 1 * (y 0).val; rw [e0]; omega
  | ⟨1, _⟩ => show (y 1).val = win1_10.index t (1 : Fin 2) * 2000 + 1 * (y 1).val; rw [e1]; omega

/-- THE ARRAY after the region: entry (h, j) is the sum over all 10000 rows r of (x0 · W0)[r, h] · (mask[r, j] · adj[r, j]).
    The last point's block covers the array. -/
theorem arr10_final : (dat1 (F := Ideal) V c).arrAt 10 cfg1.N
    = fun i : S64x2000.Idx => ∑ r : Fin 10000,
        denseProd (aX0 V c) (aW0 V c) (ix2 r (i 0)) * (aMASK V c (ix2 r (i 1)) * aADJ V c (ix2 r (i 1))) :=
  (dat1 V c).arrAt_eq_of_cover 10 (aggregate V c) (flushed10_eq V c) fun i => by
    have hN : cfg1.N = 25 := N_1
    have h24 : 24 < cfg1.N := by rw [hN]; decide
    refine ⟨⟨24, h24⟩, (flush1_10 ⟨24, h24⟩).mpr rfl, ?_⟩
    obtain ⟨e0, e1⟩ := (idx_facts ⟨24, h24⟩).2.2.2.2
    rw [mem_blk10]
    intro a
    have h0 : (i 0).val < 64 := (i 0).isLt
    have h1 : (i 1).val < 2000 := (i 1).isLt
    match a with
    | ⟨0, _⟩ =>
      show win1_10.index ⟨24, h24⟩ (0 : Fin 2) * 64 ≤ (i 0).val ∧ (i 0).val < win1_10.index ⟨24, h24⟩ (0 : Fin 2) * 64 + 64
      rw [e0]; omega
    | ⟨1, _⟩ =>
      show win1_10.index ⟨24, h24⟩ (1 : Fin 2) * 2000 ≤ (i 1).val ∧ (i 1).val < win1_10.index ⟨24, h24⟩ (1 : Fin 2) * 2000 + 2000
      rw [e1]; omega

end Cert.Hand.Acc

end
-- ==== Proof.KernelValue.lean ====
/-
  The idealized kernel program's three results are the specification's. The second region's row blocks assemble to
  the hidden features and the reconstruction in the kernel's arrangement `(s0 + e · s3) + (b0 + b3)`; the aggregate
  accumulated over the grid, transposed, plus `s3`, plus `b0 + b3`, is the kernel's arrangement of the second node
  type's features. Against the specification's `(s0 + b0) + (e · s3 + b3)` and `(s3 + b3) + (eᵀ · s0 + b0)` only
  commutativity and associativity of the sum, and commutativity of each product `s0[r, h] · e[r, j]`, are used: laws
  that hold on the extended reals with the infinities included, so no input is assumed finite.
-/
import proofs.«139756_g50276887167361_cont_8to1_c_1049_28_alg».proof.Proof.KernelHost
import proofs.«139756_g50276887167361_cont_8to1_c_1049_28_alg».proof.Proof.RowFinals
import proofs.«139756_g50276887167361_cont_8to1_c_1049_28_alg».proof.Proof.AccFinal
import proofs.«139756_g50276887167361_cont_8to1_c_1049_28_alg».proof.Proof.Spec

noncomputable section

namespace Cert.Hand.KV

open Idealize.ShloMosaic Idealize.ShloMosaic.TcCoe Idealize.ShloMosaic.ValueIdx Idealize.SL.Sem
open Idealize.ShloMosaic.Pipeline (Dat)
open Cert.LibDense Cert.KernelIdeal Cert.KernelIdeal.Gen Cert.KernelIdeal.Hand Cert.Hand.KHost

/-! ## The two rearrangements, on the extended reals -/

/-- `(s + e) + (b0 + b3) = (s + b0) + (e + b3)`. -/
theorem hid0_join (s e b0 b3 : EReal) : (s + e) + (b0 + b3) = (s + b0) + (e + b3) := add_add_add_comm s e b0 b3

/-- `(a + s3) + (b0 + b3) = (s3 + b3) + (a + b0)`. -/
theorem hid3_join (a s3 b0 b3 : EReal) : (a + s3) + (b0 + b3) = (s3 + b3) + (a + b0) := by
  rw [add_comm a s3, add_comm b0 b3, add_add_add_comm]

variable (m : (ℓ : Loc nD τ sig) → Buf (Elt Ideal) ℓ) (ρ : Dev nD → PrngReg)

/-- The aggregate's entry `(h, j)`, a sum of `s0[r, h] · e[r, j]` over the rows, is entry `(j, h)` of `eᵀ · s0`. -/
theorem agg_eq (c : Dev nD) (j : Fin 2000) (h : Fin 64) :
    (∑ r : Fin 10000, denseProd (aX0 m c) (aW0 m c) (ix2 r h) * (aMASK m c (ix2 r j) * aADJ m c (ix2 r j)))
      = denseProd (Spec.maskedT (aMASK m c) (aADJ m c)) (denseProd (aX0 m c) (aW0 m c)) (ix2 j h) := by
  rw [denseProd_apply]
  exact Finset.sum_congr rfl fun r _ => mul_comm _ _

/-- The third result is the second node type's hidden features. -/
theorem kv_hid3 (c : Dev nD) :
    asVec S2000x64 (W4 m ρ c (Proc.devRef .tc main_v0_2))
      = Spec.hid3 (aX0 m c) (aX3 m c) (aADJ m c) (aMASK m c) (aW0 m c) (aB0 m c) (aW3 m c) (aB3 m c) := by
  funext i
  obtain ⟨j, h, rfl⟩ : ∃ (j : Fin 2000) (h : Fin 64), i = ix2 j h := ⟨i 0, i 1, eq_ix2 i⟩
  rw [W4_hid3_apply]
  rw [show asVec S64x2000 ((dat1 (V2 m ρ) c).arrAt 10 cfg1.N) = _ from Cert.Hand.Acc.arr10_final (V2 m ρ) c,
    show asVec S2000x64 ((dat0 (V0 m ρ) c).arrAt 2 cfg0.N) = _ from Cert.Hand.Fin.final0_2 (V0 m ρ) c]
  dsimp only [Cert.Hand.Acc.aX0, Cert.Hand.Acc.aW0, Cert.Hand.Acc.aMASK, Cert.Hand.Acc.aADJ]
  rw [V2_arg0, V2_arg2, V2_arg3, V2_arg4]
  refine (hid3_join _ _ _ _).trans ?_
  unfold Spec.hid3
  exact congrArg₂ (· + ·) rfl (congrArg₂ (· + ·) (agg_eq m c j h) rfl)

/-- The kernel's arrangement of the first node type's hidden features, over what the second region finds, is the
    specification's. -/
theorem hid0_V2 (c : Dev nD) :
    (fun i : S10000x64.Idx => (denseProd (Cert.Hand.Fin.X0 (V2 m ρ) c) (Cert.Hand.Fin.W0 (V2 m ρ) c) i
        + denseProd (fun k => Cert.Hand.Fin.MASK (V2 m ρ) c k * Cert.Hand.Fin.ADJ (V2 m ρ) c k) (Cert.Hand.Fin.S3 (V2 m ρ) c) i)
        + Cert.Hand.Fin.B (V2 m ρ) c (ix2 0 (i 1)))
      = Spec.hid0 (aX0 m c) (aX3 m c) (aADJ m c) (aMASK m c) (aW0 m c) (aB0 m c) (aW3 m c) (aB3 m c) := by
  funext i
  obtain ⟨r, h, rfl⟩ : ∃ (r : Fin 10000) (h : Fin 64), i = ix2 r h := ⟨i 0, i 1, eq_ix2 i⟩
  dsimp only [Cert.Hand.Fin.X0, Cert.Hand.Fin.W0, Cert.Hand.Fin.MASK, Cert.Hand.Fin.ADJ, Cert.Hand.Fin.S3, Cert.Hand.Fin.B]
  rw [V2_arg0, V2_arg2, V2_arg3, V2_arg4, V2_s3, Cert.Hand.Fin.final0_2 (V0 m ρ) c]
  refine (congrArg₂ (· + ·) rfl (V2_bias_apply m ρ c h)).trans ?_
  refine (hid0_join _ _ _ _).trans ?_
  unfold Spec.hid0 Spec.masked
  rfl

/-- The second result is the first node type's hidden features. -/
theorem kv_hid0 (c : Dev nD) :
    asVec S10000x64 (W4 m ρ c (Proc.devRef .tc main_v0_1))
      = Spec.hid0 (aX0 m c) (aX3 m c) (aADJ m c) (aMASK m c) (aW0 m c) (aB0 m c) (aW3 m c) (aB3 m c) :=
  ((W4_hid0 m ρ c).trans (Cert.Hand.Fin.final1_9 (V2 m ρ) c)).trans (hid0_V2 m ρ c)

/-- The first result is the reconstruction. -/
theorem kv_recon (c : Dev nD) :
    asVec S10000x2000 (W4 m ρ c (Proc.devRef .tc main_v0_0))
      = Spec.recon (aX0 m c) (aX3 m c) (aADJ m c) (aMASK m c) (aW0 m c) (aB0 m c) (aW3 m c) (aB3 m c) (aWP m c) (aBP m c) := by
  refine ((W4_recon m ρ c).trans (Cert.Hand.Fin.final1_8 (V2 m ρ) c)).trans ?_
  funext i
  obtain ⟨r, q, rfl⟩ : ∃ (r : Fin 10000) (q : Fin 2000), i = ix2 r q := ⟨i 0, i 1, eq_ix2 i⟩
  have hg := funext fun j : S10000x64.Idx =>
    congrArg (fun x : EReal => max x (Ideal.ofBits .f32 0x00000000#32)) (congrFun (hid0_V2 m ρ c) j)
  refine (congrArg₂ (· + ·)
    ((congrArg (fun g => denseProd (n0 := 10000) (nk := 64) (n1 := 2000) g (Cert.Hand.Fin.WP (V2 m ρ) c) (ix2 r q)) hg).trans
      (congrArg (fun w => denseProd (n0 := 10000) (nk := 64) (n1 := 2000)
        (fun j => max (Spec.hid0 (aX0 m c) (aX3 m c) (aADJ m c) (aMASK m c) (aW0 m c) (aB0 m c) (aW3 m c) (aB3 m c) j) Spec.zeroWord) w (ix2 r q)) (V2_arg8 m ρ c)))
    (V2_bp_apply m ρ c q)).trans ?_
  rfl

end Cert.Hand.KV

end
-- ==== Proof.Algebraic.lean ====
/-
  The two idealized programs, run from memories that agree on the ten arguments, end with equal results: the kernel
  program's run leaves its three results at the specification of its own arguments, the reference's run leaves its
  three results at the specification of its arguments, and the arguments agree.
-/
import proofs.«139756_g50276887167361_cont_8to1_c_1049_28_alg».proof.Defs
import proofs.«139756_g50276887167361_cont_8to1_c_1049_28_alg».proof.Proof.Gen.Pre_finite_inputs
import proofs.«139756_g50276887167361_cont_8to1_c_1049_28_alg».proof.Proof.KernelValue
import proofs.«139756_g50276887167361_cont_8to1_c_1049_28_alg».proof.Proof.RefSide
import proofs.«139756_g50276887167361_cont_8to1_c_1049_28_alg».proof.Proof.KI.FrameOf

noncomputable section

namespace Cert.Hand.Alg

open Idealize.ShloMosaic Idealize.ShloMosaic.TcCoe Idealize.SL.Sem
open Cert.KernelIdeal Cert.KernelIdeal.Gen Cert.KernelIdeal.Hand Cert.Hand.KHost Cert.Hand.KV

theorem algebraic : Cert.algebraic_KernelIdeal_ReferenceIdeal := by
  intro m ρ m' ρ' _ hagree
  refine ⟨fun c => Spec.recon (aX0 m c) (aX3 m c) (aADJ m c) (aMASK m c) (aW0 m c) (aB0 m c) (aW3 m c) (aB3 m c) (aWP m c) (aBP m c), fun c => Spec.hid0 (aX0 m c) (aX3 m c) (aADJ m c) (aMASK m c) (aW0 m c) (aB0 m c) (aW3 m c) (aB3 m c), fun c => Spec.hid3 (aX0 m c) (aX3 m c) (aADJ m c) (aMASK m c) (aW0 m c) (aB0 m c) (aW3 m c) (aB3 m c), ?_, ?_⟩
  · exact (θ_run Cert.KernelIdeal.defs _ _).mono (fun r h c => ⟨
      (h c _ (mem_uc main_v0_0 (by decide))).trans (kv_recon m ρ c),
      (h c _ (mem_uc main_v0_1 (by decide))).trans (kv_hid0 m ρ c),
      (h c _ (mem_uc main_v0_2 (by decide))).trans (kv_hid3 m ρ c),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c),
      (h c _ (mem_uc main_arg9 (by decide))).trans (W4_main_arg9 m ρ c)⟩) (run_all m ρ)
  · refine (θ_run Cert.ReferenceIdeal.defs _ _).mono (fun r h c => ?_) (Cert.Hand.Ref.ref_run m' ρ')
    obtain ⟨h27, h14, h21, hargs⟩ := h c
    obtain ⟨e0, e1, e2, e3, e4, e5, e6, e7, e8, e9⟩ := hagree c
    refine ⟨h27.trans ?_, h14.trans ?_, h21.trans ?_, hargs⟩
    · rw [e0, e1, e2, e3, e4, e5, e6, e7, e8, e9]
    · rw [e0, e1, e2, e3, e4, e5, e6, e7]
    · rw [e0, e1, e2, e3, e4, e5, e6, e7]

end Cert.Hand.Alg

end
-- ==== Proof.lean ====
/-
  One layer of a graph convolution over two node types — hidden features of both types and the reconstruction of the
  masked adjacency — as a two-kernel pipelined program, against its plain array reference.

  The five claims. Each of the three programs runs to the end, faults nowhere and leaves its ten argument arrays as
  launched: for the two kernel programs (the word-level one and its reading on the extended reals, the same text) by
  running the two pipelined regions point by point between the host operations; for the reference by its run read
  back. The idealization rewrote nothing, so there is nothing to preserve. And on the extended reals the two programs
  compute the same three arrays: the kernel sums `(s0 + e · s3) + (b0 + b3)` where the reference sums
  `(s0 + b0) + (e · s3 + b3)`, and accumulates `s0ᵀ · e` over 25 blocks of 400 rows where the reference contracts all
  10000 rows at once — equal by commutativity and associativity alone.
-/
import proofs.«139756_g50276887167361_cont_8to1_c_1049_28_alg».proof.Defs
import proofs.«139756_g50276887167361_cont_8to1_c_1049_28_alg».proof.Proof.Gen.Kernel
import proofs.«139756_g50276887167361_cont_8to1_c_1049_28_alg».proof.Proof.Gen.KernelIdeal
import proofs.«139756_g50276887167361_cont_8to1_c_1049_28_alg».proof.Proof.Gen.ReferenceIdeal
import proofs.«139756_g50276887167361_cont_8to1_c_1049_28_alg».proof.Proof.Gen.Pre_finite_inputs
import proofs.«139756_g50276887167361_cont_8to1_c_1049_28_alg».proof.Proof.K.FrameOf
import proofs.«139756_g50276887167361_cont_8to1_c_1049_28_alg».proof.Proof.KI.FrameOf
import proofs.«139756_g50276887167361_cont_8to1_c_1049_28_alg».proof.Proof.RefSide
import proofs.«139756_g50276887167361_cont_8to1_c_1049_28_alg».proof.Proof.Algebraic

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  Cert.Hand.Ref.frame_ri,
  trivial,
  Cert.Hand.Alg.algebraic⟩

end Cert.Proof

end
